-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v130_0)) (v1 : (c : Dev Cert.KernelIdeal.nD) → Buf (Elt Ideal) ((c.tc : Thread Cert.KernelIdeal.nD Cert.KernelIdeal.τ).loc Cert.KernelIdeal.main_v130_1)) (v2 : (c : Dev Cert.KernelIdeal.nD) → Buf (Elt Ideal) ((c.tc : Thread Cert.KernelIdeal.nD Cert.KernelIdeal.τ).loc Cert.KernelIdeal.main_v130_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130_0) = v0 c
          ∧ r.2.mem ((c.tc : Thread Cert.KernelIdeal.nD Cert.KernelIdeal.τ).loc Cert.KernelIdeal.main_v130_1) = v1 c
          ∧ r.2.mem ((c.tc : Thread Cert.KernelIdeal.nD Cert.KernelIdeal.τ).loc Cert.KernelIdeal.main_v130_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S100000 : Shape := ⟨1, ![100000]⟩
abbrev S6x32 : Shape := ⟨2, ![6, 32]⟩
abbrev S32 : Shape := ⟨1, ![32]⟩
abbrev S4x32x32 : Shape := ⟨3, ![4, 32, 32]⟩
abbrev S4x32 : Shape := ⟨2, ![4, 32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S4x32x32 : S_.BroadcastsInDim S4x32x32 (![] : Fin 0 → Fin S4x32x32.rank)
  reducesTo_S4x32x32_S_d0_1_2 : S4x32x32.ReducesTo [0, 1, 2] S_
  bcast_S_S4x32 : S_.BroadcastsInDim S4x32 (![] : Fin 0 → Fin S4x32.rank)
  reducesTo_S4x32_S_d0_1 : S4x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S32x32 .f32) (main_arg10 : FVec F S32 .f32) (main_arg11 : FVec F S32x32 .f32) (main_arg12 : FVec F S32 .f32) (main_arg13 : FVec F S32x1 .f32) (main_arg14 : FVec F S1 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S4x32 .f32) (main_arg7 : FVec F S32x32 .f32) (main_arg8 : FVec F S32 .f32) (main_arg9 : FVec F S32x32 .f32) (main_arg10 : FVec F S32 .f32) (main_arg11 : FVec F S32x32 .f32) (main_arg12 : FVec F S32 .f32) (main_arg13 : FVec F S32x1 .f32) (main_arg14 : FVec F S1 .f32) (main_v13 : IVec S_ 1) (main_v16 : IVec S4x32x32 1) : IVec S_ 1 :=
  let main_c_5 : IVec S_ 1 := constantI S_ 1 1#1
  let main_v17 : IVec S_ 1 := (fun x v => Host.reduce IntOp.andi x v reducesTo_S4x32x32_S_d0_1_2 h_S_) main_v16 main_c_5
  let main_v18 : IVec S_ 1 := andi main_v13 main_v17
  let main_v19 : FVec F S4x32 .f32 := Host.absf main_arg6
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x6 .f32) (main_arg1 : IVec S2x3200000 32) (main_arg2 : IVec S100000 32) (main_arg3 : FVec F S6x32 .f32) (main_arg4 : FVec F S32 .f32) (main_arg5 : FVec F S4x32x32 .f32) (main_arg6 : FVec F S4x32 .f32) (main_arg7 : FVec F S32x32 .f32) (main_arg8 : FVec F S32 .f32) (main_arg9 : FVec F S32x32 .f32) (main_arg10 : FVec F S32 .f32) (main_arg11 : FVec F S32x32 .f32) (main_arg12 : FVec F S32 .f32) (main_arg13 : FVec F S32x1 .f32) (main_arg14 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x32 .f32 := Host.absf main_arg3
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S4x32x32 .f32 := Host.absf main_arg5
  let main_cst_4 : FVec F S_ .f32 := constant S_ .f32 0x7F800000#32
  let main_v15 : FVec F S4x32x32 .f32 := broadcastInDim S4x32x32 ![] bcast_S_S4x32x32 main_cst_4
  let main_v16 : IVec S4x32x32 1 := cmpf .olt main_v14 main_v15
  fn_part1 (F := F) main_arg6 main_arg7 main_arg8 main_arg9 main_arg10 main_arg11 main_arg12 main_arg13 main_arg14 main_v13 main_v16
-- ==== Kernel.lean ====
abbrev S100000x6 : Shape := ⟨2, ![100000, 6]⟩
abbrev S2x3200000 : Shape := ⟨2, ![2, 3200000]⟩
abbrev S100000 : Shape := ⟨1, ![100000]⟩
abbrev S6x32 : Shape := ⟨2, ![6, 32]⟩
abbrev S32 : Shape := ⟨1, ![32]⟩
abbrev S4x32x32 : Shape := ⟨3, ![4, 32, 32]⟩
abbrev S4x32 : Shape := ⟨2, ![4, 32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x32 : Shape := ⟨2, ![1, 32]⟩
abbrev S100000x32 : Shape := ⟨2, ![100000, 32]⟩
abbrev S10000x6 : Shape := ⟨2, ![10000, 6]⟩
abbrev S10000x32 : Shape := ⟨2, ![10000, 32]⟩
abbrev S1x32x32 : Shape := ⟨3, ![1, 32, 32]⟩
abbrev S3300000x32 : Shape := ⟨2, ![3300000, 32]⟩
abbrev S10000x1 : Shape := ⟨2, ![10000, 1]⟩
abbrev S2048x32 : Shape := ⟨2, ![2048, 32]⟩
abbrev S100000x1 : Shape := ⟨2, ![100000, 1]⟩
abbrev S2048 : Shape := ⟨1, ![2048]⟩
abbrev S2048x1 : Shape := ⟨2, ![2048, 1]⟩
abbrev S1x1 : Shape := ⟨2, ![1, 1]⟩

abbrev nBuf : Space → Nat
  | .hbm => 174
  | .vmem => 66
  | .smem => 0
  | _ => 0

abbrev hbmTy0_0 (i : Nat) : BufTy := match i % 128 with
  | 0 => ⟨S100000x6, .f32⟩
  | 1 => ⟨S2x3200000, .i32⟩
  | 2 => ⟨S100000, .i32⟩
  | 3 => ⟨S6x32, .f32⟩
  | 4 => ⟨S32, .f32⟩
  | 5 => ⟨S4x32x32, .f32⟩
  | 6 => ⟨S4x32, .f32⟩
  | 7 => ⟨S32x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x1, .f32⟩
  | 14 => ⟨S1, .f32⟩
  | 15 => ⟨S100000, .i32⟩
  | 16 => ⟨S1x3200000, .i32⟩
  | 17 => ⟨S3200000, .i32⟩
  | 18 => ⟨S3300000, .i32⟩
  | 19 => ⟨S1x3200000, .i32⟩
  | 20 => ⟨S3200000, .i32⟩
  | 21 => ⟨S3300000, .i32⟩
  | 22 => ⟨S_, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S3300000x1, .f32⟩
  | 49 => ⟨S1x32, .f32⟩
  | 50 => ⟨S100000x32, .f32⟩
  | 51 => ⟨S_, .f32⟩
  | 52 => ⟨S32, .f32⟩
  | 53 => ⟨S1x32x32, .f32⟩
  | 54 => ⟨S32x32, .f32⟩
  | 55 => ⟨S1x32, .f32⟩
  | 56 => ⟨S100000x32, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x32, .f32⟩
  | 66 => ⟨S3300000x32, .f32⟩
  | 67 => ⟨S_, .f32⟩
  | 68 => ⟨S100000x32, .f32⟩
  | 69 => ⟨S3300000x1, .i32⟩
  | 70 => ⟨S100000x32, .f32⟩
  | 71 => ⟨S1x32, .f32⟩
  | 72 => ⟨S32, .f32⟩
  | 73 => ⟨S1x32, .f32⟩
  | 74 => ⟨S100000x32, .f32⟩
  | 75 => ⟨S100000x32, .f32⟩
  | 76 => ⟨S_, .f32⟩
  | 77 => ⟨S32, .f32⟩
  | 78 => ⟨S1x32x32, .f32⟩
  | 79 => ⟨S32x32, .f32⟩
  | 80 => ⟨S1x32, .f32⟩
  | 81 => ⟨S100000x32, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x32, .f32⟩
  | 91 => ⟨S3300000x32, .f32⟩
  | 92 => ⟨S_, .f32⟩
  | 93 => ⟨S100000x32, .f32⟩
  | 94 => ⟨S3300000x1, .i32⟩
  | 95 => ⟨S100000x32, .f32⟩
  | 96 => ⟨S1x32, .f32⟩
  | 97 => ⟨S32, .f32⟩
  | 98 => ⟨S1x32, .f32⟩
  | 99 => ⟨S100000x32, .f32⟩
  | 100 => ⟨S100000x32, .f32⟩
  | 101 => ⟨S_, .f32⟩
  | 102 => ⟨S32, .f32⟩
  | 103 => ⟨S1x32x32, .f32⟩
  | 104 => ⟨S32x32, .f32⟩
  | 105 => ⟨S1x32, .f32⟩
  | 106 => ⟨S100000x32, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x32, .f32⟩
  | 116 => ⟨S3300000x32, .f32⟩
  | 117 => ⟨S_, .f32⟩
  | 118 => ⟨S100000x32, .f32⟩
  | 119 => ⟨S3300000x1, .i32⟩
  | 120 => ⟨S100000x32, .f32⟩
  | 121 => ⟨S1x32, .f32⟩
  | 122 => ⟨S32, .f32⟩
  | 123 => ⟨S1x32, .f32⟩
  | 124 => ⟨S100000x32, .f32⟩
  | 125 => ⟨S100000x32, .f32⟩
  | 126 => ⟨S_, .f32⟩
  | 127 => ⟨S32, .f32⟩
  | _ => ⟨S100000x6, .f32⟩

abbrev hbmTy0_1 (i : Nat) : BufTy := match i % 128 with
  | 0 => ⟨S1x32x32, .f32⟩
  | 1 => ⟨S32x32, .f32⟩
  | 2 => ⟨S1x32, .f32⟩
  | 3 => ⟨S100000x32, .f32⟩
  | 4 => ⟨S_, .i32⟩
  | 5 => ⟨S3300000, .i32⟩
  | 6 => ⟨S3300000, .i1⟩
  | 7 => ⟨S_, .i32⟩
  | 8 => ⟨S3300000, .i32⟩
  | 9 => ⟨S3300000, .i32⟩
  | 10 => ⟨S3300000, .i32⟩
  | 11 => ⟨S3300000x1, .i32⟩
  | 12 => ⟨S3300000x32, .f32⟩
  | 13 => ⟨S3300000x32, .f32⟩
  | 14 => ⟨S_, .f32⟩
  | 15 => ⟨S100000x32, .f32⟩
  | 16 => ⟨S3300000x1, .i32⟩
  | 17 => ⟨S100000x32, .f32⟩
  | 18 => ⟨S1x32, .f32⟩
  | 19 => ⟨S32, .f32⟩
  | 20 => ⟨S1x32, .f32⟩
  | 21 => ⟨S100000x32, .f32⟩
  | 22 => ⟨S100000x32, .f32⟩
  | 23 => ⟨S_, .f32⟩
  | 24 => ⟨S2048x32, .f32⟩
  | 25 => ⟨S100000x1, .i32⟩
  | 26 => ⟨S2048x32, .f32⟩
  | 27 => ⟨S_, .f32⟩
  | 28 => ⟨S100000, .f32⟩
  | 29 => ⟨S_, .f32⟩
  | 30 => ⟨S2048, .f32⟩
  | 31 => ⟨S100000x1, .i32⟩
  | 32 => ⟨S2048, .f32⟩
  | 33 => ⟨S_, .f32⟩
  | 34 => ⟨S2048, .f32⟩
  | 35 => ⟨S2048, .f32⟩
  | 36 => ⟨S2048x1, .f32⟩
  | 37 => ⟨S2048x32, .f32⟩
  | 38 => ⟨S2048x32, .f32⟩
  | 39 => ⟨S1x32, .f32⟩
  | 40 => ⟨S1x32, .f32⟩
  | 41 => ⟨S1x32, .f32⟩
  | 42 => ⟨S1x1, .f32⟩
  | 43 => ⟨S2048x32, .f32⟩
  | 44 => ⟨S2048x32, .f32⟩
  | 45 => ⟨S2048x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S32x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x1, .f32⟩
  | .local _ .vmem, ⟨15, _⟩ => ⟨S10000x1, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S32x32, .f32⟩
  | .local _ .vmem, ⟨21, _⟩ => ⟨S1x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x1, .f32⟩
  | .local _ .vmem, ⟨27, _⟩ => ⟨S10000x1, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S32x32, .f32⟩
  | .local _ .vmem, ⟨33, _⟩ => ⟨S1x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S10000x1, .f32⟩
  | .local _ .vmem, ⟨39, _⟩ => ⟨S10000x1, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S32x32, .f32⟩
  | .local _ .vmem, ⟨45, _⟩ => ⟨S1x32, .f32⟩
  | .local _ .vmem, ⟨46, _⟩ => ⟨S10000x32, .f32⟩
  | .local _ .vmem, ⟨47, _⟩ => ⟨S10000x32, .f32⟩
  | .local _ .vmem, ⟨48, _⟩ => ⟨S10000x32, .f32⟩
  | .local _ .vmem, ⟨49, _⟩ => ⟨S10000x32, .f32⟩
  | .local _ .vmem, ⟨50, _⟩ => ⟨S10000x1, .f32⟩
  | .local _ .vmem, ⟨51, _⟩ => ⟨S10000x1, .f32⟩
  | .local _ .vmem, ⟨52, _⟩ => ⟨S10000x32, .f32⟩
  | .local _ .vmem, ⟨53, _⟩ => ⟨S10000x32, .f32⟩
  | .local _ .vmem, ⟨54, _⟩ => ⟨S2048x32, .f32⟩
  | .local _ .vmem, ⟨55, _⟩ => ⟨S32x32, .f32⟩
  | .local _ .vmem, ⟨56, _⟩ => ⟨S1x32, .f32⟩
  | .local _ .vmem, ⟨57, _⟩ => ⟨S32x32, .f32⟩
  | .local _ .vmem, ⟨58, _⟩ => ⟨S1x32, .f32⟩
  | .local _ .vmem, ⟨59, _⟩ => ⟨S32x32, .f32⟩
  | .local _ .vmem, ⟨60, _⟩ => ⟨S1x32, .f32⟩
  | .local _ .vmem, ⟨61, _⟩ => ⟨S32x1, .f32⟩
  | .local _ .vmem, ⟨62, _⟩ => ⟨S1x1, .f32⟩
  | .local _ .vmem, ⟨63, _⟩ => ⟨S2048x32, .f32⟩
  | .local _ .vmem, ⟨64, _⟩ => ⟨S2048x32, .f32⟩
  | .local _ .vmem, ⟨65, _⟩ => ⟨S2048x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_c_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_17 : Ref sig .tc := ⟨.hbm, 132, rfl⟩
abbrev main_v98 : Ref sig .tc := ⟨.hbm, 133, rfl⟩
abbrev main_v99 : Ref sig .tc := ⟨.hbm, 134, rfl⟩
abbrev main_c_18 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_19 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_20 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_21 : Ref sig .tc := ⟨.hbm, 155, rfl⟩
abbrev main_v117 : Ref sig .tc := ⟨.hbm, 156, rfl⟩
abbrev main_cst_22 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_23 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130_0 : Ref sig .tc := ⟨.hbm, 171, rfl⟩
abbrev main_v130_1 : Ref sig .tc := ⟨.hbm, 172, rfl⟩
abbrev main_v130_2 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc9_stg5_0 : Ref sig .tc := ⟨.vmem, 59, rfl⟩
abbrev cc9_stg6_0 : Ref sig .tc := ⟨.vmem, 60, rfl⟩
abbrev cc9_stg7_0 : Ref sig .tc := ⟨.vmem, 61, rfl⟩
abbrev cc9_stg8_0 : Ref sig .tc := ⟨.vmem, 62, rfl⟩
abbrev cc9_stg9_0 : Ref sig .tc := ⟨.vmem, 63, rfl⟩
abbrev cc9_stg10_0 : Ref sig .tc := ⟨.vmem, 64, rfl⟩
abbrev cc9_stg11_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem1_0 : DmaSem sig := 55
abbrev cc9_sem2_0 : DmaSem sig := 56
abbrev cc9_sem3_0 : DmaSem sig := 57
abbrev cc9_sem4_0 : DmaSem sig := 58
abbrev cc9_sem5_0 : DmaSem sig := 59
abbrev cc9_sem6_0 : DmaSem sig := 60
abbrev cc9_sem7_0 : DmaSem sig := 61
abbrev cc9_sem8_0 : DmaSem sig := 62
abbrev cc9_sem9_0 : DmaSem sig := 63
abbrev cc9_sem10_0 : DmaSem sig := 64
abbrev cc9_sem11_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![330], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![330], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![330], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![330], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S2048x32 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S32x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S32x32 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x32 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S32x1 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x1 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S2048x32 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S2048x32 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S2048x1 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S32_S1x32 : S32.ShapeCasts S1x32
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S32 : S_.BroadcastsInDim S32 (![] : Fin 0 → Fin S32.rank)
  slices_S4x32x32_S1x32x32_0_0_0 : S4x32x32.Slices ![0, 0, 0] S1x32x32
  shapeCasts_S1x32x32_S32x32 : S1x32x32.ShapeCasts S32x32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bcast_S_S100000x32 : S_.BroadcastsInDim S100000x32 (![] : Fin 0 → Fin S100000x32.rank)
  slices_S4x32_S1x32_0_0 : S4x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  bcast_S_S2048x32 : S_.BroadcastsInDim S2048x32 (![] : Fin 0 → Fin S2048x32.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  shapeCasts_S1_S1x1 : S1.ShapeCasts S1x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x6_S6x32_S10000x32_1_0_0_1_n_n_wf : DotDims.WF S10000x6 S6x32 S10000x32 [1] [0] [0] [1] [] []
  dot_S10000x32_S32x32_S10000x32_1_0_0_1_n_n_wf : DotDims.WF S10000x32 S32x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S2048x32_S100000x1_S100000x32_1_0_0_1_wf : ScatterDims.WF S2048x32 S100000x1 S100000x32 [1] [0] [0] 1
  scatter_S2048_S100000x1_S100000_n_0_0_1_wf : ScatterDims.WF S2048 S100000x1 S100000 [] [0] [0] 1
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S3300000x32.size a
  hwx2_0 : ∀ i : grid2.Coords, EltTy.bits .f32 = 32 ∨ (Rect.block (s := S3300000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S3300000x1.size a
  hwx2_1 : ∀ i : grid2.Coords, EltTy.bits .f32 = 32 ∨ (Rect.block (s := S3300000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S3300000x32.size a
  hwx2_2 : ∀ i : grid2.Coords, EltTy.bits .f32 = 32 ∨ (Rect.block (s := S3300000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S3300000x32.size a
  hwx4_0 : ∀ i : grid4.Coords, EltTy.bits .f32 = 32 ∨ (Rect.block (s := S3300000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S3300000x1.size a
  hwx4_1 : ∀ i : grid4.Coords, EltTy.bits .f32 = 32 ∨ (Rect.block (s := S3300000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S3300000x32.size a
  hwx4_2 : ∀ i : grid4.Coords, EltTy.bits .f32 = 32 ∨ (Rect.block (s := S3300000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S100000x32.size a
  hwx5_3 : ∀ i : grid5.Coords, EltTy.bits .f32 = 32 ∨ (Rect.block (s := S100000x32) S10000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S3300000x32.size a
  hwx6_0 : ∀ i : grid6.Coords, EltTy.bits .f32 = 32 ∨ (Rect.block (s := S3300000x32) S10000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S3300000x1.size a
  hwx6_1 : ∀ i : grid6.Coords, EltTy.bits .f32 = 32 ∨ (Rect.block (s := S3300000x1) S10000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S3300000x32.size a
  hwx6_2 : ∀ i : grid6.Coords, EltTy.bits .f32 = 32 ∨ (Rect.block (s := S3300000x32) S10000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x32.size a ≤ S32x32.size a
  hwx7_1 : ∀ i : grid7.Coords, EltTy.bits .f32 = 32 ∨ (Rect.block (s := S32x32) S32x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x32.size a ≤ S100000x32.size a
  hwx7_3 : ∀ i : grid7.Coords, EltTy.bits .f32 = 32 ∨ (Rect.block (s := S100000x32) S10000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S3300000x32.size a
  hwx8_0 : ∀ i : grid8.Coords, EltTy.bits .f32 = 32 ∨ (Rect.block (s := S3300000x32) S10000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x1.size a ≤ S3300000x1.size a
  hwx8_1 : ∀ i : grid8.Coords, EltTy.bits .f32 = 32 ∨ (Rect.block (s := S3300000x1) S10000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x32.size a ≤ S3300000x32.size a
  hwx8_2 : ∀ i : grid8.Coords, EltTy.bits .f32 = 32 ∨ (Rect.block (s := S3300000x32) S10000x32.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S2048x32.size a ≤ S2048x32.size a
  hwx9_0 : ∀ i : grid9.Coords, EltTy.bits .f32 = 32 ∨ (Rect.block (s := S2048x32) S2048x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S32x32.size a ≤ S32x32.size a
  hwx9_3 : ∀ i : grid9.Coords, EltTy.bits .f32 = 32 ∨ (Rect.block (s := S32x32) S32x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S32x32.size a ≤ S32x32.size a
  hwx9_5 : ∀ i : grid9.Coords, EltTy.bits .f32 = 32 ∨ (Rect.block (s := S32x32) S32x32.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x32.size a ≤ S1x32.size a
  hwx9_6 : ∀ i : grid9.Coords, EltTy.bits .f32 = 32 ∨ (Rect.block (s := S1x32) S1x32.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S32x1.size a ≤ S32x1.size a
  hwx9_7 : ∀ i : grid9.Coords, EltTy.bits .f32 = 32 ∨ (Rect.block (s := S32x1) S32x1.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x1.size a ≤ S1x1.size a
  hwx9_8 : ∀ i : grid9.Coords, EltTy.bits .f32 = 32 ∨ (Rect.block (s := S1x1) S1x1.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S2048x32.size a ≤ S2048x32.size a
  hwx9_9 : ∀ i : grid9.Coords, EltTy.bits .f32 = 32 ∨ (Rect.block (s := S2048x32) S2048x32.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S2048x32.size a ≤ S2048x32.size a
  hwx9_10 : ∀ i : grid9.Coords, EltTy.bits .f32 = 32 ∨ (Rect.block (s := S2048x32) S2048x32.size (cc9_transform_10 i) (hinb9_10 i)).WholeWords (EltTy.packing .f32)
  hstage9_11 : ∀ j, (stage9_11 j).IsWhole
  nbuf9_11 : grid9.bufCount reads9_11 true = 1
  hreads9_11 : ∀ i i' : grid9.Coords, (∀ a, reads9_11 a = true → i a = i' a) → cc9_transform_11 i = cc9_transform_11 i'
  hinb9_11 : ∀ (i : grid9.Coords) a, (cc9_transform_11 i a + 1) * S2048x1.size a ≤ S2048x1.size a
  hwx9_11 : ∀ i : grid9.Coords, EltTy.bits .f32 = 32 ∨ (Rect.block (s := S2048x1) S2048x1.size (cc9_transform_11 i) (hinb9_11 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S2048x32_S100000x1_S100000x32_1_0_0_1 : ScatterDims S2048x32 S100000x1 S100000x32 where
  updateWindowDims := [1]
  insertedWindowDims := [0]
  scatterDimsToOperandDims := [0]
  indexVectorDim := 1
  wf := scatter_S2048x32_S100000x1_S100000x32_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S10000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v84) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S32x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S10000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v104) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v27) S10000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v105) S10000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v125) S2048x32.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v126) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg9) S32x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v127) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg11) S32x32.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v128) S1x32.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg13) S32x1.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v129) S1x1.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v130_0) S2048x32.size cc9_transform_9 reads9_9 true true 1 stage9_9 sem9_9
    hrank9 hreads9_9 hinb9_9 nbuf9_9 (Memref.isWhole_whole _) hwx9_9 hstage9_9

abbrev win9_10 : Pipeline.Window sig grid9 :=
  Pipeline.Window.ofSpec (Memref.whole main_v130_1) S2048x32.size cc9_transform_10 reads9_10 true true 1 stage9_10 sem9_10
    hrank9 hreads9_10 hinb9_10 nbuf9_10 (Memref.isWhole_whole _) hwx9_10 hstage9_10

abbrev win9_11 : Pipeline.Window sig grid9 :=
  Pipeline.Window.ofSpec (Memref.whole main_v130_2) S2048x1.size cc9_transform_11 reads9_11 true true 1 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S100000 : Shape := ⟨1, ![100000]⟩
abbrev S6x32 : Shape := ⟨2, ![6, 32]⟩
abbrev S32 : Shape := ⟨1, ![32]⟩
abbrev S4x32x32 : Shape := ⟨3, ![4, 32, 32]⟩
abbrev S4x32 : Shape := ⟨2, ![4, 32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S1x32 : Shape := ⟨2, ![1, 32]⟩
abbrev S1x32x32 : Shape := ⟨3, ![1, 32, 32]⟩
abbrev S3300000x32 : Shape := ⟨2, ![3300000, 32]⟩
abbrev S2048x32 : Shape := ⟨2, ![2048, 32]⟩
abbrev S100000x1 : Shape := ⟨2, ![100000, 1]⟩
abbrev S2048 : Shape := ⟨1, ![2048]⟩
abbrev S2048x1 : Shape := ⟨2, ![2048, 1]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S100000x6, .f32⟩
  | 1 => ⟨S2x3200000, .i32⟩
  | 2 => ⟨S100000, .i32⟩
  | 3 => ⟨S6x32, .f32⟩
  | 4 => ⟨S32, .f32⟩
  | 5 => ⟨S4x32x32, .f32⟩
  | 6 => ⟨S4x32, .f32⟩
  | 7 => ⟨S32x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x1, .f32⟩
  | 14 => ⟨S1, .f32⟩
  | 15 => ⟨S100000, .i32⟩
  | 16 => ⟨S1x3200000, .i32⟩
  | 17 => ⟨S3200000, .i32⟩
  | 18 => ⟨S3300000, .i32⟩
  | 19 => ⟨S1x3200000, .i32⟩
  | 20 => ⟨S3200000, .i32⟩
  | 21 => ⟨S3300000, .i32⟩
  | 22 => ⟨S_, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S3300000x1, .f32⟩
  | 49 => ⟨S100000x32, .f32⟩
  | 50 => ⟨S1x32, .f32⟩
  | 51 => ⟨S100000x32, .f32⟩
  | 52 => ⟨S100000x32, .f32⟩
  | 53 => ⟨S1x32x32, .f32⟩
  | 54 => ⟨S32x32, .f32⟩
  | 55 => ⟨S100000x32, .f32⟩
  | 56 => ⟨S_, .i32⟩
  | 57 => ⟨S3300000, .i32⟩
  | 58 => ⟨S3300000, .i1⟩
  | 59 => ⟨S_, .i32⟩
  | 60 => ⟨S3300000, .i32⟩
  | 61 => ⟨S3300000, .i32⟩
  | 62 => ⟨S3300000, .i32⟩
  | 63 => ⟨S3300000x1, .i32⟩
  | 64 => ⟨S3300000x32, .f32⟩
  | 65 => ⟨S3300000x32, .f32⟩
  | 66 => ⟨S3300000x32, .f32⟩
  | 67 => ⟨S_, .f32⟩
  | 68 => ⟨S100000x32, .f32⟩
  | 69 => ⟨S3300000x1, .i32⟩
  | 70 => ⟨S100000x32, .f32⟩
  | 71 => ⟨S1x32, .f32⟩
  | 72 => ⟨S32, .f32⟩
  | 73 => ⟨S1x32, .f32⟩
  | 74 => ⟨S100000x32, .f32⟩
  | 75 => ⟨S100000x32, .f32⟩
  | 76 => ⟨S1x32x32, .f32⟩
  | 77 => ⟨S32x32, .f32⟩
  | 78 => ⟨S100000x32, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000x32, .f32⟩
  | 88 => ⟨S3300000x32, .f32⟩
  | 89 => ⟨S3300000x32, .f32⟩
  | 90 => ⟨S_, .f32⟩
  | 91 => ⟨S100000x32, .f32⟩
  | 92 => ⟨S3300000x1, .i32⟩
  | 93 => ⟨S100000x32, .f32⟩
  | 94 => ⟨S1x32, .f32⟩
  | 95 => ⟨S32, .f32⟩
  | 96 => ⟨S1x32, .f32⟩
  | 97 => ⟨S100000x32, .f32⟩
  | 98 => ⟨S100000x32, .f32⟩
  | 99 => ⟨S1x32x32, .f32⟩
  | 100 => ⟨S32x32, .f32⟩
  | 101 => ⟨S100000x32, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000x32, .f32⟩
  | 111 => ⟨S3300000x32, .f32⟩
  | 112 => ⟨S3300000x32, .f32⟩
  | 113 => ⟨S_, .f32⟩
  | 114 => ⟨S100000x32, .f32⟩
  | 115 => ⟨S3300000x1, .i32⟩
  | 116 => ⟨S100000x32, .f32⟩
  | 117 => ⟨S1x32, .f32⟩
  | 118 => ⟨S32, .f32⟩
  | 119 => ⟨S1x32, .f32⟩
  | 120 => ⟨S100000x32, .f32⟩
  | 121 => ⟨S100000x32, .f32⟩
  | 122 => ⟨S1x32x32, .f32⟩
  | 123 => ⟨S32x32, .f32⟩
  | 124 => ⟨S100000x32, .f32⟩
  | 125 => ⟨S_, .i32⟩
  | 126 => ⟨S3300000, .i32⟩
  | 127 => ⟨S3300000, .i1⟩
  | _ => ⟨S100000x6, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x32, .f32⟩
  | 6 => ⟨S3300000x32, .f32⟩
  | 7 => ⟨S3300000x32, .f32⟩
  | 8 => ⟨S_, .f32⟩
  | 9 => ⟨S100000x32, .f32⟩
  | 10 => ⟨S3300000x1, .i32⟩
  | 11 => ⟨S100000x32, .f32⟩
  | 12 => ⟨S1x32, .f32⟩
  | 13 => ⟨S32, .f32⟩
  | 14 => ⟨S1x32, .f32⟩
  | 15 => ⟨S100000x32, .f32⟩
  | 16 => ⟨S100000x32, .f32⟩
  | 17 => ⟨S_, .f32⟩
  | 18 => ⟨S2048x32, .f32⟩
  | 19 => ⟨S100000x1, .i32⟩
  | 20 => ⟨S2048x32, .f32⟩
  | 21 => ⟨S_, .f32⟩
  | 22 => ⟨S100000, .f32⟩
  | 23 => ⟨S_, .f32⟩
  | 24 => ⟨S2048, .f32⟩
  | 25 => ⟨S100000x1, .i32⟩
  | 26 => ⟨S2048, .f32⟩
  | 27 => ⟨S_, .f32⟩
  | 28 => ⟨S2048, .f32⟩
  | 29 => ⟨S2048, .f32⟩
  | 30 => ⟨S2048x1, .f32⟩
  | 31 => ⟨S2048x32, .f32⟩
  | 32 => ⟨S2048x32, .f32⟩
  | 33 => ⟨S2048x32, .f32⟩
  | 34 => ⟨S1x32, .f32⟩
  | 35 => ⟨S2048x32, .f32⟩
  | 36 => ⟨S2048x32, .f32⟩
  | 37 => ⟨S2048x32, .f32⟩
  | 38 => ⟨S1x32, .f32⟩
  | 39 => ⟨S2048x32, .f32⟩
  | 40 => ⟨S2048x32, .f32⟩
  | 41 => ⟨S2048x32, .f32⟩
  | 42 => ⟨S1x32, .f32⟩
  | 43 => ⟨S2048x32, .f32⟩
  | 44 => ⟨S2048x32, .f32⟩
  | 45 => ⟨S_, .f32⟩
  | 46 => ⟨S2048x32, .f32⟩
  | 47 => ⟨S2048x32, .f32⟩
  | 48 => ⟨S2048x1, .f32⟩
  | 49 => ⟨S1x1, .f32⟩
  | 50 => ⟨S2048x1, .f32⟩
  | 51 => ⟨S2048x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_7 : Ref sig .tc := ⟨.hbm, 79, rfl⟩
abbrev main_v55 : Ref sig .tc := ⟨.hbm, 80, rfl⟩
abbrev main_v56 : Ref sig .tc := ⟨.hbm, 81, rfl⟩
abbrev main_c_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_10 : Ref sig .tc := ⟨.hbm, 102, rfl⟩
abbrev main_v75 : Ref sig .tc := ⟨.hbm, 103, rfl⟩
abbrev main_v76 : Ref sig .tc := ⟨.hbm, 104, rfl⟩
abbrev main_c_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_12 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_13 : Ref sig .tc := ⟨.hbm, 125, rfl⟩
abbrev main_v95 : Ref sig .tc := ⟨.hbm, 126, rfl⟩
abbrev main_v96 : Ref sig .tc := ⟨.hbm, 127, rfl⟩
abbrev main_c_14 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_15 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_16 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_17 : Ref sig .tc := ⟨.hbm, 149, rfl⟩
abbrev main_v115 : Ref sig .tc := ⟨.hbm, 150, rfl⟩
abbrev main_cst_18 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_19 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_call0_cst : Ref sig .tc := ⟨.hbm, 173, rfl⟩
abbrev main_call0_v0 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S4x32x32_S1x32x32_0_0_0 : S4x32x32.Slices ![0, 0, 0] S1x32x32
  shapeCasts_S1x32x32_S32x32 : S1x32x32.ShapeCasts S32x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  slices_S4x32_S1x32_0_0 : S4x32.Slices ![0, 0] S1x32
  shapeCasts_S1x32_S32 : S1x32.ShapeCasts S32
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  bcast_S_S2048x32 : S_.BroadcastsInDim S2048x32 (![] : Fin 0 → Fin S2048x32.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x6_S6x32_S100000x32_1_0_0_1_n_n_wf : DotDims.WF S100000x6 S6x32 S100000x32 [1] [0] [0] [1] [] []
  dot_S100000x32_S32x32_S100000x32_1_0_0_1_n_n_wf : DotDims.WF S100000x32 S32x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S2048x32_S100000x1_S100000x32_1_0_0_1_wf : ScatterDims.WF S2048x32 S100000x1 S100000x32 [1] [0] [0] 1
  scatter_S2048_S100000x1_S100000_n_0_0_1_wf : ScatterDims.WF S2048 S100000x1 S100000 [] [0] [0] 1
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S2048x32_S100000x1_S100000x32_1_0_0_1 : ScatterDims S2048x32 S100000x1 S100000x32 where
  updateWindowDims := [1]
  insertedWindowDims := [0]
  scatterDimsToOperandDims := [0]
  indexVectorDim := 1
  wf := scatter_S2048x32_S100000x1_S100000x32_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.KRun.lean ====
/-
  The kernel program's run with its three results named: every weakly fair execution of the ten regions and the host
  operations between them terminates without a fault, the three result buffers end at the contents the last region's
  write-backs leave (the fold of the buffer contents through the program, read at the result buffers), and the argument
  arrays end as launched. The argument is the launch theorem over the program's twenty segments, as for the frame; only the
  final read takes the result buffers as well.
-/
import proofs.«100850_j27204322853289_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program, posting the result buffers at the last boundary's contents and the arguments unchanged. -/
theorem run_named : θ_run defs (onTc (τ := τ) (main (F := F))) ⟨m, fun _ => 0, ρ⟩ (fun r => ∀ c : Dev nD,
      r.2.mem ((c.tc : Thread nD τ).loc main_v130_0) = W20 m ρ c (Proc.devRef .tc main_v130_0)
      ∧ r.2.mem ((c.tc : Thread nD τ).loc main_v130_1) = W20 m ρ c (Proc.devRef .tc main_v130_1)
      ∧ r.2.mem ((c.tc : Thread nD τ).loc main_v130_2) = W20 m ρ c (Proc.devRef .tc main_v130_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v130_0 (by decide)),
       h c _ (mem_uc main_v130_1 (by decide)),
       h c _ (mem_uc main_v130_2 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c)⟩)

end Cert.KernelIdeal.Gen

end
-- ==== Proof.Spec.lean ====
/-
  The network the two programs compute, as one composition of whole-array functions of the argument arrays, written with
  the host operations of the reference program: a four-layer graph convolution with self-loops and symmetric degree
  normalisation, a mean pool per graph and three linear heads.

  * `src ei`, `dst ei`: the edge list's source and target ids followed by the node ids 0 … N−1 (the self-loops).
  * `wrap v`: array indexing's wrap of a negative id (id + N where id < 0), laid out as a column; `col v` the ids as a column.
  * `dinv dst` = rsqrt of the in-degree (ones summed into zeros at the target ids); `norm s d` = dinv[s] · dinv[d] as a column.
  * `lin0 x w b` = x · w + b; `layer h W b s d nrm` = segment-sum over the targets of (h · W)[s] · nrm, plus b.
  * `pool h batch` = per-graph sums of the rows divided by max(per-graph count, 1).
  * `head g W b` = g · W + b; `reluH` the maximum with zero; `headOut` the last head with one output column.
  `mu`, `logVar`, `prop` are the three results.
-/
import proofs.«100850_j27204322853289_2_alg».proof.ReferenceIdeal
import proofs.«100850_j27204322853289_2_alg».proof.Proof.Gen.ReferenceIdeal
import Idealize.ShloMosaic.PureOps.Ideal

noncomputable section

namespace Cert.Spec

open Cert.ReferenceIdeal Cert.ReferenceIdeal.Gen Idealize.ShloMosaic

/-- A float array and an integer array of a given shape, at the ideal values. -/
abbrev FA (S : Shape) : Type := FVec Ideal S .f32
abbrev IA (S : Shape) : Type := IVec S 32

/-- Row `r` of the edge list followed by the node ids: r = 0 the sources, r = 1 the targets. -/
def src (ei : IA S2x3200000) : IA S3300000 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

def dst (ei : IA S2x3200000) : IA S3300000 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The ids as a column. -/
def col (v : IA S3300000) : IA S3300000x1 := broadcastInDim S3300000x1 ![0] bcast_S3300000_S3300000x1_0 v

/-- A negative id wrapped by the number of nodes, as a column. -/
def wrap (v : IA S3300000) : IA S3300000x1 :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The inverse square root of the in-degree. -/
def dinv (d : IA S3300000) : FA S100000 :=
  Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))

/-- The message weight dinv[source] · dinv[target], one per message, as a column. -/
def norm (s d : IA S3300000) : FA S3300000x1 :=
  broadcastInDim S3300000x1 ![0] bcast_S3300000_S3300000x1_0 (mulf (Host.gather gather_S100000_S3300000x1_S3300000_n_0_n_n_0_1_1 (dinv d) (wrap s)) (Host.gather gather_S100000_S3300000x1_S3300000_n_0_n_n_0_1_1 (dinv d) (wrap d)))

/-- The input layer x · w + b. -/
def lin0 (x : FA S100000x6) (w : FA S6x32) (b : FA S32) : FA S100000x32 :=
  addf (Host.dotGeneral dot_S100000x6_S6x32_S100000x32_1_0_0_1_n_n none x w) (broadcastInDim S100000x32 ![0, 1] bcast_S1x32_S100000x32_0_1 (broadcastInDim S1x32 ![1] bcast_S32_S1x32_1 b))

/-- The rows of a node array gathered at the wrapped source ids. -/
def gath (M : FA S100000x32) (s : IA S3300000) : FA S3300000x32 :=
  Host.gather gather_S100000x32_S3300000x1_S3300000x32_1_0_n_n_0_1_132 M (wrap s)

/-- The message rows summed into zeros at their target ids, plus the bias vector along every row. -/
def agg (msg : FA S3300000x32) (d : IA S3300000) (b : FA S32) : FA S100000x32 :=
  addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 d) msg) (broadcastInDim S100000x32 ![0, 1] bcast_S1x32_S100000x32_0_1 (broadcastInDim S1x32 ![1] bcast_S32_S1x32_1 b))

/-- A layer's dense transform h · W. -/
def mm (h : FA S100000x32) (W : FA S32x32) : FA S100000x32 :=
  Host.dotGeneral dot_S100000x32_S32x32_S100000x32_1_0_0_1_n_n none h W

/-- Every message row times its weight. -/
def scaled (g : FA S3300000x32) (nrm : FA S3300000x1) : FA S3300000x32 :=
  mulf g (broadcastInDim S3300000x32 ![0, 1] bcast_S3300000x1_S3300000x32_0_1 nrm)

/-- One graph-convolution layer. -/
def layer (h : FA S100000x32) (W : FA S32x32) (b : FA S32) (s d : IA S3300000) (nrm : FA S3300000x1) : FA S100000x32 :=
  agg (scaled (gath (mm h W) s) nrm) d b

/-- Layer l's weight matrix and bias vector out of the stacked arrays. -/
def cw0 (W : FA S4x32x32) : FA S32x32 := shapeCast _ (extractStridedSlice S1x32x32 ![0, 0, 0] W slices_S4x32x32_S1x32x32_0_0_0) shapeCasts_S1x32x32_S32x32
def cw1 (W : FA S4x32x32) : FA S32x32 := shapeCast _ (extractStridedSlice S1x32x32 ![1, 0, 0] W slices_S4x32x32_S1x32x32_1_0_0) shapeCasts_S1x32x32_S32x32
def cw2 (W : FA S4x32x32) : FA S32x32 := shapeCast _ (extractStridedSlice S1x32x32 ![2, 0, 0] W slices_S4x32x32_S1x32x32_2_0_0) shapeCasts_S1x32x32_S32x32
def cw3 (W : FA S4x32x32) : FA S32x32 := shapeCast _ (extractStridedSlice S1x32x32 ![3, 0, 0] W slices_S4x32x32_S1x32x32_3_0_0) shapeCasts_S1x32x32_S32x32
def cb0 (B : FA S4x32) : FA S32 := shapeCast _ (extractStridedSlice S1x32 ![0, 0] B slices_S4x32_S1x32_0_0) shapeCasts_S1x32_S32
def cb1 (B : FA S4x32) : FA S32 := shapeCast _ (extractStridedSlice S1x32 ![1, 0] B slices_S4x32_S1x32_1_0) shapeCasts_S1x32_S32
def cb2 (B : FA S4x32) : FA S32 := shapeCast _ (extractStridedSlice S1x32 ![2, 0] B slices_S4x32_S1x32_2_0) shapeCasts_S1x32_S32
def cb3 (B : FA S4x32) : FA S32 := shapeCast _ (extractStridedSlice S1x32 ![3, 0] B slices_S4x32_S1x32_3_0) shapeCasts_S1x32_S32

/-- The mean of the rows of each graph: per-graph sums over per-graph counts, the count clipped below at one. -/
def pool (h : FA S100000x32) (batch : IA S100000) : FA S2048x32 :=
  Host.divf (Host.scatterAdd scatter_S2048x32_S100000x1_S100000x32_1_0_0_1 (broadcastInDim S2048x32 ![] bcast_S_S2048x32 (constant S_ .f32 0x00000000#32)) (broadcastInDim S100000x1 ![0] bcast_S100000_S100000x1_0 batch) h) (broadcastInDim S2048x32 ![0, 1] bcast_S2048x1_S2048x32_0_1 (broadcastInDim S2048x1 ![0] bcast_S2048_S2048x1_0 (maximumf (Host.scatterAdd scatter_S2048_S100000x1_S100000_n_0_0_1 (broadcastInDim S2048 ![] bcast_S_S2048 (constant S_ .f32 0x00000000#32)) (broadcastInDim S100000x1 ![0] bcast_S100000_S100000x1_0 batch) (broadcastInDim S100000 ![] bcast_S_S100000 (constant S_ .f32 0x3F800000#32))) (broadcastInDim S2048 ![] bcast_S_S2048 (constant S_ .f32 0x3F800000#32)))))

/-- A linear head g · W + b. -/
def head (g : FA S2048x32) (W : FA S32x32) (b : FA S32) : FA S2048x32 :=
  addf (Host.dotGeneral dot_S2048x32_S32x32_S2048x32_1_0_0_1_n_n none g W) (broadcastInDim S2048x32 ![0, 1] bcast_S1x32_S2048x32_0_1 (broadcastInDim S1x32 ![1] bcast_S32_S1x32_1 b))

/-- The maximum with zero. -/
def reluH (X : FA S2048x32) : FA S2048x32 :=
  maximumf X (broadcastInDim S2048x32 ![] bcast_S_S2048x32 (constant S_ .f32 0x00000000#32))

/-- The last head, one output column. -/
def headOut (g : FA S2048x32) (W : FA S32x1) (b : FA S1) : FA S2048x1 :=
  addf (Host.dotGeneral dot_S2048x32_S32x1_S2048x1_1_0_0_1_n_n none g W) (broadcastInDim S2048x1 ![0, 1] bcast_S1x1_S2048x1_0_1 (broadcastInDim S1x1 ![1] bcast_S1_S1x1_1 b))

/-- The node features after the four layers. -/
def nodes (x : FA S100000x6) (ei : IA S2x3200000) (w : FA S6x32) (b : FA S32) (cw : FA S4x32x32) (cb : FA S4x32) : FA S100000x32 :=
  layer (layer (layer (layer (lin0 x w b) (cw0 cw) (cb0 cb) (src ei) (dst ei) (norm (src ei) (dst ei)))
    (cw1 cw) (cb1 cb) (src ei) (dst ei) (norm (src ei) (dst ei)))
    (cw2 cw) (cb2 cb) (src ei) (dst ei) (norm (src ei) (dst ei)))
    (cw3 cw) (cb3 cb) (src ei) (dst ei) (norm (src ei) (dst ei))

/-- The pooled graph features. -/
def graphs (x : FA S100000x6) (ei : IA S2x3200000) (batch : IA S100000) (w : FA S6x32) (b : FA S32) (cw : FA S4x32x32) (cb : FA S4x32) : FA S2048x32 :=
  pool (nodes x ei w b cw cb) batch

end Cert.Spec

end
-- ==== Proof.KHost.lean ====
/-
  What the kernel program's host operations between its regions compute, read off any buffer contents W the stretch is
  entered with: each result buffer as the network's whole-array function (Spec.lean) of the buffers the stretch reads, and
  every buffer the stretch does not write as it was. The stretches are the reference's own host operations — the edge
  list's ids, the degree normalisation, the row gather, the segment sum plus bias, the mean pool — so each equation is the
  operations read in order.
-/
import proofs.«100850_j27204322853289_2_alg».proof.Proof.Gen.KernelIdeal.Launch
import proofs.«100850_j27204322853289_2_alg».proof.Proof.Spec
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.ShloMosaic.StableHlo Idealize.SL.Sem

/-- A vector of 32 entries recast as one row. -/
def rowOf (b : FVec Ideal S32 .f32) : FVec Ideal S1x32 .f32 := shapeCast S1x32 b shapeCasts_S32_S1x32

/-- A one-entry vector recast as a 1 × 1 matrix. -/
def oneOf (b : FVec Ideal S1 .f32) : FVec Ideal S1x1 .f32 := shapeCast S1x1 b shapeCasts_S1_S1x1

/-- The zero vector of 32 entries recast as one row: the bias of a layer's product, which has none. -/
def zeroRow : FVec Ideal S1x32 .f32 :=
  shapeCast S1x32 (broadcastInDim S32 ![] bcast_S_S32 (constant (F := Ideal) S_ .f32 0x00000000#32)) shapeCasts_S32_S1x32

variable (W : Valuation τ sig (Elt Ideal))

/-! ## Stretch 0 -/

theorem h0_v3 : StableHlo.after (hostOps0 (F := Ideal)) W (Proc.devRef .tc main_v3) = Cert.Spec.src (W (Proc.devRef .tc main_arg1)) := by
  after_results_simp
  rfl
theorem h0_v6 : StableHlo.after (hostOps0 (F := Ideal)) W (Proc.devRef .tc main_v6) = Cert.Spec.dst (W (Proc.devRef .tc main_arg1)) := by
  after_results_simp
  rfl
theorem h0_v27 : StableHlo.after (hostOps0 (F := Ideal)) W (Proc.devRef .tc main_v27) = Cert.Spec.norm (Cert.Spec.src (W (Proc.devRef .tc main_arg1))) (Cert.Spec.dst (W (Proc.devRef .tc main_arg1))) := by
  after_results_simp
  rfl
theorem h0_v28 : StableHlo.after (hostOps0 (F := Ideal)) W (Proc.devRef .tc main_v28) = rowOf (W (Proc.devRef .tc main_arg4)) := by
  after_results_simp
  rfl
theorem keep0_arg5 : StableHlo.after (hostOps0 (F := Ideal)) W (Proc.devRef .tc main_arg5) = W (Proc.devRef .tc main_arg5) := by
  after_results_simp
theorem keep0_arg6 : StableHlo.after (hostOps0 (F := Ideal)) W (Proc.devRef .tc main_arg6) = W (Proc.devRef .tc main_arg6) := by
  after_results_simp
theorem keep0_arg2 : StableHlo.after (hostOps0 (F := Ideal)) W (Proc.devRef .tc main_arg2) = W (Proc.devRef .tc main_arg2) := by
  after_results_simp
theorem keep0_arg8 : StableHlo.after (hostOps0 (F := Ideal)) W (Proc.devRef .tc main_arg8) = W (Proc.devRef .tc main_arg8) := by
  after_results_simp
theorem keep0_arg10 : StableHlo.after (hostOps0 (F := Ideal)) W (Proc.devRef .tc main_arg10) = W (Proc.devRef .tc main_arg10) := by
  after_results_simp
theorem keep0_arg12 : StableHlo.after (hostOps0 (F := Ideal)) W (Proc.devRef .tc main_arg12) = W (Proc.devRef .tc main_arg12) := by
  after_results_simp
theorem keep0_arg14 : StableHlo.after (hostOps0 (F := Ideal)) W (Proc.devRef .tc main_arg14) = W (Proc.devRef .tc main_arg14) := by
  after_results_simp
theorem keep0_arg7 : StableHlo.after (hostOps0 (F := Ideal)) W (Proc.devRef .tc main_arg7) = W (Proc.devRef .tc main_arg7) := by
  after_results_simp
theorem keep0_arg9 : StableHlo.after (hostOps0 (F := Ideal)) W (Proc.devRef .tc main_arg9) = W (Proc.devRef .tc main_arg9) := by
  after_results_simp
theorem keep0_arg11 : StableHlo.after (hostOps0 (F := Ideal)) W (Proc.devRef .tc main_arg11) = W (Proc.devRef .tc main_arg11) := by
  after_results_simp
theorem keep0_arg13 : StableHlo.after (hostOps0 (F := Ideal)) W (Proc.devRef .tc main_arg13) = W (Proc.devRef .tc main_arg13) := by
  after_results_simp
theorem keep0_arg0 : StableHlo.after (hostOps0 (F := Ideal)) W (Proc.devRef .tc main_arg0) = W (Proc.devRef .tc main_arg0) := by
  after_results_simp
theorem keep0_arg3 : StableHlo.after (hostOps0 (F := Ideal)) W (Proc.devRef .tc main_arg3) = W (Proc.devRef .tc main_arg3) := by
  after_results_simp

/-! ## Stretch 1 -/

theorem h1_v32 : StableHlo.after (hostOps1 (F := Ideal)) W (Proc.devRef .tc main_v32) = Cert.Spec.cw0 (W (Proc.devRef .tc main_arg5)) := by
  after_results_simp
  rfl
theorem h1_v33 : StableHlo.after (hostOps1 (F := Ideal)) W (Proc.devRef .tc main_v33) = zeroRow := by
  after_results_simp
  rfl
theorem keep1_v3 : StableHlo.after (hostOps1 (F := Ideal)) W (Proc.devRef .tc main_v3) = W (Proc.devRef .tc main_v3) := by
  after_results_simp
theorem keep1_v6 : StableHlo.after (hostOps1 (F := Ideal)) W (Proc.devRef .tc main_v6) = W (Proc.devRef .tc main_v6) := by
  after_results_simp
theorem keep1_v27 : StableHlo.after (hostOps1 (F := Ideal)) W (Proc.devRef .tc main_v27) = W (Proc.devRef .tc main_v27) := by
  after_results_simp
theorem keep1_arg5 : StableHlo.after (hostOps1 (F := Ideal)) W (Proc.devRef .tc main_arg5) = W (Proc.devRef .tc main_arg5) := by
  after_results_simp
theorem keep1_arg6 : StableHlo.after (hostOps1 (F := Ideal)) W (Proc.devRef .tc main_arg6) = W (Proc.devRef .tc main_arg6) := by
  after_results_simp
theorem keep1_arg2 : StableHlo.after (hostOps1 (F := Ideal)) W (Proc.devRef .tc main_arg2) = W (Proc.devRef .tc main_arg2) := by
  after_results_simp
theorem keep1_arg8 : StableHlo.after (hostOps1 (F := Ideal)) W (Proc.devRef .tc main_arg8) = W (Proc.devRef .tc main_arg8) := by
  after_results_simp
theorem keep1_arg10 : StableHlo.after (hostOps1 (F := Ideal)) W (Proc.devRef .tc main_arg10) = W (Proc.devRef .tc main_arg10) := by
  after_results_simp
theorem keep1_arg12 : StableHlo.after (hostOps1 (F := Ideal)) W (Proc.devRef .tc main_arg12) = W (Proc.devRef .tc main_arg12) := by
  after_results_simp
theorem keep1_arg14 : StableHlo.after (hostOps1 (F := Ideal)) W (Proc.devRef .tc main_arg14) = W (Proc.devRef .tc main_arg14) := by
  after_results_simp
theorem keep1_arg7 : StableHlo.after (hostOps1 (F := Ideal)) W (Proc.devRef .tc main_arg7) = W (Proc.devRef .tc main_arg7) := by
  after_results_simp
theorem keep1_arg9 : StableHlo.after (hostOps1 (F := Ideal)) W (Proc.devRef .tc main_arg9) = W (Proc.devRef .tc main_arg9) := by
  after_results_simp
theorem keep1_arg11 : StableHlo.after (hostOps1 (F := Ideal)) W (Proc.devRef .tc main_arg11) = W (Proc.devRef .tc main_arg11) := by
  after_results_simp
theorem keep1_arg13 : StableHlo.after (hostOps1 (F := Ideal)) W (Proc.devRef .tc main_arg13) = W (Proc.devRef .tc main_arg13) := by
  after_results_simp
theorem keep1_v29 : StableHlo.after (hostOps1 (F := Ideal)) W (Proc.devRef .tc main_v29) = W (Proc.devRef .tc main_v29) := by
  after_results_simp

/-! ## Stretch 2 -/

theorem h2_v41 : StableHlo.after (hostOps2 (F := Ideal)) W (Proc.devRef .tc main_v41) = Cert.Spec.gath (W (Proc.devRef .tc main_v34)) (W (Proc.devRef .tc main_v3)) := by
  after_results_simp
  rfl
theorem keep2_v3 : StableHlo.after (hostOps2 (F := Ideal)) W (Proc.devRef .tc main_v3) = W (Proc.devRef .tc main_v3) := by
  after_results_simp
theorem keep2_v6 : StableHlo.after (hostOps2 (F := Ideal)) W (Proc.devRef .tc main_v6) = W (Proc.devRef .tc main_v6) := by
  after_results_simp
theorem keep2_v27 : StableHlo.after (hostOps2 (F := Ideal)) W (Proc.devRef .tc main_v27) = W (Proc.devRef .tc main_v27) := by
  after_results_simp
theorem keep2_arg5 : StableHlo.after (hostOps2 (F := Ideal)) W (Proc.devRef .tc main_arg5) = W (Proc.devRef .tc main_arg5) := by
  after_results_simp
theorem keep2_arg6 : StableHlo.after (hostOps2 (F := Ideal)) W (Proc.devRef .tc main_arg6) = W (Proc.devRef .tc main_arg6) := by
  after_results_simp
theorem keep2_arg2 : StableHlo.after (hostOps2 (F := Ideal)) W (Proc.devRef .tc main_arg2) = W (Proc.devRef .tc main_arg2) := by
  after_results_simp
theorem keep2_arg8 : StableHlo.after (hostOps2 (F := Ideal)) W (Proc.devRef .tc main_arg8) = W (Proc.devRef .tc main_arg8) := by
  after_results_simp
theorem keep2_arg10 : StableHlo.after (hostOps2 (F := Ideal)) W (Proc.devRef .tc main_arg10) = W (Proc.devRef .tc main_arg10) := by
  after_results_simp
theorem keep2_arg12 : StableHlo.after (hostOps2 (F := Ideal)) W (Proc.devRef .tc main_arg12) = W (Proc.devRef .tc main_arg12) := by
  after_results_simp
theorem keep2_arg14 : StableHlo.after (hostOps2 (F := Ideal)) W (Proc.devRef .tc main_arg14) = W (Proc.devRef .tc main_arg14) := by
  after_results_simp
theorem keep2_arg7 : StableHlo.after (hostOps2 (F := Ideal)) W (Proc.devRef .tc main_arg7) = W (Proc.devRef .tc main_arg7) := by
  after_results_simp
theorem keep2_arg9 : StableHlo.after (hostOps2 (F := Ideal)) W (Proc.devRef .tc main_arg9) = W (Proc.devRef .tc main_arg9) := by
  after_results_simp
theorem keep2_arg11 : StableHlo.after (hostOps2 (F := Ideal)) W (Proc.devRef .tc main_arg11) = W (Proc.devRef .tc main_arg11) := by
  after_results_simp
theorem keep2_arg13 : StableHlo.after (hostOps2 (F := Ideal)) W (Proc.devRef .tc main_arg13) = W (Proc.devRef .tc main_arg13) := by
  after_results_simp

/-! ## Stretch 3 -/

theorem h3_v50 : StableHlo.after (hostOps3 (F := Ideal)) W (Proc.devRef .tc main_v50) = Cert.Spec.agg (W (Proc.devRef .tc main_v42)) (W (Proc.devRef .tc main_v6)) (Cert.Spec.cb0 (W (Proc.devRef .tc main_arg6))) := by
  after_results_simp
  rfl
theorem h3_v53 : StableHlo.after (hostOps3 (F := Ideal)) W (Proc.devRef .tc main_v53) = Cert.Spec.cw1 (W (Proc.devRef .tc main_arg5)) := by
  after_results_simp
  rfl
theorem h3_v54 : StableHlo.after (hostOps3 (F := Ideal)) W (Proc.devRef .tc main_v54) = zeroRow := by
  after_results_simp
  rfl
theorem keep3_v3 : StableHlo.after (hostOps3 (F := Ideal)) W (Proc.devRef .tc main_v3) = W (Proc.devRef .tc main_v3) := by
  after_results_simp
theorem keep3_v6 : StableHlo.after (hostOps3 (F := Ideal)) W (Proc.devRef .tc main_v6) = W (Proc.devRef .tc main_v6) := by
  after_results_simp
theorem keep3_v27 : StableHlo.after (hostOps3 (F := Ideal)) W (Proc.devRef .tc main_v27) = W (Proc.devRef .tc main_v27) := by
  after_results_simp
theorem keep3_arg5 : StableHlo.after (hostOps3 (F := Ideal)) W (Proc.devRef .tc main_arg5) = W (Proc.devRef .tc main_arg5) := by
  after_results_simp
theorem keep3_arg6 : StableHlo.after (hostOps3 (F := Ideal)) W (Proc.devRef .tc main_arg6) = W (Proc.devRef .tc main_arg6) := by
  after_results_simp
theorem keep3_arg2 : StableHlo.after (hostOps3 (F := Ideal)) W (Proc.devRef .tc main_arg2) = W (Proc.devRef .tc main_arg2) := by
  after_results_simp
theorem keep3_arg8 : StableHlo.after (hostOps3 (F := Ideal)) W (Proc.devRef .tc main_arg8) = W (Proc.devRef .tc main_arg8) := by
  after_results_simp
theorem keep3_arg10 : StableHlo.after (hostOps3 (F := Ideal)) W (Proc.devRef .tc main_arg10) = W (Proc.devRef .tc main_arg10) := by
  after_results_simp
theorem keep3_arg12 : StableHlo.after (hostOps3 (F := Ideal)) W (Proc.devRef .tc main_arg12) = W (Proc.devRef .tc main_arg12) := by
  after_results_simp
theorem keep3_arg14 : StableHlo.after (hostOps3 (F := Ideal)) W (Proc.devRef .tc main_arg14) = W (Proc.devRef .tc main_arg14) := by
  after_results_simp
theorem keep3_arg7 : StableHlo.after (hostOps3 (F := Ideal)) W (Proc.devRef .tc main_arg7) = W (Proc.devRef .tc main_arg7) := by
  after_results_simp
theorem keep3_arg9 : StableHlo.after (hostOps3 (F := Ideal)) W (Proc.devRef .tc main_arg9) = W (Proc.devRef .tc main_arg9) := by
  after_results_simp
theorem keep3_arg11 : StableHlo.after (hostOps3 (F := Ideal)) W (Proc.devRef .tc main_arg11) = W (Proc.devRef .tc main_arg11) := by
  after_results_simp
theorem keep3_arg13 : StableHlo.after (hostOps3 (F := Ideal)) W (Proc.devRef .tc main_arg13) = W (Proc.devRef .tc main_arg13) := by
  after_results_simp

/-! ## Stretch 4 -/

theorem h4_v62 : StableHlo.after (hostOps4 (F := Ideal)) W (Proc.devRef .tc main_v62) = Cert.Spec.gath (W (Proc.devRef .tc main_v55)) (W (Proc.devRef .tc main_v3)) := by
  after_results_simp
  rfl
theorem keep4_v3 : StableHlo.after (hostOps4 (F := Ideal)) W (Proc.devRef .tc main_v3) = W (Proc.devRef .tc main_v3) := by
  after_results_simp
theorem keep4_v6 : StableHlo.after (hostOps4 (F := Ideal)) W (Proc.devRef .tc main_v6) = W (Proc.devRef .tc main_v6) := by
  after_results_simp
theorem keep4_v27 : StableHlo.after (hostOps4 (F := Ideal)) W (Proc.devRef .tc main_v27) = W (Proc.devRef .tc main_v27) := by
  after_results_simp
theorem keep4_arg5 : StableHlo.after (hostOps4 (F := Ideal)) W (Proc.devRef .tc main_arg5) = W (Proc.devRef .tc main_arg5) := by
  after_results_simp
theorem keep4_arg6 : StableHlo.after (hostOps4 (F := Ideal)) W (Proc.devRef .tc main_arg6) = W (Proc.devRef .tc main_arg6) := by
  after_results_simp
theorem keep4_arg2 : StableHlo.after (hostOps4 (F := Ideal)) W (Proc.devRef .tc main_arg2) = W (Proc.devRef .tc main_arg2) := by
  after_results_simp
theorem keep4_arg8 : StableHlo.after (hostOps4 (F := Ideal)) W (Proc.devRef .tc main_arg8) = W (Proc.devRef .tc main_arg8) := by
  after_results_simp
theorem keep4_arg10 : StableHlo.after (hostOps4 (F := Ideal)) W (Proc.devRef .tc main_arg10) = W (Proc.devRef .tc main_arg10) := by
  after_results_simp
theorem keep4_arg12 : StableHlo.after (hostOps4 (F := Ideal)) W (Proc.devRef .tc main_arg12) = W (Proc.devRef .tc main_arg12) := by
  after_results_simp
theorem keep4_arg14 : StableHlo.after (hostOps4 (F := Ideal)) W (Proc.devRef .tc main_arg14) = W (Proc.devRef .tc main_arg14) := by
  after_results_simp
theorem keep4_arg7 : StableHlo.after (hostOps4 (F := Ideal)) W (Proc.devRef .tc main_arg7) = W (Proc.devRef .tc main_arg7) := by
  after_results_simp
theorem keep4_arg9 : StableHlo.after (hostOps4 (F := Ideal)) W (Proc.devRef .tc main_arg9) = W (Proc.devRef .tc main_arg9) := by
  after_results_simp
theorem keep4_arg11 : StableHlo.after (hostOps4 (F := Ideal)) W (Proc.devRef .tc main_arg11) = W (Proc.devRef .tc main_arg11) := by
  after_results_simp
theorem keep4_arg13 : StableHlo.after (hostOps4 (F := Ideal)) W (Proc.devRef .tc main_arg13) = W (Proc.devRef .tc main_arg13) := by
  after_results_simp

/-! ## Stretch 5 -/

theorem h5_v71 : StableHlo.after (hostOps5 (F := Ideal)) W (Proc.devRef .tc main_v71) = Cert.Spec.agg (W (Proc.devRef .tc main_v63)) (W (Proc.devRef .tc main_v6)) (Cert.Spec.cb1 (W (Proc.devRef .tc main_arg6))) := by
  after_results_simp
  rfl
theorem h5_v74 : StableHlo.after (hostOps5 (F := Ideal)) W (Proc.devRef .tc main_v74) = Cert.Spec.cw2 (W (Proc.devRef .tc main_arg5)) := by
  after_results_simp
  rfl
theorem h5_v75 : StableHlo.after (hostOps5 (F := Ideal)) W (Proc.devRef .tc main_v75) = zeroRow := by
  after_results_simp
  rfl
theorem keep5_v3 : StableHlo.after (hostOps5 (F := Ideal)) W (Proc.devRef .tc main_v3) = W (Proc.devRef .tc main_v3) := by
  after_results_simp
theorem keep5_v6 : StableHlo.after (hostOps5 (F := Ideal)) W (Proc.devRef .tc main_v6) = W (Proc.devRef .tc main_v6) := by
  after_results_simp
theorem keep5_v27 : StableHlo.after (hostOps5 (F := Ideal)) W (Proc.devRef .tc main_v27) = W (Proc.devRef .tc main_v27) := by
  after_results_simp
theorem keep5_arg5 : StableHlo.after (hostOps5 (F := Ideal)) W (Proc.devRef .tc main_arg5) = W (Proc.devRef .tc main_arg5) := by
  after_results_simp
theorem keep5_arg6 : StableHlo.after (hostOps5 (F := Ideal)) W (Proc.devRef .tc main_arg6) = W (Proc.devRef .tc main_arg6) := by
  after_results_simp
theorem keep5_arg2 : StableHlo.after (hostOps5 (F := Ideal)) W (Proc.devRef .tc main_arg2) = W (Proc.devRef .tc main_arg2) := by
  after_results_simp
theorem keep5_arg8 : StableHlo.after (hostOps5 (F := Ideal)) W (Proc.devRef .tc main_arg8) = W (Proc.devRef .tc main_arg8) := by
  after_results_simp
theorem keep5_arg10 : StableHlo.after (hostOps5 (F := Ideal)) W (Proc.devRef .tc main_arg10) = W (Proc.devRef .tc main_arg10) := by
  after_results_simp
theorem keep5_arg12 : StableHlo.after (hostOps5 (F := Ideal)) W (Proc.devRef .tc main_arg12) = W (Proc.devRef .tc main_arg12) := by
  after_results_simp
theorem keep5_arg14 : StableHlo.after (hostOps5 (F := Ideal)) W (Proc.devRef .tc main_arg14) = W (Proc.devRef .tc main_arg14) := by
  after_results_simp
theorem keep5_arg7 : StableHlo.after (hostOps5 (F := Ideal)) W (Proc.devRef .tc main_arg7) = W (Proc.devRef .tc main_arg7) := by
  after_results_simp
theorem keep5_arg9 : StableHlo.after (hostOps5 (F := Ideal)) W (Proc.devRef .tc main_arg9) = W (Proc.devRef .tc main_arg9) := by
  after_results_simp
theorem keep5_arg11 : StableHlo.after (hostOps5 (F := Ideal)) W (Proc.devRef .tc main_arg11) = W (Proc.devRef .tc main_arg11) := by
  after_results_simp
theorem keep5_arg13 : StableHlo.after (hostOps5 (F := Ideal)) W (Proc.devRef .tc main_arg13) = W (Proc.devRef .tc main_arg13) := by
  after_results_simp

/-! ## Stretch 6 -/

theorem h6_v83 : StableHlo.after (hostOps6 (F := Ideal)) W (Proc.devRef .tc main_v83) = Cert.Spec.gath (W (Proc.devRef .tc main_v76)) (W (Proc.devRef .tc main_v3)) := by
  after_results_simp
  rfl
theorem keep6_v3 : StableHlo.after (hostOps6 (F := Ideal)) W (Proc.devRef .tc main_v3) = W (Proc.devRef .tc main_v3) := by
  after_results_simp
theorem keep6_v6 : StableHlo.after (hostOps6 (F := Ideal)) W (Proc.devRef .tc main_v6) = W (Proc.devRef .tc main_v6) := by
  after_results_simp
theorem keep6_v27 : StableHlo.after (hostOps6 (F := Ideal)) W (Proc.devRef .tc main_v27) = W (Proc.devRef .tc main_v27) := by
  after_results_simp
theorem keep6_arg5 : StableHlo.after (hostOps6 (F := Ideal)) W (Proc.devRef .tc main_arg5) = W (Proc.devRef .tc main_arg5) := by
  after_results_simp
theorem keep6_arg6 : StableHlo.after (hostOps6 (F := Ideal)) W (Proc.devRef .tc main_arg6) = W (Proc.devRef .tc main_arg6) := by
  after_results_simp
theorem keep6_arg2 : StableHlo.after (hostOps6 (F := Ideal)) W (Proc.devRef .tc main_arg2) = W (Proc.devRef .tc main_arg2) := by
  after_results_simp
theorem keep6_arg8 : StableHlo.after (hostOps6 (F := Ideal)) W (Proc.devRef .tc main_arg8) = W (Proc.devRef .tc main_arg8) := by
  after_results_simp
theorem keep6_arg10 : StableHlo.after (hostOps6 (F := Ideal)) W (Proc.devRef .tc main_arg10) = W (Proc.devRef .tc main_arg10) := by
  after_results_simp
theorem keep6_arg12 : StableHlo.after (hostOps6 (F := Ideal)) W (Proc.devRef .tc main_arg12) = W (Proc.devRef .tc main_arg12) := by
  after_results_simp
theorem keep6_arg14 : StableHlo.after (hostOps6 (F := Ideal)) W (Proc.devRef .tc main_arg14) = W (Proc.devRef .tc main_arg14) := by
  after_results_simp
theorem keep6_arg7 : StableHlo.after (hostOps6 (F := Ideal)) W (Proc.devRef .tc main_arg7) = W (Proc.devRef .tc main_arg7) := by
  after_results_simp
theorem keep6_arg9 : StableHlo.after (hostOps6 (F := Ideal)) W (Proc.devRef .tc main_arg9) = W (Proc.devRef .tc main_arg9) := by
  after_results_simp
theorem keep6_arg11 : StableHlo.after (hostOps6 (F := Ideal)) W (Proc.devRef .tc main_arg11) = W (Proc.devRef .tc main_arg11) := by
  after_results_simp
theorem keep6_arg13 : StableHlo.after (hostOps6 (F := Ideal)) W (Proc.devRef .tc main_arg13) = W (Proc.devRef .tc main_arg13) := by
  after_results_simp

/-! ## Stretch 7 -/

theorem h7_v92 : StableHlo.after (hostOps7 (F := Ideal)) W (Proc.devRef .tc main_v92) = Cert.Spec.agg (W (Proc.devRef .tc main_v84)) (W (Proc.devRef .tc main_v6)) (Cert.Spec.cb2 (W (Proc.devRef .tc main_arg6))) := by
  after_results_simp
  rfl
theorem h7_v95 : StableHlo.after (hostOps7 (F := Ideal)) W (Proc.devRef .tc main_v95) = Cert.Spec.cw3 (W (Proc.devRef .tc main_arg5)) := by
  after_results_simp
  rfl
theorem h7_v96 : StableHlo.after (hostOps7 (F := Ideal)) W (Proc.devRef .tc main_v96) = zeroRow := by
  after_results_simp
  rfl
theorem keep7_v3 : StableHlo.after (hostOps7 (F := Ideal)) W (Proc.devRef .tc main_v3) = W (Proc.devRef .tc main_v3) := by
  after_results_simp
theorem keep7_v6 : StableHlo.after (hostOps7 (F := Ideal)) W (Proc.devRef .tc main_v6) = W (Proc.devRef .tc main_v6) := by
  after_results_simp
theorem keep7_v27 : StableHlo.after (hostOps7 (F := Ideal)) W (Proc.devRef .tc main_v27) = W (Proc.devRef .tc main_v27) := by
  after_results_simp
theorem keep7_arg6 : StableHlo.after (hostOps7 (F := Ideal)) W (Proc.devRef .tc main_arg6) = W (Proc.devRef .tc main_arg6) := by
  after_results_simp
theorem keep7_arg2 : StableHlo.after (hostOps7 (F := Ideal)) W (Proc.devRef .tc main_arg2) = W (Proc.devRef .tc main_arg2) := by
  after_results_simp
theorem keep7_arg8 : StableHlo.after (hostOps7 (F := Ideal)) W (Proc.devRef .tc main_arg8) = W (Proc.devRef .tc main_arg8) := by
  after_results_simp
theorem keep7_arg10 : StableHlo.after (hostOps7 (F := Ideal)) W (Proc.devRef .tc main_arg10) = W (Proc.devRef .tc main_arg10) := by
  after_results_simp
theorem keep7_arg12 : StableHlo.after (hostOps7 (F := Ideal)) W (Proc.devRef .tc main_arg12) = W (Proc.devRef .tc main_arg12) := by
  after_results_simp
theorem keep7_arg14 : StableHlo.after (hostOps7 (F := Ideal)) W (Proc.devRef .tc main_arg14) = W (Proc.devRef .tc main_arg14) := by
  after_results_simp
theorem keep7_arg7 : StableHlo.after (hostOps7 (F := Ideal)) W (Proc.devRef .tc main_arg7) = W (Proc.devRef .tc main_arg7) := by
  after_results_simp
theorem keep7_arg9 : StableHlo.after (hostOps7 (F := Ideal)) W (Proc.devRef .tc main_arg9) = W (Proc.devRef .tc main_arg9) := by
  after_results_simp
theorem keep7_arg11 : StableHlo.after (hostOps7 (F := Ideal)) W (Proc.devRef .tc main_arg11) = W (Proc.devRef .tc main_arg11) := by
  after_results_simp
theorem keep7_arg13 : StableHlo.after (hostOps7 (F := Ideal)) W (Proc.devRef .tc main_arg13) = W (Proc.devRef .tc main_arg13) := by
  after_results_simp

/-! ## Stretch 8 -/

theorem h8_v104 : StableHlo.after (hostOps8 (F := Ideal)) W (Proc.devRef .tc main_v104) = Cert.Spec.gath (W (Proc.devRef .tc main_v97)) (W (Proc.devRef .tc main_v3)) := by
  after_results_simp
  rfl
theorem keep8_v6 : StableHlo.after (hostOps8 (F := Ideal)) W (Proc.devRef .tc main_v6) = W (Proc.devRef .tc main_v6) := by
  after_results_simp
theorem keep8_v27 : StableHlo.after (hostOps8 (F := Ideal)) W (Proc.devRef .tc main_v27) = W (Proc.devRef .tc main_v27) := by
  after_results_simp
theorem keep8_arg6 : StableHlo.after (hostOps8 (F := Ideal)) W (Proc.devRef .tc main_arg6) = W (Proc.devRef .tc main_arg6) := by
  after_results_simp
theorem keep8_arg2 : StableHlo.after (hostOps8 (F := Ideal)) W (Proc.devRef .tc main_arg2) = W (Proc.devRef .tc main_arg2) := by
  after_results_simp
theorem keep8_arg8 : StableHlo.after (hostOps8 (F := Ideal)) W (Proc.devRef .tc main_arg8) = W (Proc.devRef .tc main_arg8) := by
  after_results_simp
theorem keep8_arg10 : StableHlo.after (hostOps8 (F := Ideal)) W (Proc.devRef .tc main_arg10) = W (Proc.devRef .tc main_arg10) := by
  after_results_simp
theorem keep8_arg12 : StableHlo.after (hostOps8 (F := Ideal)) W (Proc.devRef .tc main_arg12) = W (Proc.devRef .tc main_arg12) := by
  after_results_simp
theorem keep8_arg14 : StableHlo.after (hostOps8 (F := Ideal)) W (Proc.devRef .tc main_arg14) = W (Proc.devRef .tc main_arg14) := by
  after_results_simp
theorem keep8_arg7 : StableHlo.after (hostOps8 (F := Ideal)) W (Proc.devRef .tc main_arg7) = W (Proc.devRef .tc main_arg7) := by
  after_results_simp
theorem keep8_arg9 : StableHlo.after (hostOps8 (F := Ideal)) W (Proc.devRef .tc main_arg9) = W (Proc.devRef .tc main_arg9) := by
  after_results_simp
theorem keep8_arg11 : StableHlo.after (hostOps8 (F := Ideal)) W (Proc.devRef .tc main_arg11) = W (Proc.devRef .tc main_arg11) := by
  after_results_simp
theorem keep8_arg13 : StableHlo.after (hostOps8 (F := Ideal)) W (Proc.devRef .tc main_arg13) = W (Proc.devRef .tc main_arg13) := by
  after_results_simp

/-! ## Stretch 9 -/

theorem h9_v125 : StableHlo.after (hostOps9 (F := Ideal)) W (Proc.devRef .tc main_v125) = Cert.Spec.pool (Cert.Spec.agg (W (Proc.devRef .tc main_v105)) (W (Proc.devRef .tc main_v6)) (Cert.Spec.cb3 (W (Proc.devRef .tc main_arg6)))) (W (Proc.devRef .tc main_arg2)) := by
  after_results_simp
  rfl
theorem h9_v126 : StableHlo.after (hostOps9 (F := Ideal)) W (Proc.devRef .tc main_v126) = rowOf (W (Proc.devRef .tc main_arg8)) := by
  after_results_simp
  rfl
theorem h9_v127 : StableHlo.after (hostOps9 (F := Ideal)) W (Proc.devRef .tc main_v127) = rowOf (W (Proc.devRef .tc main_arg10)) := by
  after_results_simp
  rfl
theorem h9_v128 : StableHlo.after (hostOps9 (F := Ideal)) W (Proc.devRef .tc main_v128) = rowOf (W (Proc.devRef .tc main_arg12)) := by
  after_results_simp
  rfl
theorem h9_v129 : StableHlo.after (hostOps9 (F := Ideal)) W (Proc.devRef .tc main_v129) = oneOf (W (Proc.devRef .tc main_arg14)) := by
  after_results_simp
  rfl
theorem keep9_arg7 : StableHlo.after (hostOps9 (F := Ideal)) W (Proc.devRef .tc main_arg7) = W (Proc.devRef .tc main_arg7) := by
  after_results_simp
theorem keep9_arg9 : StableHlo.after (hostOps9 (F := Ideal)) W (Proc.devRef .tc main_arg9) = W (Proc.devRef .tc main_arg9) := by
  after_results_simp
theorem keep9_arg11 : StableHlo.after (hostOps9 (F := Ideal)) W (Proc.devRef .tc main_arg11) = W (Proc.devRef .tc main_arg11) := by
  after_results_simp
theorem keep9_arg13 : StableHlo.after (hostOps9 (F := Ideal)) W (Proc.devRef .tc main_arg13) = W (Proc.devRef .tc main_arg13) := by
  after_results_simp

end Cert.KernelIdeal.HostReads

end
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.LibStageDefs.lean ====
/-
  The whole-array functions of a message-passing layer computed in tiles, entry by entry on the extended reals; every
  extent is a variable and nothing here depends on a program.

  * `affine X W B` : (i, j) ↦ Σ_k X(i, k) · W(k, j) + B(0, j), an M × K matrix times a K × N matrix plus a one-row matrix
    laid along every row.
  * `scaleRows A col` : (i, j) ↦ A(i, j) · col(i, 0), every row of A multiplied by that row's entry of a one-column matrix.
  * `relu A` : (i, j) ↦ max (A(i, j)) 0.
-/
import proofs.«100850_j27204322853289_2_alg».proof.Proof.LibRowTiles

noncomputable section

namespace Cert.LibStageDefs

open Idealize.ShloMosaic Idealize.ShloMosaic.ValueIdx

/-- X · W + B, the one-row matrix B laid along every row. -/
def affine {M K N : Nat} (X : FVec Ideal ⟨2, ![M, K]⟩ .f32) (W : FVec Ideal ⟨2, ![K, N]⟩ .f32)
    (B : FVec Ideal ⟨2, ![1, N]⟩ .f32) : FVec Ideal ⟨2, ![M, N]⟩ .f32 :=
  fun i => Cert.LibRowTiles.prod X W i + B (ix2 (0 : Fin 1) (i 1))

/-- Row i of A times the entry (i, 0) of the one-column matrix. -/
def scaleRows {R C : Nat} (A : FVec Ideal ⟨2, ![R, C]⟩ .f32) (col : FVec Ideal ⟨2, ![R, 1]⟩ .f32) :
    FVec Ideal ⟨2, ![R, C]⟩ .f32 :=
  fun i => A i * col (ix2 (i 0) (0 : Fin 1))

/-- The maximum with zero, entry by entry. -/
def relu {R C : Nat} (A : FVec Ideal ⟨2, ![R, C]⟩ .f32) : FVec Ideal ⟨2, ![R, C]⟩ .f32 :=
  fun i => max (A i) 0

end Cert.LibStageDefs

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«100850_j27204322853289_2_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.LibStageBridge.lean ====
/-
  The whole-array functions of LibStageDefs in the spelling a host program gives them. Every extent is a variable and
  nothing here depends on a program; no finiteness is used — each side is the same exact sum, product or maximum.

  * X · W + B with B a vector recast as one row is the host's dot_general plus the vector broadcast first to one row along
    axis 1 and then down the rows (`affine_eq_host`); with B the recast zero vector it is the dot_general alone
    (`affine_zero_eq_host`: adding the real zero changes no extended real).
  * Scaling the rows by a one-column matrix is the host's product with the column broadcast along the rows
    (`scaleRows_eq_host`).
  * The maximum with zero is the host's maximum with the broadcast zero constant (`relu_eq_host`).
-/
import proofs.«100850_j27204322853289_2_alg».proof.Proof.LibStageDefs
import proofs.«100850_j27204322853289_2_alg».proof.Proof.LibAffineAt
import proofs.«100850_j27204322853289_2_alg».proof.Proof.LibHostColumn

noncomputable section

namespace Cert.LibStageBridge

open Idealize.ShloMosaic Idealize.ShloMosaic.ValueIdx Cert.LibStageDefs

/-- A vector recast as one row, at (0, q), is the vector at q. -/
theorem rowCast_at {α : Type} {n : Nat} (b : (⟨1, ![n]⟩ : Shape).Idx → α)
    (hc : (⟨1, ![n]⟩ : Shape).ShapeCasts ⟨2, ![1, n]⟩) (q : Fin n) :
    shapeCast ⟨2, ![1, n]⟩ b hc (ix2 (0 : Fin 1) q) = b (ix1 q) := by
  refine shapeCast_apply b hc (ix2 (0 : Fin 1) q) (ix1 q) ?_
  rw [Shape.rowMajor_val_two, Shape.rowMajor_val_one]
  show q.val = 0 * n + q.val
  omega

/-- X · W plus a vector laid along every row, in the tiled kernel's arrangement (the vector recast as one row) and in the
    host's (the product, plus the vector broadcast to one row and then down the rows). -/
theorem affine_eq_host {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (hb1 : (⟨1, ![N]⟩ : Shape).BroadcastsInDim ⟨2, ![1, N]⟩ ![1])
    (hc : (⟨1, ![N]⟩ : Shape).ShapeCasts ⟨2, ![1, N]⟩)
    (X : FVec Ideal ⟨2, ![M, K]⟩ .f32) (W : FVec Ideal ⟨2, ![K, N]⟩ .f32) (b : FVec Ideal ⟨1, ![N]⟩ .f32) :
    affine X W (shapeCast ⟨2, ![1, N]⟩ b hc)
      = addf (Host.dotGeneral d none X W) (broadcastInDim ⟨2, ![M, N]⟩ ![0, 1] hbc (broadcastInDim ⟨2, ![1, N]⟩ ![1] hb1 b)) := by
  rw [← Cert.LibAffineAt.rowCast_eq b hc hb1]
  funext i
  have e := Cert.LibAffineAt.host_at d hd hbc X W (shapeCast ⟨2, ![1, N]⟩ b hc) (i 0) (i 1)
  have e' : addf (Host.dotGeneral d none X W) (broadcastInDim ⟨2, ![M, N]⟩ ![0, 1] hbc (shapeCast ⟨2, ![1, N]⟩ b hc)) i
      = addf (Host.dotGeneral d none X W) (broadcastInDim ⟨2, ![M, N]⟩ ![0, 1] hbc (shapeCast ⟨2, ![1, N]⟩ b hc)) (ix2 (i 0) (i 1)) :=
    congrArg _ (eq_ix2 i)
  show (∑ k : Fin K, X (ix2 (i 0) k) * W (ix2 k (i 1))) + shapeCast ⟨2, ![1, N]⟩ b hc (ix2 (0 : Fin 1) (i 1)) = _
  exact (e'.trans e).symm

/-- With the zero vector for the bias the affine map is the product alone. -/
theorem affine_zero_eq_host {M K N : Nat} (d : DotDims ⟨2, ![M, K]⟩ ⟨2, ![K, N]⟩ ⟨2, ![M, N]⟩) (hd : d = DotDims.plain M K N)
    (dims0 : Fin 0 → Fin 1) (hz : (⟨0, ![]⟩ : Shape).BroadcastsInDim ⟨1, ![N]⟩ dims0)
    (hc : (⟨1, ![N]⟩ : Shape).ShapeCasts ⟨2, ![1, N]⟩)
    (X : FVec Ideal ⟨2, ![M, K]⟩ .f32) (W : FVec Ideal ⟨2, ![K, N]⟩ .f32) :
    affine X W (shapeCast ⟨2, ![1, N]⟩ (broadcastInDim ⟨1, ![N]⟩ dims0 hz (constant (F := Ideal) ⟨0, ![]⟩ .f32 0x00000000#32)) hc)
      = Host.dotGeneral d none X W := by
  funext i
  rw [Cert.LibRowTiles.dotGeneral_eq_prod d hd X W]
  have e : shapeCast ⟨2, ![1, N]⟩ (broadcastInDim ⟨1, ![N]⟩ dims0 hz (constant (F := Ideal) ⟨0, ![]⟩ .f32 0x00000000#32)) hc
      (ix2 (0 : Fin 1) (i 1)) = (0 : EReal) :=
    (rowCast_at _ hc (i 1)).trans (show Ideal.ofBits .f32 0x00000000#32 = (0 : EReal) from Ideal.ofBits_zero_f32)
  exact (congrArg (Cert.LibRowTiles.prod X W i + ·) e).trans (add_zero _)

/-- Every row scaled by its entry of a one-column matrix is the host's product with the column spread along the rows. -/
theorem scaleRows_eq_host {R C : Nat} (h : (⟨2, ![R, 1]⟩ : Shape).BroadcastsInDim ⟨2, ![R, C]⟩ ![0, 1])
    (A : FVec Ideal ⟨2, ![R, C]⟩ .f32) (col : FVec Ideal ⟨2, ![R, 1]⟩ .f32) :
    scaleRows A col = mulf A (broadcastInDim ⟨2, ![R, C]⟩ ![0, 1] h col) := by
  funext i
  show A i * col (ix2 (i 0) (0 : Fin 1)) = A i * broadcastInDim ⟨2, ![R, C]⟩ ![0, 1] h col i
  refine congrArg (A i * ·) (Eq.symm ?_)
  refine (congrArg (broadcastInDim ⟨2, ![R, C]⟩ ![0, 1] h col) (eq_ix2 i)).trans ?_
  exact Cert.LibHostColumn.broadcastInDim_a1_ab_apply col h (i 0) (i 1)

/-- The maximum with zero is the host's maximum with the broadcast zero constant. -/
theorem relu_eq_host {R C : Nat} (dims0 : Fin 0 → Fin 2) (h0 : (⟨0, ![]⟩ : Shape).BroadcastsInDim ⟨2, ![R, C]⟩ dims0)
    (A : FVec Ideal ⟨2, ![R, C]⟩ .f32) :
    relu A = maximumf A (broadcastInDim ⟨2, ![R, C]⟩ dims0 h0 (constant (F := Ideal) ⟨0, ![]⟩ .f32 0x00000000#32)) := by
  funext i
  show max (A i) 0 = max (A i) (Ideal.ofBits .f32 0x00000000#32)
  rw [Ideal.ofBits_zero_f32]

end Cert.LibStageBridge

end
-- ==== Proof.Bridge.lean ====
/-
  The regions' whole-array functions meet the network's host-spelt functions: a tiled x · w + b with the bias recast as
  one row is the host's product plus the broadcast bias; with the zero row it is the product alone; the row scaling is the
  host's product with the spread column; the last head composes two affine maps around a maximum with zero. Instances, at
  this program's shapes, of the extent-generic laws.
-/
import proofs.«100850_j27204322853289_2_alg».proof.Proof.KHost
import proofs.«100850_j27204322853289_2_alg».proof.Proof.LibStageBridge

noncomputable section

namespace Cert.KernelIdeal.Bridge

open Cert.KernelIdeal Cert.KernelIdeal.Gen Cert.KernelIdeal.HostReads Cert.LibStageDefs Cert.LibStageBridge Idealize.ShloMosaic

theorem lin0_bridge (X : FVec Ideal S100000x6 .f32) (W : FVec Ideal S6x32 .f32) (b : FVec Ideal S32 .f32) :
    affine X W (rowOf b) = Cert.Spec.lin0 X W b :=
  affine_eq_host Cert.ReferenceIdeal.dot_S100000x6_S6x32_S100000x32_1_0_0_1_n_n rfl
    Cert.ReferenceIdeal.Gen.bcast_S1x32_S100000x32_0_1 Cert.ReferenceIdeal.Gen.bcast_S32_S1x32_1 shapeCasts_S32_S1x32 X W b

theorem mm_bridge (X : FVec Ideal S100000x32 .f32) (W : FVec Ideal S32x32 .f32) :
    affine X W zeroRow = Cert.Spec.mm X W :=
  affine_zero_eq_host Cert.ReferenceIdeal.dot_S100000x32_S32x32_S100000x32_1_0_0_1_n_n rfl ![] bcast_S_S32 shapeCasts_S32_S1x32 X W

theorem scaled_bridge (G : FVec Ideal S3300000x32 .f32) (nrm : FVec Ideal S3300000x1 .f32) :
    scaleRows G nrm = Cert.Spec.scaled G nrm :=
  scaleRows_eq_host Cert.ReferenceIdeal.Gen.bcast_S3300000x1_S3300000x32_0_1 G nrm

theorem head_bridge (g : FVec Ideal S2048x32 .f32) (W : FVec Ideal S32x32 .f32) (b : FVec Ideal S32 .f32) :
    affine g W (rowOf b) = Cert.Spec.head g W b :=
  affine_eq_host Cert.ReferenceIdeal.dot_S2048x32_S32x32_S2048x32_1_0_0_1_n_n rfl
    Cert.ReferenceIdeal.Gen.bcast_S1x32_S2048x32_0_1 Cert.ReferenceIdeal.Gen.bcast_S32_S1x32_1 shapeCasts_S32_S1x32 g W b

theorem relu_bridge (X : FVec Ideal S2048x32 .f32) : relu X = Cert.Spec.reluH X :=
  relu_eq_host ![] Cert.ReferenceIdeal.Gen.bcast_S_S2048x32 X

theorem headOut_bridge (g : FVec Ideal S2048x32 .f32) (W : FVec Ideal S32x1 .f32) (b : FVec Ideal S1 .f32) :
    affine g W (oneOf b) = Cert.Spec.headOut g W b :=
  affine_eq_host Cert.ReferenceIdeal.dot_S2048x32_S32x1_S2048x1_1_0_0_1_n_n rfl
    Cert.ReferenceIdeal.Gen.bcast_S1x1_S2048x1_0_1 Cert.ReferenceIdeal.Gen.bcast_S1_S1x1_1 shapeCasts_S1_S1x1 g W b

end Cert.KernelIdeal.Bridge

end
-- ==== Proof.Reg0.lean ====
/-
  Region 0: a matrix times a weight matrix plus a bias row, computed in tiles of rows.

  The rows of X are cut into tiles of 10000; each grid point multiplies its tile by the whole weights W into a zero accumulator
  (after a change of float format that is the identity on the ideal values), adds the one-row matrix B laid along every row,
  and writes the tile of the result back. Entry (r, q) of the result is therefore Σ_k X(r, k) · W(k, q) + B(0, q) wherever some
  tile covers row r, and the tiles cover every row: the point covering row r is r / 10000.
-/
import proofs.«100850_j27204322853289_2_alg».proof.Proof.Gen.KernelIdeal.Frame
import proofs.«100850_j27204322853289_2_alg».proof.Proof.LibStageDefs
import proofs.«100850_j27204322853289_2_alg».proof.Proof.LibAffineAt

noncomputable section

namespace Cert.KernelIdeal.Region

open Cert.KernelIdeal Cert.KernelIdeal.Gen Idealize.ShloMosaic Idealize.ShloMosaic.ValueIdx Idealize.ShloMosaic.TcCoe

/-- The zero offsets of a whole-buffer rectangle. -/
theorem zeroOff0 : (![0, 0] : Fin 2 → Nat) = fun _ => 0 := funext fun a => by fin_cases a <;> rfl

/-- The body's result on one tile, read at row p and column q of the tile: when row p of the tile is row r of X, it is
    the affine map of the whole arrays at (r, q). -/
theorem tile0_at (x0 : Vec Ideal S10000x6 .f32) (x1 : Vec Ideal S6x32 .f32) (x2 : Vec Ideal S1x32 .f32)
    (X : Vec Ideal S100000x6 .f32) (p : Fin 10000) (q : Fin 32) (r : Fin 100000)
    (hx : ∀ k : Fin 6, x0 (ix2 p k) = X (ix2 r k)) :
    k0_pay1 (F := Ideal) x0 x1 x2 (ix2 p q) = Cert.LibStageDefs.affine X x1 x2 (ix2 r q) := by
  unfold k0_pay1
  refine (addf_apply _ _ _).trans ?_
  refine congrArg₂ (· + ·) ?_ ?_
  · exact Cert.LibRowTiles.tile_prod_apply dot_S10000x6_S6x32_S10000x32_1_0_0_1_n_n rfl bitsLt_bf16_f32 x0 x1 X x1 (ix2 p q) (ix2 r q) hx (fun _ => rfl)
  · rw [shapeCast_self]
    exact Cert.LibAffineAt.broadcastTo_oneRow_apply x2 broadcasts_S1x32_S10000x32 p q

variable (V : (c : Dev nD) → (b : Ref sig .tc) → Buf (Elt Ideal) ((c : Thread nD τ).loc b))

/-- The windows' block indices at each of the ten grid points: the tile of X and the tile of the result at point t are
    both tile t of the rows; the weights and the bias row are taken whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tile of X at point t, read at (p, k), is X at row t · 10000 + p. -/
theorem xtile0_at (c : Dev nD) (t : Fin cfg0.N) (p : Fin 10000) (k : Fin 6) (r : Fin 100000) (hr : r.val = t.val * 10000 + p.val) :
    (iblk0 V c 0 t : Vec Ideal S10000x6 .f32) (ix2 p k) = (V c main_arg0 : Vec Ideal S100000x6 .f32) (ix2 r k) := by
  obtain ⟨e0, e1, -, -, -, -, -, -⟩ := idx0 t
  unfold iblk0
  rw [View.read_apply]
  show V c main_arg0 (((cfg0.win 0).blk t).view.emb (ix2 p k)) = V c main_arg0 (ix2 r k)
  congr 1
  funext a
  apply Fin.ext
  match a with
  | ⟨0, _⟩ => show win0_0.index t (0 : Fin 2) * 10000 + 1 * p.val = r.val; rw [e0, hr]; omega
  | ⟨1, _⟩ => show win0_0.index t (1 : Fin 2) * 6 + 1 * k.val = k.val; rw [e1]; omega

/-- The weights' block at every point is the whole weight matrix. -/
theorem wblock0_eq (c : Dev nD) (t : Fin cfg0.N) :
    (iblk0 V c 1 t : Vec Ideal S6x32 .f32) = (V c main_arg3 : Vec Ideal S6x32 .f32) := by
  obtain ⟨-, -, e2, e3, -, -, -, -⟩ := idx0 t
  funext y
  unfold iblk0
  rw [View.read_apply]
  show V c main_arg3 (((cfg0.win 1).blk t).view.emb y) = V c main_arg3 y
  congr 1
  funext a
  apply Fin.ext
  match a with
  | ⟨0, _⟩ => show win0_1.index t (0 : Fin 2) * 6 + 1 * (y 0).val = (y 0).val; rw [e2]; omega
  | ⟨1, _⟩ => show win0_1.index t (1 : Fin 2) * 32 + 1 * (y 1).val = (y 1).val; rw [e3]; omega

/-- The bias row's block at every point is the whole row. -/
theorem bblock0_eq (c : Dev nD) (t : Fin cfg0.N) :
    (iblk0 V c 2 t : Vec Ideal S1x32 .f32) = (V c main_v28 : Vec Ideal S1x32 .f32) := by
  obtain ⟨-, -, -, -, e4, e5, -, -⟩ := idx0 t
  funext y
  unfold iblk0
  rw [View.read_apply]
  show V c main_v28 (((cfg0.win 2).blk t).view.emb y) = V c main_v28 y
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 32 + 1 * (y 1).val = (y 1).val; rw [e5]; omega

/-- What point t writes back is tile t of the affine map of the whole arrays as the region finds them. -/
theorem flushed0_eq (c : Dev nD) (t : Fin cfg0.N) :
    (dat0 (F := Ideal) V c).flushed 3 t
      = ((cfg0.win 3).blk t).view.read (Elt Ideal) (Cert.LibStageDefs.affine (V c main_arg0) (V c main_arg3) (V c main_v28)) := by
  show (cfg0.win 3).cut (grid0.coords t) ((dat0 V c).after 3 t) = _
  rw [after0_3]
  unfold out0_3
  rw [View.canon_unit_zero zeroOff0]
  simp only [View.ld_unit_zero (S := S10000x6) zeroOff0, View.ld_unit_zero (S := S6x32) zeroOff0, View.ld_unit_zero (S := S1x32) zeroOff0]
  obtain ⟨-, -, -, -, -, -, e6, e7⟩ := idx0 t
  have ht : t.val < 10 := t.isLt
  funext j
  obtain ⟨p, q, rfl⟩ : ∃ (p : Fin 10000) (q : Fin 32), j = ix2 p q := ⟨j 0, j 1, eq_ix2 j⟩
  have hemb : ((cfg0.win 3).blk t).view.emb (ix2 p q) = ix2 (⟨t.val * 10000 + p.val, by omega⟩ : Fin 100000) q := by
    funext a
    apply Fin.ext
    match a with
    | ⟨0, _⟩ => show win0_3.index t (0 : Fin 2) * 10000 + 1 * p.val = t.val * 10000 + p.val; rw [e6]; omega
    | ⟨1, _⟩ => show win0_3.index t (1 : Fin 2) * 32 + 1 * q.val = q.val; rw [e7]; omega
  show k0_pay1 (iblk0 V c 0 t) (iblk0 V c 1 t) (iblk0 V c 2 t) (ix2 p q)
    = Cert.LibStageDefs.affine (V c main_arg0) (V c main_arg3) (V c main_v28) (((cfg0.win 3).blk t).view.emb (ix2 p q))
  rw [hemb, wblock0_eq V c t, bblock0_eq V c t]
  exact tile0_at _ _ _ (V c main_arg0) p q _ (fun k => xtile0_at V c t p k _ rfl)

/-- An index of the result is in point t's tile iff each coordinate is in the tile's range on its axis. -/
theorem mem_tile0 (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v29).slice (win0_3.rect t)).set ↔ _
  rw [View.set_slice_whole, Rect.mem_set_unit]
  exact Iff.rfl

/-- Every index of the result is in some point's tile: row r is in tile r / 10000. -/
theorem cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hlt : (i 0).val / 10000 < 10 := by omega
  obtain ⟨-, -, -, -, -, -, e6, e7⟩ := idx0 ⟨(i 0).val / 10000, hlt⟩
  have e6' : win0_3.index ⟨(i 0).val / 10000, hlt⟩ (0 : Fin 2) = (i 0).val / 10000 := e6
  refine ⟨⟨(i 0).val / 10000, hlt⟩, flush0_3 _, ?_⟩
  rw [mem_tile0]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e6']; omega
  | ⟨1, _⟩ =>
    show win0_3.index ⟨(i 0).val / 10000, hlt⟩ (1 : Fin 2) * 32 ≤ (i 1).val
      ∧ (i 1).val < win0_3.index ⟨(i 0).val / 10000, hlt⟩ (1 : Fin 2) * 32 + 32
    rw [e7]; omega

/-- The whole result array after the region: the affine map of the arrays the region finds, entry by entry. -/
theorem final0 (c : Dev nD) :
    (Gen.dat0 (F := Ideal) V c).arrAt 3 cfg0.N = Cert.LibStageDefs.affine (V c main_arg0) (V c main_arg3) (V c main_v28) :=
  (dat0 (F := Ideal) V c).arrAt_eq_of_cover 3 _ (fun t _ => flushed0_eq V c t) (cover0)

end Cert.KernelIdeal.Region

end
-- ==== Proof.Reg1.lean ====
/-
  Region 1: a matrix times a weight matrix plus a bias row, computed in tiles of rows.

  The rows of X are cut into tiles of 10000; each grid point multiplies its tile by the whole weights W into a zero accumulator
  (after a change of float format that is the identity on the ideal values), adds the one-row matrix B laid along every row,
  and writes the tile of the result back. Entry (r, q) of the result is therefore Σ_k X(r, k) · W(k, q) + B(0, q) wherever some
  tile covers row r, and the tiles cover every row: the point covering row r is r / 10000.
-/
import proofs.«100850_j27204322853289_2_alg».proof.Proof.Gen.KernelIdeal.Frame
import proofs.«100850_j27204322853289_2_alg».proof.Proof.LibStageDefs
import proofs.«100850_j27204322853289_2_alg».proof.Proof.LibAffineAt

noncomputable section

namespace Cert.KernelIdeal.Region

open Cert.KernelIdeal Cert.KernelIdeal.Gen Idealize.ShloMosaic Idealize.ShloMosaic.ValueIdx Idealize.ShloMosaic.TcCoe

/-- The zero offsets of a whole-buffer rectangle. -/
theorem zeroOff1 : (![0, 0] : Fin 2 → Nat) = fun _ => 0 := funext fun a => by fin_cases a <;> rfl

/-- The body's result on one tile, read at row p and column q of the tile: when row p of the tile is row r of X, it is
    the affine map of the whole arrays at (r, q). -/
theorem tile1_at (x0 : Vec Ideal S10000x32 .f32) (x1 : Vec Ideal S32x32 .f32) (x2 : Vec Ideal S1x32 .f32)
    (X : Vec Ideal S100000x32 .f32) (p : Fin 10000) (q : Fin 32) (r : Fin 100000)
    (hx : ∀ k : Fin 32, x0 (ix2 p k) = X (ix2 r k)) :
    k1_pay1 (F := Ideal) x0 x1 x2 (ix2 p q) = Cert.LibStageDefs.affine X x1 x2 (ix2 r q) := by
  unfold k1_pay1
  refine (addf_apply _ _ _).trans ?_
  refine congrArg₂ (· + ·) ?_ ?_
  · rw [shapeCast_self, shapeCast_self]
    exact Cert.LibRowTiles.tile_prod_apply dot_S10000x32_S32x32_S10000x32_1_0_0_1_n_n rfl bitsLt_bf16_f32 x0 x1 X x1 (ix2 p q) (ix2 r q) hx (fun _ => rfl)
  · rw [shapeCast_self]
    exact Cert.LibAffineAt.broadcastTo_oneRow_apply x2 broadcasts_S1x32_S10000x32 p q

variable (V : (c : Dev nD) → (b : Ref sig .tc) → Buf (Elt Ideal) ((c : Thread nD τ).loc b))

/-- The windows' block indices at each of the ten grid points: the tile of X and the tile of the result at point t are
    both tile t of the rows; the weights and the bias row are taken whole at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The tile of X at point t, read at (p, k), is X at row t · 10000 + p. -/
theorem xtile1_at (c : Dev nD) (t : Fin cfg1.N) (p : Fin 10000) (k : Fin 32) (r : Fin 100000) (hr : r.val = t.val * 10000 + p.val) :
    (iblk1 V c 0 t : Vec Ideal S10000x32 .f32) (ix2 p k) = (V c main_v29 : Vec Ideal S100000x32 .f32) (ix2 r k) := by
  obtain ⟨e0, e1, -, -, -, -, -, -⟩ := idx1 t
  unfold iblk1
  rw [View.read_apply]
  show V c main_v29 (((cfg1.win 0).blk t).view.emb (ix2 p k)) = V c main_v29 (ix2 r k)
  congr 1
  funext a
  apply Fin.ext
  match a with
  | ⟨0, _⟩ => show win1_0.index t (0 : Fin 2) * 10000 + 1 * p.val = r.val; rw [e0, hr]; omega
  | ⟨1, _⟩ => show win1_0.index t (1 : Fin 2) * 32 + 1 * k.val = k.val; rw [e1]; omega

/-- The weights' block at every point is the whole weight matrix. -/
theorem wblock1_eq (c : Dev nD) (t : Fin cfg1.N) :
    (iblk1 V c 1 t : Vec Ideal S32x32 .f32) = (V c main_v32 : Vec Ideal S32x32 .f32) := by
  obtain ⟨-, -, e2, e3, -, -, -, -⟩ := idx1 t
  funext y
  unfold iblk1
  rw [View.read_apply]
  show V c main_v32 (((cfg1.win 1).blk t).view.emb y) = V c main_v32 y
  congr 1
  funext a
  apply Fin.ext
  match a with
  | ⟨0, _⟩ => show win1_1.index t (0 : Fin 2) * 32 + 1 * (y 0).val = (y 0).val; rw [e2]; omega
  | ⟨1, _⟩ => show win1_1.index t (1 : Fin 2) * 32 + 1 * (y 1).val = (y 1).val; rw [e3]; omega

/-- The bias row's block at every point is the whole row. -/
theorem bblock1_eq (c : Dev nD) (t : Fin cfg1.N) :
    (iblk1 V c 2 t : Vec Ideal S1x32 .f32) = (V c main_v33 : Vec Ideal S1x32 .f32) := by
  obtain ⟨-, -, -, -, e4, e5, -, -⟩ := idx1 t
  funext y
  unfold iblk1
  rw [View.read_apply]
  show V c main_v33 (((cfg1.win 2).blk t).view.emb y) = V c main_v33 y
  congr 1
  funext a
  apply Fin.ext
  match a with
  | ⟨0, _⟩ => show win1_2.index t (0 : Fin 2) * 1 + 1 * (y 0).val = (y 0).val; rw [e4]; omega
  | ⟨1, _⟩ => show win1_2.index t (1 : Fin 2) * 32 + 1 * (y 1).val = (y 1).val; rw [e5]; omega

/-- What point t writes back is tile t of the affine map of the whole arrays as the region finds them. -/
theorem flushed1_eq (c : Dev nD) (t : Fin cfg1.N) :
    (dat1 (F := Ideal) V c).flushed 3 t
      = ((cfg1.win 3).blk t).view.read (Elt Ideal) (Cert.LibStageDefs.affine (V c main_v29) (V c main_v32) (V c main_v33)) := by
  show (cfg1.win 3).cut (grid1.coords t) ((dat1 V c).after 3 t) = _
  rw [after1_3]
  unfold out1_3
  rw [View.canon_unit_zero zeroOff1]
  simp only [View.ld_unit_zero (S := S10000x32) zeroOff1, View.ld_unit_zero (S := S32x32) zeroOff1, View.ld_unit_zero (S := S1x32) zeroOff1]
  obtain ⟨-, -, -, -, -, -, e6, e7⟩ := idx1 t
  have ht : t.val < 10 := t.isLt
  funext j
  obtain ⟨p, q, rfl⟩ : ∃ (p : Fin 10000) (q : Fin 32), j = ix2 p q := ⟨j 0, j 1, eq_ix2 j⟩
  have hemb : ((cfg1.win 3).blk t).view.emb (ix2 p q) = ix2 (⟨t.val * 10000 + p.val, by omega⟩ : Fin 100000) q := by
    funext a
    apply Fin.ext
    match a with
    | ⟨0, _⟩ => show win1_3.index t (0 : Fin 2) * 10000 + 1 * p.val = t.val * 10000 + p.val; rw [e6]; omega
    | ⟨1, _⟩ => show win1_3.index t (1 : Fin 2) * 32 + 1 * q.val = q.val; rw [e7]; omega
  show k1_pay1 (iblk1 V c 0 t) (iblk1 V c 1 t) (iblk1 V c 2 t) (ix2 p q)
    = Cert.LibStageDefs.affine (V c main_v29) (V c main_v32) (V c main_v33) (((cfg1.win 3).blk t).view.emb (ix2 p q))
  rw [hemb, wblock1_eq V c t, bblock1_eq V c t]
  exact tile1_at _ _ _ (V c main_v29) p q _ (fun k => xtile1_at V c t p k _ rfl)

/-- An index of the result is in point t's tile iff each coordinate is in the tile's range on its axis. -/
theorem mem_tile1 (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v34).slice (win1_3.rect t)).set ↔ _
  rw [View.set_slice_whole, Rect.mem_set_unit]
  exact Iff.rfl

/-- Every index of the result is in some point's tile: row r is in tile r / 10000. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hlt : (i 0).val / 10000 < 10 := by omega
  obtain ⟨-, -, -, -, -, -, e6, e7⟩ := idx1 ⟨(i 0).val / 10000, hlt⟩
  have e6' : win1_3.index ⟨(i 0).val / 10000, hlt⟩ (0 : Fin 2) = (i 0).val / 10000 := e6
  refine ⟨⟨(i 0).val / 10000, hlt⟩, flush1_3 _, ?_⟩
  rw [mem_tile1]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e6']; omega
  | ⟨1, _⟩ =>
    show win1_3.index ⟨(i 0).val / 10000, hlt⟩ (1 : Fin 2) * 32 ≤ (i 1).val
      ∧ (i 1).val < win1_3.index ⟨(i 0).val / 10000, hlt⟩ (1 : Fin 2) * 32 + 32
    rw [e7]; omega

/-- The whole result array after the region: the affine map of the arrays the region finds, entry by entry. -/
theorem final1 (c : Dev nD) :
    (Gen.dat1 (F := Ideal) V c).arrAt 3 cfg1.N = Cert.LibStageDefs.affine (V c main_v29) (V c main_v32) (V c main_v33) :=
  (dat1 (F := Ideal) V c).arrAt_eq_of_cover 3 _ (fun t _ => flushed1_eq V c t) (cover1)

end Cert.KernelIdeal.Region

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.Reg2.lean ====
/-
  Rows scaled tile by tile. The region reads a matrix of 3300000 rows and 32 columns and a one-column matrix of
  3300000 rows in 330 tiles of 10000 rows; in each tile it multiplies every entry by its row's entry of the column
  tile and writes the tile back. Each tile written is the restriction of ONE function of the whole arrays,
  (i, j) ↦ A(i, j) · col(i, 0), and the 330 tiles cover every row (row r lies in tile r / 10000), so the array the
  region leaves is that function.
-/
import proofs.«100850_j27204322853289_2_alg».proof.Proof.Gen.KernelIdeal.Frame
import proofs.«100850_j27204322853289_2_alg».proof.Proof.LibStageDefs
import proofs.«100850_j27204322853289_2_alg».proof.Proof.LibKeepdims

noncomputable section

namespace Cert.KernelIdeal.Region

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- The zero offsets of a whole-tile load or store. -/
theorem zeroOffsets2 : (![0, 0] : Fin 2 → Nat) = fun _ => 0 := funext fun a => by fin_cases a <;> rfl

/-- One tile's product at an entry: the matrix tile's entry times the column tile's entry of the same row. -/
theorem scaleTile2_apply (x0 : Vec Ideal S10000x32 .f32) (x1 : Vec Ideal S10000x1 .f32) (p : Fin 10000) (q : Fin 32) :
    k2_pay1 x0 x1 (ix2 p q) = x0 (ix2 p q) * x1 (ix2 p (0 : Fin 1)) := by
  unfold k2_pay1
  rw [mulf_apply, shapeCast_self, Cert.Lib.Keepdims.broadcastTo_a1_ab_apply, shapeCast_self]

/-- When the tiles' entries are the whole arrays' entries at the matching index, the tile's product there is the
    row-scaled whole matrix there. -/
theorem scaleTile2_eq (A : FVec Ideal S3300000x32 .f32) (col : FVec Ideal S3300000x1 .f32)
    (x0 : Vec Ideal S10000x32 .f32) (x1 : Vec Ideal S10000x1 .f32) (p : Fin 10000) (q : Fin 32) (i : S3300000x32.Idx)
    (h0 : x0 (ix2 p q) = A i) (h1 : x1 (ix2 p (0 : Fin 1)) = col (ix2 (i 0) (0 : Fin 1))) :
    k2_pay1 x0 x1 (ix2 p q) = Cert.LibStageDefs.scaleRows A col i := by
  rw [scaleTile2_apply, h0, h1]
  rfl

/-- The index maps over the grid: at point t every window is at tile (t, 0). -/
theorem tileIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is tile t of the row-scaled whole matrix. -/
theorem flushed2_eq (c : Dev nD) (t : Fin cfg2.N) :
    (dat2 (F := Ideal) V c).flushed 2 t
      = ((cfg2.win 2).blk t).view.read (Elt Ideal) (Cert.LibStageDefs.scaleRows (V c main_v41) (V c main_v27)) := by
  show (cfg2.win 2).cut (grid2.coords t) ((dat2 V c).after 2 t) = _
  rw [after2_2]
  unfold out2_2
  rw [View.canon_unit_zero zeroOffsets2]
  simp only [View.ld_unit_zero (S := S10000x32) zeroOffsets2, View.ld_unit_zero (S := S10000x1) zeroOffsets2]
  obtain ⟨e0, e1, e2, e3, e4, e5⟩ := tileIndex2 t
  refine funext fun (j : S10000x32.Idx) => ?_
  obtain ⟨p, q, rfl⟩ : ∃ (p : Fin 10000) (q : Fin 32), j = ix2 p q := ⟨j 0, j 1, eq_ix2 j⟩
  show k2_pay1 (iblk2 V c 0 t) (iblk2 V c 1 t) (ix2 p q)
    = Cert.LibStageDefs.scaleRows (V c main_v41) (V c main_v27) (((cfg2.win 2).blk t).view.emb (ix2 p q))
  refine scaleTile2_eq (V c main_v41) (V c main_v27) _ _ p q _ ?_ ?_
  · -- the matrix tile's entry (p, q) is the whole matrix's entry (10000 t + p, q)
    show V c main_v41 (((cfg2.win 0).blk t).view.emb (ix2 p q)) = V c main_v41 (((cfg2.win 2).blk t).view.emb (ix2 p q))
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 32 + 1 * q.val = win2_2.index t (1 : Fin 2) * 32 + 1 * q.val; omega
  · -- the column tile's entry (p, 0) is the whole column's entry (10000 t + p, 0)
    show V c main_v27 (((cfg2.win 1).blk t).view.emb (ix2 p (0 : Fin 1)))
      = V c main_v27 (ix2 ((((cfg2.win 2).blk t).view.emb (ix2 p q)) 0) (0 : Fin 1))
    refine congrArg _ (funext fun a => Fin.ext ?_)
    match a with
    | ⟨0, _⟩ => show win2_1.index t (0 : Fin 2) * 10000 + 1 * p.val = win2_2.index t (0 : Fin 2) * 10000 + 1 * p.val; omega
    | ⟨1, _⟩ => show win2_1.index t (1 : Fin 2) * 1 + 1 * 0 = 0; omega

/-- An index of the array is in point t's tile iff each coordinate is in the tile's range on its axis. -/
theorem mem_tile2 (t : Fin cfg2.N) (i : S3300000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v42).slice (win2_2.rect t)).set ↔ _
  rw [View.set_slice_whole, Rect.mem_set_unit]
  exact Iff.rfl

/-- Every index is in some point's tile: row r is in tile r / 10000, and 3300000 / 10000 = 330 tiles. -/
theorem covered2 (i : S3300000x32.Idx) :
    ∃ t : Fin cfg2.N, (cfg2.win 2).flush t = true ∧ i ∈ ((cfg2.win 2).blk t).view.set := by
  have hi0 : (i 0).val < 3300000 := (i 0).isLt
  have hi1 : (i 1).val < 32 := (i 1).isLt
  obtain ⟨t, ht⟩ : ∃ t : Fin cfg2.N, t.val = (i 0).val / 10000 :=
    ⟨⟨(i 0).val / 10000, by show (i 0).val / 10000 < 330; omega⟩, rfl⟩
  obtain ⟨e0, e1, e2, e3, e4, e5⟩ := tileIndex2 t
  refine ⟨t, flush2_2 t, ?_⟩
  rw [mem_tile2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- The array after the region: the input matrix with every row scaled by that row's entry of the column. -/
theorem final2 (c : Dev nD) :
    (dat2 (F := Ideal) V c).arrAt 2 cfg2.N = Cert.LibStageDefs.scaleRows (V c main_v41) (V c main_v27) :=
  (dat2 V c).arrAt_eq_of_cover 2 _ (fun t _ => flushed2_eq V c t) covered2

end Cert.KernelIdeal.Region

end
-- ==== Proof.Reg3.lean ====
/-
  Region 3: a matrix times a weight matrix plus a bias row, computed in tiles of rows.

  The rows of X are cut into tiles of 10000; each grid point multiplies its tile by the whole weights W into a zero accumulator
  (after a change of float format that is the identity on the ideal values), adds the one-row matrix B laid along every row,
  and writes the tile of the result back. Entry (r, q) of the result is therefore Σ_k X(r, k) · W(k, q) + B(0, q) wherever some
  tile covers row r, and the tiles cover every row: the point covering row r is r / 10000.
-/
import proofs.«100850_j27204322853289_2_alg».proof.Proof.Gen.KernelIdeal.Frame
import proofs.«100850_j27204322853289_2_alg».proof.Proof.LibStageDefs
import proofs.«100850_j27204322853289_2_alg».proof.Proof.LibAffineAt

noncomputable section

namespace Cert.KernelIdeal.Region

open Cert.KernelIdeal Cert.KernelIdeal.Gen Idealize.ShloMosaic Idealize.ShloMosaic.ValueIdx Idealize.ShloMosaic.TcCoe

/-- The zero offsets of a whole-buffer rectangle. -/
theorem zeroOff3 : (![0, 0] : Fin 2 → Nat) = fun _ => 0 := funext fun a => by fin_cases a <;> rfl

/-- The body's result on one tile, read at row p and column q of the tile: when row p of the tile is row r of X, it is
    the affine map of the whole arrays at (r, q). -/
theorem tile3_at (x0 : Vec Ideal S10000x32 .f32) (x1 : Vec Ideal S32x32 .f32) (x2 : Vec Ideal S1x32 .f32)
    (X : Vec Ideal S100000x32 .f32) (p : Fin 10000) (q : Fin 32) (r : Fin 100000)
    (hx : ∀ k : Fin 32, x0 (ix2 p k) = X (ix2 r k)) :
    k3_pay1 (F := Ideal) x0 x1 x2 (ix2 p q) = Cert.LibStageDefs.affine X x1 x2 (ix2 r q) := by
  unfold k3_pay1
  refine (addf_apply _ _ _).trans ?_
  refine congrArg₂ (· + ·) ?_ ?_
  · rw [shapeCast_self, shapeCast_self]
    exact Cert.LibRowTiles.tile_prod_apply dot_S10000x32_S32x32_S10000x32_1_0_0_1_n_n rfl bitsLt_bf16_f32 x0 x1 X x1 (ix2 p q) (ix2 r q) hx (fun _ => rfl)
  · rw [shapeCast_self]
    exact Cert.LibAffineAt.broadcastTo_oneRow_apply x2 broadcasts_S1x32_S10000x32 p q

variable (V : (c : Dev nD) → (b : Ref sig .tc) → Buf (Elt Ideal) ((c : Thread nD τ).loc b))

/-- The windows' block indices at each of the ten grid points: the tile of X and the tile of the result at point t are
    both tile t of the rows; the weights and the bias row are taken whole at every point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The tile of X at point t, read at (p, k), is X at row t · 10000 + p. -/
theorem xtile3_at (c : Dev nD) (t : Fin cfg3.N) (p : Fin 10000) (k : Fin 32) (r : Fin 100000) (hr : r.val = t.val * 10000 + p.val) :
    (iblk3 V c 0 t : Vec Ideal S10000x32 .f32) (ix2 p k) = (V c main_v50 : Vec Ideal S100000x32 .f32) (ix2 r k) := by
  obtain ⟨e0, e1, -, -, -, -, -, -⟩ := idx3 t
  unfold iblk3
  rw [View.read_apply]
  show V c main_v50 (((cfg3.win 0).blk t).view.emb (ix2 p k)) = V c main_v50 (ix2 r k)
  congr 1
  funext a
  apply Fin.ext
  match a with
  | ⟨0, _⟩ => show win3_0.index t (0 : Fin 2) * 10000 + 1 * p.val = r.val; rw [e0, hr]; omega
  | ⟨1, _⟩ => show win3_0.index t (1 : Fin 2) * 32 + 1 * k.val = k.val; rw [e1]; omega

/-- The weights' block at every point is the whole weight matrix. -/
theorem wblock3_eq (c : Dev nD) (t : Fin cfg3.N) :
    (iblk3 V c 1 t : Vec Ideal S32x32 .f32) = (V c main_v53 : Vec Ideal S32x32 .f32) := by
  obtain ⟨-, -, e2, e3, -, -, -, -⟩ := idx3 t
  funext y
  unfold iblk3
  rw [View.read_apply]
  show V c main_v53 (((cfg3.win 1).blk t).view.emb y) = V c main_v53 y
  congr 1
  funext a
  apply Fin.ext
  match a with
  | ⟨0, _⟩ => show win3_1.index t (0 : Fin 2) * 32 + 1 * (y 0).val = (y 0).val; rw [e2]; omega
  | ⟨1, _⟩ => show win3_1.index t (1 : Fin 2) * 32 + 1 * (y 1).val = (y 1).val; rw [e3]; omega

/-- The bias row's block at every point is the whole row. -/
theorem bblock3_eq (c : Dev nD) (t : Fin cfg3.N) :
    (iblk3 V c 2 t : Vec Ideal S1x32 .f32) = (V c main_v54 : Vec Ideal S1x32 .f32) := by
  obtain ⟨-, -, -, -, e4, e5, -, -⟩ := idx3 t
  funext y
  unfold iblk3
  rw [View.read_apply]
  show V c main_v54 (((cfg3.win 2).blk t).view.emb y) = V c main_v54 y
  congr 1
  funext a
  apply Fin.ext
  match a with
  | ⟨0, _⟩ => show win3_2.index t (0 : Fin 2) * 1 + 1 * (y 0).val = (y 0).val; rw [e4]; omega
  | ⟨1, _⟩ => show win3_2.index t (1 : Fin 2) * 32 + 1 * (y 1).val = (y 1).val; rw [e5]; omega

/-- What point t writes back is tile t of the affine map of the whole arrays as the region finds them. -/
theorem flushed3_eq (c : Dev nD) (t : Fin cfg3.N) :
    (dat3 (F := Ideal) V c).flushed 3 t
      = ((cfg3.win 3).blk t).view.read (Elt Ideal) (Cert.LibStageDefs.affine (V c main_v50) (V c main_v53) (V c main_v54)) := by
  show (cfg3.win 3).cut (grid3.coords t) ((dat3 V c).after 3 t) = _
  rw [after3_3]
  unfold out3_3
  rw [View.canon_unit_zero zeroOff3]
  simp only [View.ld_unit_zero (S := S10000x32) zeroOff3, View.ld_unit_zero (S := S32x32) zeroOff3, View.ld_unit_zero (S := S1x32) zeroOff3]
  obtain ⟨-, -, -, -, -, -, e6, e7⟩ := idx3 t
  have ht : t.val < 10 := t.isLt
  funext j
  obtain ⟨p, q, rfl⟩ : ∃ (p : Fin 10000) (q : Fin 32), j = ix2 p q := ⟨j 0, j 1, eq_ix2 j⟩
  have hemb : ((cfg3.win 3).blk t).view.emb (ix2 p q) = ix2 (⟨t.val * 10000 + p.val, by omega⟩ : Fin 100000) q := by
    funext a
    apply Fin.ext
    match a with
    | ⟨0, _⟩ => show win3_3.index t (0 : Fin 2) * 10000 + 1 * p.val = t.val * 10000 + p.val; rw [e6]; omega
    | ⟨1, _⟩ => show win3_3.index t (1 : Fin 2) * 32 + 1 * q.val = q.val; rw [e7]; omega
  show k3_pay1 (iblk3 V c 0 t) (iblk3 V c 1 t) (iblk3 V c 2 t) (ix2 p q)
    = Cert.LibStageDefs.affine (V c main_v50) (V c main_v53) (V c main_v54) (((cfg3.win 3).blk t).view.emb (ix2 p q))
  rw [hemb, wblock3_eq V c t, bblock3_eq V c t]
  exact tile3_at _ _ _ (V c main_v50) p q _ (fun k => xtile3_at V c t p k _ rfl)

/-- An index of the result is in point t's tile iff each coordinate is in the tile's range on its axis. -/
theorem mem_tile3 (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v55).slice (win3_3.rect t)).set ↔ _
  rw [View.set_slice_whole, Rect.mem_set_unit]
  exact Iff.rfl

/-- Every index of the result is in some point's tile: row r is in tile r / 10000. -/
theorem cover3 (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hlt : (i 0).val / 10000 < 10 := by omega
  obtain ⟨-, -, -, -, -, -, e6, e7⟩ := idx3 ⟨(i 0).val / 10000, hlt⟩
  have e6' : win3_3.index ⟨(i 0).val / 10000, hlt⟩ (0 : Fin 2) = (i 0).val / 10000 := e6
  refine ⟨⟨(i 0).val / 10000, hlt⟩, flush3_3 _, ?_⟩
  rw [mem_tile3]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e6']; omega
  | ⟨1, _⟩ =>
    show win3_3.index ⟨(i 0).val / 10000, hlt⟩ (1 : Fin 2) * 32 ≤ (i 1).val
      ∧ (i 1).val < win3_3.index ⟨(i 0).val / 10000, hlt⟩ (1 : Fin 2) * 32 + 32
    rw [e7]; omega

/-- The whole result array after the region: the affine map of the arrays the region finds, entry by entry. -/
theorem final3 (c : Dev nD) :
    (Gen.dat3 (F := Ideal) V c).arrAt 3 cfg3.N = Cert.LibStageDefs.affine (V c main_v50) (V c main_v53) (V c main_v54) :=
  (dat3 (F := Ideal) V c).arrAt_eq_of_cover 3 _ (fun t _ => flushed3_eq V c t) (cover3)

end Cert.KernelIdeal.Region

end
-- ==== Proof.Reg4.lean ====
/-
  Rows scaled tile by tile. The region reads a matrix of 3300000 rows and 32 columns and a one-column matrix of
  3300000 rows in 330 tiles of 10000 rows; in each tile it multiplies every entry by its row's entry of the column
  tile and writes the tile back. Each tile written is the restriction of ONE function of the whole arrays,
  (i, j) ↦ A(i, j) · col(i, 0), and the 330 tiles cover every row (row r lies in tile r / 10000), so the array the
  region leaves is that function.
-/
import proofs.«100850_j27204322853289_2_alg».proof.Proof.Gen.KernelIdeal.Frame
import proofs.«100850_j27204322853289_2_alg».proof.Proof.LibStageDefs
import proofs.«100850_j27204322853289_2_alg».proof.Proof.LibKeepdims

noncomputable section

namespace Cert.KernelIdeal.Region

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- The zero offsets of a whole-tile load or store. -/
theorem zeroOffsets4 : (![0, 0] : Fin 2 → Nat) = fun _ => 0 := funext fun a => by fin_cases a <;> rfl

/-- One tile's product at an entry: the matrix tile's entry times the column tile's entry of the same row. -/
theorem scaleTile4_apply (x0 : Vec Ideal S10000x32 .f32) (x1 : Vec Ideal S10000x1 .f32) (p : Fin 10000) (q : Fin 32) :
    k4_pay1 x0 x1 (ix2 p q) = x0 (ix2 p q) * x1 (ix2 p (0 : Fin 1)) := by
  unfold k4_pay1
  rw [mulf_apply, shapeCast_self, Cert.Lib.Keepdims.broadcastTo_a1_ab_apply, shapeCast_self]

/-- When the tiles' entries are the whole arrays' entries at the matching index, the tile's product there is the
    row-scaled whole matrix there. -/
theorem scaleTile4_eq (A : FVec Ideal S3300000x32 .f32) (col : FVec Ideal S3300000x1 .f32)
    (x0 : Vec Ideal S10000x32 .f32) (x1 : Vec Ideal S10000x1 .f32) (p : Fin 10000) (q : Fin 32) (i : S3300000x32.Idx)
    (h0 : x0 (ix2 p q) = A i) (h1 : x1 (ix2 p (0 : Fin 1)) = col (ix2 (i 0) (0 : Fin 1))) :
    k4_pay1 x0 x1 (ix2 p q) = Cert.LibStageDefs.scaleRows A col i := by
  rw [scaleTile4_apply, h0, h1]
  rfl

/-- The index maps over the grid: at point t every window is at tile (t, 0). -/
theorem tileIndex4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is tile t of the row-scaled whole matrix. -/
theorem flushed4_eq (c : Dev nD) (t : Fin cfg4.N) :
    (dat4 (F := Ideal) V c).flushed 2 t
      = ((cfg4.win 2).blk t).view.read (Elt Ideal) (Cert.LibStageDefs.scaleRows (V c main_v62) (V c main_v27)) := by
  show (cfg4.win 2).cut (grid4.coords t) ((dat4 V c).after 2 t) = _
  rw [after4_2]
  unfold out4_2
  rw [View.canon_unit_zero zeroOffsets4]
  simp only [View.ld_unit_zero (S := S10000x32) zeroOffsets4, View.ld_unit_zero (S := S10000x1) zeroOffsets4]
  obtain ⟨e0, e1, e2, e3, e4, e5⟩ := tileIndex4 t
  refine funext fun (j : S10000x32.Idx) => ?_
  obtain ⟨p, q, rfl⟩ : ∃ (p : Fin 10000) (q : Fin 32), j = ix2 p q := ⟨j 0, j 1, eq_ix2 j⟩
  show k4_pay1 (iblk4 V c 0 t) (iblk4 V c 1 t) (ix2 p q)
    = Cert.LibStageDefs.scaleRows (V c main_v62) (V c main_v27) (((cfg4.win 2).blk t).view.emb (ix2 p q))
  refine scaleTile4_eq (V c main_v62) (V c main_v27) _ _ p q _ ?_ ?_
  · -- the matrix tile's entry (p, q) is the whole matrix's entry (10000 t + p, q)
    show V c main_v62 (((cfg4.win 0).blk t).view.emb (ix2 p q)) = V c main_v62 (((cfg4.win 2).blk t).view.emb (ix2 p q))
    refine congrArg _ (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 32 + 1 * q.val = win4_2.index t (1 : Fin 2) * 32 + 1 * q.val; omega
  · -- the column tile's entry (p, 0) is the whole column's entry (10000 t + p, 0)
    show V c main_v27 (((cfg4.win 1).blk t).view.emb (ix2 p (0 : Fin 1)))
      = V c main_v27 (ix2 ((((cfg4.win 2).blk t).view.emb (ix2 p q)) 0) (0 : Fin 1))
    refine congrArg _ (funext fun a => Fin.ext ?_)
    match a with
    | ⟨0, _⟩ => show win4_1.index t (0 : Fin 2) * 10000 + 1 * p.val = win4_2.index t (0 : Fin 2) * 10000 + 1 * p.val; omega
    | ⟨1, _⟩ => show win4_1.index t (1 : Fin 2) * 1 + 1 * 0 = 0; omega

/-- An index of the array is in point t's tile iff each coordinate is in the tile's range on its axis. -/
theorem mem_tile4 (t : Fin cfg4.N) (i : S3300000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole main_v63).slice (win4_2.rect t)).set ↔ _
  rw [View.set_slice_whole, Rect.mem_set_unit]
  exact Iff.rfl

/-- Every index is in some point's tile: row r is in tile r / 10000, and 3300000 / 10000 = 330 tiles. -/
theorem covered4 (i : S3300000x32.Idx) :
    ∃ t : Fin cfg4.N, (cfg4.win 2).flush t = true ∧ i ∈ ((cfg4.win 2).blk t).view.set := by
  have hi0 : (i 0).val < 3300000 := (i 0).isLt
  have hi1 : (i 1).val < 32 := (i 1).isLt
  obtain ⟨t, ht⟩ : ∃ t : Fin cfg4.N, t.val = (i 0).val / 10000 :=
    ⟨⟨(i 0).val / 10000, by show (i 0).val / 10000 < 330; omega⟩, rfl⟩
  obtain ⟨e0, e1, e2, e3, e4, e5⟩ := tileIndex4 t
  refine ⟨t, flush4_2 t, ?_⟩
  rw [mem_tile4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 32 ≤ (i 1).val ∧ (i 1).val < win4_2.index t (1 : Fin 2) * 32 + 32
    omega

/-- The array after the region: the input matrix with every row scaled by that row's entry of the column. -/
theorem final4 (c : Dev nD) :
    (dat4 (F := Ideal) V c).arrAt 2 cfg4.N = Cert.LibStageDefs.scaleRows (V c main_v62) (V c main_v27) :=
  (dat4 V c).arrAt_eq_of_cover 2 _ (fun t _ => flushed4_eq V c t) covered4

end Cert.KernelIdeal.Region

end
-- ==== Proof.Reg5.lean ====
/-
  Region 5: a matrix times a weight matrix plus a bias row, computed in tiles of rows.

  The rows of X are cut into tiles of 10000; each grid point multiplies its tile by the whole weights W into a zero accumulator
  (after a change of float format that is the identity on the ideal values), adds the one-row matrix B laid along every row,
  and writes the tile of the result back. Entry (r, q) of the result is therefore Σ_k X(r, k) · W(k, q) + B(0, q) wherever some
  tile covers row r, and the tiles cover every row: the point covering row r is r / 10000.
-/
import proofs.«100850_j27204322853289_2_alg».proof.Proof.Gen.KernelIdeal.Frame
import proofs.«100850_j27204322853289_2_alg».proof.Proof.LibStageDefs
import proofs.«100850_j27204322853289_2_alg».proof.Proof.LibAffineAt

noncomputable section

namespace Cert.KernelIdeal.Region

open Cert.KernelIdeal Cert.KernelIdeal.Gen Idealize.ShloMosaic Idealize.ShloMosaic.ValueIdx Idealize.ShloMosaic.TcCoe

/-- The zero offsets of a whole-buffer rectangle. -/
theorem zeroOff5 : (![0, 0] : Fin 2 → Nat) = fun _ => 0 := funext fun a => by fin_cases a <;> rfl

/-- The body's result on one tile, read at row p and column q of the tile: when row p of the tile is row r of X, it is
    the affine map of the whole arrays at (r, q). -/
theorem tile5_at (x0 : Vec Ideal S10000x32 .f32) (x1 : Vec Ideal S32x32 .f32) (x2 : Vec Ideal S1x32 .f32)
    (X : Vec Ideal S100000x32 .f32) (p : Fin 10000) (q : Fin 32) (r : Fin 100000)
    (hx : ∀ k : Fin 32, x0 (ix2 p k) = X (ix2 r k)) :
    k5_pay1 (F := Ideal) x0 x1 x2 (ix2 p q) = Cert.LibStageDefs.affine X x1 x2 (ix2 r q) := by
  unfold k5_pay1
  refine (addf_apply _ _ _).trans ?_
  refine congrArg₂ (· + ·) ?_ ?_
  · rw [shapeCast_self, shapeCast_self]
    exact Cert.LibRowTiles.tile_prod_apply dot_S10000x32_S32x32_S10000x32_1_0_0_1_n_n rfl bitsLt_bf16_f32 x0 x1 X x1 (ix2 p q) (ix2 r q) hx (fun _ => rfl)
  · rw [shapeCast_self]
    exact Cert.LibAffineAt.broadcastTo_oneRow_apply x2 broadcasts_S1x32_S10000x32 p q

variable (V : (c : Dev nD) → (b : Ref sig .tc) → Buf (Elt Ideal) ((c : Thread nD τ).loc b))

/-- The windows' block indices at each of the ten grid points: the tile of X and the tile of the result at point t are
    both tile t of the rows; the weights and the bias row are taken whole at every point. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The tile of X at point t, read at (p, k), is X at row t · 10000 + p. -/
theorem xtile5_at (c : Dev nD) (t : Fin cfg5.N) (p : Fin 10000) (k : Fin 32) (r : Fin 100000) (hr : r.val = t.val * 10000 + p.val) :
    (iblk5 V c 0 t : Vec Ideal S10000x32 .f32) (ix2 p k) = (V c main_v71 : Vec Ideal S100000x32 .f32) (ix2 r k) := by
  obtain ⟨e0, e1, -, -, -, -, -, -⟩ := idx5 t
  unfold iblk5
  rw [View.read_apply]
  show V c main_v71 (((cfg5.win 0).blk t).view.emb (ix2 p k)) = V c main_v71 (ix2 r k)
  congr 1
  funext a
  apply Fin.ext
  match a with
  | ⟨0, _⟩ => show win5_0.index t (0 : Fin 2) * 10000 + 1 * p.val = r.val; rw [e0, hr]; omega
  | ⟨1, _⟩ => show win5_0.index t (1 : Fin 2) * 32 + 1 * k.val = k.val; rw [e1]; omega

/-- The weights' block at every point is the whole weight matrix. -/
theorem wblock5_eq (c : Dev nD) (t : Fin cfg5.N) :
    (iblk5 V c 1 t : Vec Ideal S32x32 .f32) = (V c main_v74 : Vec Ideal S32x32 .f32) := by
  obtain ⟨-, -, e2, e3, -, -, -, -⟩ := idx5 t
  funext y
  unfold iblk5
  rw [View.read_apply]
  show V c main_v74 (((cfg5.win 1).blk t).view.emb y) = V c main_v74 y
  congr 1
  funext a
  apply Fin.ext
  match a with
  | ⟨0, _⟩ => show win5_1.index t (0 : Fin 2) * 32 + 1 * (y 0).val = (y 0).val; rw [e2]; omega
  | ⟨1, _⟩ => show win5_1.index t (1 : Fin 2) * 32 + 1 * (y 1).val = (y 1).val; rw [e3]; omega

/-- The bias row's block at every point is the whole row. -/
theorem bblock5_eq (c : Dev nD) (t : Fin cfg5.N) :
    (iblk5 V c 2 t : Vec Ideal S1x32 .f32) = (V c main_v75 : Vec Ideal S1x32 .f32) := by
  obtain ⟨-, -, -, -, e4, e5, -, -⟩ := idx5 t
  funext y
  unfold iblk5
  rw [View.read_apply]
  show V c main_v75 (((cfg5.win 2).blk t).view.emb y) = V c main_v75 y
  congr 1
  funext a
  apply Fin.ext
  match a with
  | ⟨0, _⟩ => show win5_2.index t (0 : Fin 2) * 1 + 1 * (y 0).val = (y 0).val; rw [e4]; omega
  | ⟨1, _⟩ => show win5_2.index t (1 : Fin 2) * 32 + 1 * (y 1).val = (y 1).val; rw [e5]; omega

/-- What point t writes back is tile t of the affine map of the whole arrays as the region finds them. -/
theorem flushed5_eq (c : Dev nD) (t : Fin cfg5.N) :
    (dat5 (F := Ideal) V c).flushed 3 t
      = ((cfg5.win 3).blk t).view.read (Elt Ideal) (Cert.LibStageDefs.affine (V c main_v71) (V c main_v74) (V c main_v75)) := by
  show (cfg5.win 3).cut (grid5.coords t) ((dat5 V c).after 3 t) = _
  rw [after5_3]
  unfold out5_3
  rw [View.canon_unit_zero zeroOff5]
  simp only [View.ld_unit_zero (S := S10000x32) zeroOff5, View.ld_unit_zero (S := S32x32) zeroOff5, View.ld_unit_zero (S := S1x32) zeroOff5]
  obtain ⟨-, -, -, -, -, -, e6, e7⟩ := idx5 t
  have ht : t.val < 10 := t.isLt
  funext j
  obtain ⟨p, q, rfl⟩ : ∃ (p : Fin 10000) (q : Fin 32), j = ix2 p q := ⟨j 0, j 1, eq_ix2 j⟩
  have hemb : ((cfg5.win 3).blk t).view.emb (ix2 p q) = ix2 (⟨t.val * 10000 + p.val, by omega⟩ : Fin 100000) q := by
    funext a
    apply Fin.ext
    match a with
    | ⟨0, _⟩ => show win5_3.index t (0 : Fin 2) * 10000 + 1 * p.val = t.val * 10000 + p.val; rw [e6]; omega
    | ⟨1, _⟩ => show win5_3.index t (1 : Fin 2) * 32 + 1 * q.val = q.val; rw [e7]; omega
  show k5_pay1 (iblk5 V c 0 t) (iblk5 V c 1 t) (iblk5 V c 2 t) (ix2 p q)
    = Cert.LibStageDefs.affine (V c main_v71) (V c main_v74) (V c main_v75) (((cfg5.win 3).blk t).view.emb (ix2 p q))
  rw [hemb, wblock5_eq V c t, bblock5_eq V c t]
  exact tile5_at _ _ _ (V c main_v71) p q _ (fun k => xtile5_at V c t p k _ rfl)

/-- An index of the result is in point t's tile iff each coordinate is in the tile's range on its axis. -/
theorem mem_tile5 (t : Fin cfg5.N) (i : S100000x32.Idx) :
    i ∈ ((cfg5.win 3).blk t).view.set ↔ ∀ a : Fin 2, win5_3.index t a * S10000x32.size a ≤ (i a).val ∧ (i a).val < win5_3.index t a * S10000x32.size a + S10000x32.size a := by
  show i ∈ ((View.whole main_v76).slice (win5_3.rect t)).set ↔ _
  rw [View.set_slice_whole, Rect.mem_set_unit]
  exact Iff.rfl

/-- Every index of the result is in some point's tile: row r is in tile r / 10000. -/
theorem cover5 (i : S100000x32.Idx) :
    ∃ t : Fin cfg5.N, (cfg5.win 3).flush t = true ∧ i ∈ ((cfg5.win 3).blk t).view.set := by
  have hi0 : (i 0).val < 100000 := (i 0).isLt
  have hi1 : (i 1).val < 32 := (i 1).isLt
  have hlt : (i 0).val / 10000 < 10 := by omega
  obtain ⟨-, -, -, -, -, -, e6, e7⟩ := idx5 ⟨(i 0).val / 10000, hlt⟩
  have e6' : win5_3.index ⟨(i 0).val / 10000, hlt⟩ (0 : Fin 2) = (i 0).val / 10000 := e6
  refine ⟨⟨(i 0).val / 10000, hlt⟩, flush5_3 _, ?_⟩
  rw [mem_tile5]
  intro a
  match a with
  | ⟨0, _⟩ =>
    show win5_3.index ⟨(i 0).val / 10000, hlt⟩ (0 : Fin 2) * 10000 ≤ (i 0).val
      ∧ (i 0).val < win5_3.index ⟨(i 0).val / 10000, hlt⟩ (0 : Fin 2) * 10000 + 10000
    rw [e6']; omega
  | ⟨1, _⟩ =>
    show win5_3.index ⟨(i 0).val / 10000, hlt⟩ (1 : Fin 2) * 32 ≤ (i 1).val
      ∧ (i 1).val < win5_3.index ⟨(i 0).val / 10000, hlt⟩ (1 : Fin 2) * 32 + 32
    rw [e7]; omega

/-- The whole result array after the region: the affine map of the arrays the region finds, entry by entry. -/
theorem final5 (c : Dev nD) :
    (Gen.dat5 (F := Ideal) V c).arrAt 3 cfg5.N = Cert.LibStageDefs.affine (V c main_v71) (V c main_v74) (V c main_v75) :=
  (dat5 (F := Ideal) V c).arrAt_eq_of_cover 3 _ (fun t _ => flushed5_eq V c t) (cover5)

end Cert.KernelIdeal.Region

end
-- ==== Proof.Reg6.lean ====
/-
  Rows scaled tile by tile. The region reads a matrix of 3300000 rows and 32 columns and a one-column matrix of
  3300000 rows in 330 tiles of 10000 rows; in each tile it multiplies every entry by its row's entry of the column
  tile and writes the tile back. Each tile written is the restriction of ONE function of the whole arrays,
  (i, j) ↦ A(i, j) · col(i, 0), and the 330 tiles cover every row (row r lies in tile r / 10000), so the array the
  region leaves is that function.
-/
import proofs.«100850_j27204322853289_2_alg».proof.Proof.Gen.KernelIdeal.Frame
import proofs.«100850_j27204322853289_2_alg».proof.Proof.LibStageDefs
import proofs.«100850_j27204322853289_2_alg».proof.Proof.LibKeepdims

noncomputable section

namespace Cert.KernelIdeal.Region

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- The zero offsets of a whole-tile load or store. -/
theorem zeroOffsets6 : (![0, 0] : Fin 2 → Nat) = fun _ => 0 := funext fun a => by fin_cases a <;> rfl

/-- One tile's product at an entry: the matrix tile's entry times the column tile's entry of the same row. -/
theorem scaleTile6_apply (x0 : Vec Ideal S10000x32 .f32) (x1 : Vec Ideal S10000x1 .f32) (p : Fin 10000) (q : Fin 32) :
    k6_pay1 x0 x1 (ix2 p q) = x0 (ix2 p q) * x1 (ix2 p (0 : Fin 1)) := by
  unfold k6_pay1
  rw [mulf_apply, shapeCast_self, Cert.Lib.Keepdims.broadcastTo_a1_ab_apply, shapeCast_self]

/-- When the tiles' entries are the whole arrays' entries at the matching index, the tile's product there is the
    row-scaled whole matrix there. -/
theorem scaleTile6_eq (A : FVec Ideal S3300000x32 .f32) (col : FVec Ideal S3300000x1 .f32)
    (x0 : Vec Ideal S10000x32 .f32) (x1 : Vec Ideal S10000x1 .f32) (p : Fin 10000) (q : Fin 32) (i : S3300000x32.Idx)
    (h0 : x0 (ix2 p q) = A i) (h1 : x1 (ix2 p (0 : Fin 1)) = col (ix2 (i 0) (0 : Fin 1))) :
    k6_pay1 x0 x1 (ix2 p q) = Cert.LibStageDefs.scaleRows A col i := by
  rw [scaleTile6_apply, h0, h1]
  rfl

/-- The index maps over the grid: at point t every window is at tile (t, 0). -/
theorem tileIndex6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is tile t of the row-scaled whole matrix. -/
theorem flushed6_eq (c : Dev nD) (t : Fin cfg6.N) :
    (dat6 (F := Ideal) V c).flushed 2 t
      = ((cfg6.win 2).blk t).view.read (Elt Ideal) (Cert.LibStageDefs.scaleRows (V c main_v83) (V c main_v27)) := by
  show (cfg6.win 2).cut (grid6.coords t) ((dat6 V c).after 2 t) = _
  rw [after6_2]
  unfold out6_2
  rw [View.canon_unit_zero zeroOffsets6]
  simp only [View.ld_unit_zero (S := S10000x32) zeroOffsets6, View.ld_unit_zero (S := S10000x1) zeroOffsets6]
  obtain ⟨e0, e1, e2, e3, e4, e5⟩ := tileIndex6 t
  refine funext fun (j : S10000x32.Idx) => ?_
  obtain ⟨p, q, rfl⟩ : ∃ (p : Fin 10000) (q : Fin 32), j = ix2 p q := ⟨j 0, j 1, eq_ix2 j⟩
  show k6_pay1 (iblk6 V c 0 t) (iblk6 V c 1 t) (ix2 p q)
    = Cert.LibStageDefs.scaleRows (V c main_v83) (V c main_v27) (((cfg6.win 2).blk t).view.emb (ix2 p q))
  refine scaleTile6_eq (V c main_v83) (V c main_v27) _ _ p q _ ?_ ?_
  · -- the matrix tile's entry (p, q) is the whole matrix's entry (10000 t + p, q)
    show V c main_v83 (((cfg6.win 0).blk t).view.emb (ix2 p q)) = V c main_v83 (((cfg6.win 2).blk t).view.emb (ix2 p q))
    refine congrArg _ (funext fun a => Fin.ext ?_)
    match a with
    | ⟨0, _⟩ => show win6_0.index t (0 : Fin 2) * 10000 + 1 * p.val = win6_2.index t (0 : Fin 2) * 10000 + 1 * p.val; omega
    | ⟨1, _⟩ => show win6_0.index t (1 : Fin 2) * 32 + 1 * q.val = win6_2.index t (1 : Fin 2) * 32 + 1 * q.val; omega
  · -- the column tile's entry (p, 0) is the whole column's entry (10000 t + p, 0)
    show V c main_v27 (((cfg6.win 1).blk t).view.emb (ix2 p (0 : Fin 1)))
      = V c main_v27 (ix2 ((((cfg6.win 2).blk t).view.emb (ix2 p q)) 0) (0 : Fin 1))
    refine congrArg _ (funext fun a => Fin.ext ?_)
    match a with
    | ⟨0, _⟩ => show win6_1.index t (0 : Fin 2) * 10000 + 1 * p.val = win6_2.index t (0 : Fin 2) * 10000 + 1 * p.val; omega
    | ⟨1, _⟩ => show win6_1.index t (1 : Fin 2) * 1 + 1 * 0 = 0; omega

/-- An index of the array is in point t's tile iff each coordinate is in the tile's range on its axis. -/
theorem mem_tile6 (t : Fin cfg6.N) (i : S3300000x32.Idx) :
    i ∈ ((cfg6.win 2).blk t).view.set ↔ ∀ a : Fin 2, win6_2.index t a * S10000x32.size a ≤ (i a).val
      ∧ (i a).val < win6_2.index t a * S10000x32.size a + S10000x32.size a := by
  show i ∈ ((View.whole main_v84).slice (win6_2.rect t)).set ↔ _
  rw [View.set_slice_whole, Rect.mem_set_unit]
  exact Iff.rfl

/-- Every index is in some point's tile: row r is in tile r / 10000, and 3300000 / 10000 = 330 tiles. -/
theorem covered6 (i : S3300000x32.Idx) :
    ∃ t : Fin cfg6.N, (cfg6.win 2).flush t = true ∧ i ∈ ((cfg6.win 2).blk t).view.set := by
  have hi0 : (i 0).val < 3300000 := (i 0).isLt
  have hi1 : (i 1).val < 32 := (i 1).isLt
  obtain ⟨t, ht⟩ : ∃ t : Fin cfg6.N, t.val = (i 0).val / 10000 :=
    ⟨⟨(i 0).val / 10000, by show (i 0).val / 10000 < 330; omega⟩, rfl⟩
  obtain ⟨e0, e1, e2, e3, e4, e5⟩ := tileIndex6 t
  refine ⟨t, flush6_2 t, ?_⟩
  rw [mem_tile6]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 32 ≤ (i 1).val ∧ (i 1).val < win6_2.index t (1 : Fin 2) * 32 + 32
    omega

/-- The array after the region: the input matrix with every row scaled by that row's entry of the column. -/
theorem final6 (c : Dev nD) :
    (dat6 (F := Ideal) V c).arrAt 2 cfg6.N = Cert.LibStageDefs.scaleRows (V c main_v83) (V c main_v27) :=
  (dat6 V c).arrAt_eq_of_cover 2 _ (fun t _ => flushed6_eq V c t) covered6

end Cert.KernelIdeal.Region

end
-- ==== Proof.Reg7.lean ====
/-
  Region 7: a matrix times a weight matrix plus a bias row, computed in tiles of rows.

  The rows of X are cut into tiles of 10000; each grid point multiplies its tile by the whole weights W into a zero accumulator
  (after a change of float format that is the identity on the ideal values), adds the one-row matrix B laid along every row,
  and writes the tile of the result back. Entry (r, q) of the result is therefore Σ_k X(r, k) · W(k, q) + B(0, q) wherever some
  tile covers row r, and the tiles cover every row: the point covering row r is r / 10000.
-/
import proofs.«100850_j27204322853289_2_alg».proof.Proof.Gen.KernelIdeal.Frame
import proofs.«100850_j27204322853289_2_alg».proof.Proof.LibStageDefs
import proofs.«100850_j27204322853289_2_alg».proof.Proof.LibAffineAt

noncomputable section

namespace Cert.KernelIdeal.Region

open Cert.KernelIdeal Cert.KernelIdeal.Gen Idealize.ShloMosaic Idealize.ShloMosaic.ValueIdx Idealize.ShloMosaic.TcCoe

/-- The zero offsets of a whole-buffer rectangle. -/
theorem zeroOff7 : (![0, 0] : Fin 2 → Nat) = fun _ => 0 := funext fun a => by fin_cases a <;> rfl

/-- The body's result on one tile, read at row p and column q of the tile: when row p of the tile is row r of X, it is
    the affine map of the whole arrays at (r, q). -/
theorem tile7_at (x0 : Vec Ideal S10000x32 .f32) (x1 : Vec Ideal S32x32 .f32) (x2 : Vec Ideal S1x32 .f32)
    (X : Vec Ideal S100000x32 .f32) (p : Fin 10000) (q : Fin 32) (r : Fin 100000)
    (hx : ∀ k : Fin 32, x0 (ix2 p k) = X (ix2 r k)) :
    k7_pay1 (F := Ideal) x0 x1 x2 (ix2 p q) = Cert.LibStageDefs.affine X x1 x2 (ix2 r q) := by
  unfold k7_pay1
  refine (addf_apply _ _ _).trans ?_
  refine congrArg₂ (· + ·) ?_ ?_
  · rw [shapeCast_self, shapeCast_self]
    exact Cert.LibRowTiles.tile_prod_apply dot_S10000x32_S32x32_S10000x32_1_0_0_1_n_n rfl bitsLt_bf16_f32 x0 x1 X x1 (ix2 p q) (ix2 r q) hx (fun _ => rfl)
  · rw [shapeCast_self]
    exact Cert.LibAffineAt.broadcastTo_oneRow_apply x2 broadcasts_S1x32_S10000x32 p q

variable (V : (c : Dev nD) → (b : Ref sig .tc) → Buf (Elt Ideal) ((c : Thread nD τ).loc b))

/-- The windows' block indices at each of the ten grid points: the tile of X and the tile of the result at point t are
    both tile t of the rows; the weights and the bias row are taken whole at every point. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The tile of X at point t, read at (p, k), is X at row t · 10000 + p. -/
theorem xtile7_at (c : Dev nD) (t : Fin cfg7.N) (p : Fin 10000) (k : Fin 32) (r : Fin 100000) (hr : r.val = t.val * 10000 + p.val) :
    (iblk7 V c 0 t : Vec Ideal S10000x32 .f32) (ix2 p k) = (V c main_v92 : Vec Ideal S100000x32 .f32) (ix2 r k) := by
  obtain ⟨e0, e1, -, -, -, -, -, -⟩ := idx7 t
  unfold iblk7
  rw [View.read_apply]
  show V c main_v92 (((cfg7.win 0).blk t).view.emb (ix2 p k)) = V c main_v92 (ix2 r k)
  congr 1
  funext a
  apply Fin.ext
  match a with
  | ⟨0, _⟩ => show win7_0.index t (0 : Fin 2) * 10000 + 1 * p.val = r.val; rw [e0, hr]; omega
  | ⟨1, _⟩ => show win7_0.index t (1 : Fin 2) * 32 + 1 * k.val = k.val; rw [e1]; omega

/-- The weights' block at every point is the whole weight matrix. -/
theorem wblock7_eq (c : Dev nD) (t : Fin cfg7.N) :
    (iblk7 V c 1 t : Vec Ideal S32x32 .f32) = (V c main_v95 : Vec Ideal S32x32 .f32) := by
  obtain ⟨-, -, e2, e3, -, -, -, -⟩ := idx7 t
  funext y
  unfold iblk7
  rw [View.read_apply]
  show V c main_v95 (((cfg7.win 1).blk t).view.emb y) = V c main_v95 y
  congr 1
  funext a
  apply Fin.ext
  match a with
  | ⟨0, _⟩ => show win7_1.index t (0 : Fin 2) * 32 + 1 * (y 0).val = (y 0).val; rw [e2]; omega
  | ⟨1, _⟩ => show win7_1.index t (1 : Fin 2) * 32 + 1 * (y 1).val = (y 1).val; rw [e3]; omega

/-- The bias row's block at every point is the whole row. -/
theorem bblock7_eq (c : Dev nD) (t : Fin cfg7.N) :
    (iblk7 V c 2 t : Vec Ideal S1x32 .f32) = (V c main_v96 : Vec Ideal S1x32 .f32) := by
  obtain ⟨-, -, -, -, e4, e5, -, -⟩ := idx7 t
  funext y
  unfold iblk7
  rw [View.read_apply]
  show V c main_v96 (((cfg7.win 2).blk t).view.emb y) = V c main_v96 y
  congr 1
  funext a
  apply Fin.ext
  match a with
  | ⟨0, _⟩ => show win7_2.index t (0 : Fin 2) * 1 + 1 * (y 0).val = (y 0).val; rw [e4]; omega
  | ⟨1, _⟩ => show win7_2.index t (1 : Fin 2) * 32 + 1 * (y 1).val = (y 1).val; rw [e5]; omega

/-- What point t writes back is tile t of the affine map of the whole arrays as the region finds them. -/
theorem flushed7_eq (c : Dev nD) (t : Fin cfg7.N) :
    (dat7 (F := Ideal) V c).flushed 3 t
      = ((cfg7.win 3).blk t).view.read (Elt Ideal) (Cert.LibStageDefs.affine (V c main_v92) (V c main_v95) (V c main_v96)) := by
  show (cfg7.win 3).cut (grid7.coords t) ((dat7 V c).after 3 t) = _
  rw [after7_3]
  unfold out7_3
  rw [View.canon_unit_zero zeroOff7]
  simp only [View.ld_unit_zero (S := S10000x32) zeroOff7, View.ld_unit_zero (S := S32x32) zeroOff7, View.ld_unit_zero (S := S1x32) zeroOff7]
  obtain ⟨-, -, -, -, -, -, e6, e7⟩ := idx7 t
  have ht : t.val < 10 := t.isLt
  funext j
  obtain ⟨p, q, rfl⟩ : ∃ (p : Fin 10000) (q : Fin 32), j = ix2 p q := ⟨j 0, j 1, eq_ix2 j⟩
  have hemb : ((cfg7.win 3).blk t).view.emb (ix2 p q) = ix2 (⟨t.val * 10000 + p.val, by omega⟩ : Fin 100000) q := by
    funext a
    apply Fin.ext
    match a with
    | ⟨0, _⟩ => show win7_3.index t (0 : Fin 2) * 10000 + 1 * p.val = t.val * 10000 + p.val; rw [e6]; omega
    | ⟨1, _⟩ => show win7_3.index t (1 : Fin 2) * 32 + 1 * q.val = q.val; rw [e7]; omega
  show k7_pay1 (iblk7 V c 0 t) (iblk7 V c 1 t) (iblk7 V c 2 t) (ix2 p q)
    = Cert.LibStageDefs.affine (V c main_v92) (V c main_v95) (V c main_v96) (((cfg7.win 3).blk t).view.emb (ix2 p q))
  rw [hemb, wblock7_eq V c t, bblock7_eq V c t]
  exact tile7_at _ _ _ (V c main_v92) p q _ (fun k => xtile7_at V c t p k _ rfl)

/-- An index of the result is in point t's tile iff each coordinate is in the tile's range on its axis. -/
theorem mem_tile7 (t : Fin cfg7.N) (i : S100000x32.Idx) :
    i ∈ ((cfg7.win 3).blk t).view.set ↔ ∀ a : Fin 2, win7_3.index t a * S10000x32.size a ≤ (i a).val ∧ (i a).val < win7_3.index t a * S10000x32.size a + S10000x32.size a := by
  show i ∈ ((View.whole main_v97).slice (win7_3.rect t)).set ↔ _
  rw [View.set_slice_whole, Rect.mem_set_unit]
  exact Iff.rfl

/-- Every index of the result is in some point's tile: row r is in tile r / 10000. -/
theorem cover7 (i : S100000x32.Idx) :
    ∃ t : Fin cfg7.N, (cfg7.win 3).flush t = true ∧ i ∈ ((cfg7.win 3).blk t).view.set := by
  have hi0 : (i 0).val < 100000 := (i 0).isLt
  have hi1 : (i 1).val < 32 := (i 1).isLt
  have hlt : (i 0).val / 10000 < 10 := by omega
  obtain ⟨-, -, -, -, -, -, e6, e7⟩ := idx7 ⟨(i 0).val / 10000, hlt⟩
  have e6' : win7_3.index ⟨(i 0).val / 10000, hlt⟩ (0 : Fin 2) = (i 0).val / 10000 := e6
  refine ⟨⟨(i 0).val / 10000, hlt⟩, flush7_3 _, ?_⟩
  rw [mem_tile7]
  intro a
  match a with
  | ⟨0, _⟩ =>
    show win7_3.index ⟨(i 0).val / 10000, hlt⟩ (0 : Fin 2) * 10000 ≤ (i 0).val
      ∧ (i 0).val < win7_3.index ⟨(i 0).val / 10000, hlt⟩ (0 : Fin 2) * 10000 + 10000
    rw [e6']; omega
  | ⟨1, _⟩ =>
    show win7_3.index ⟨(i 0).val / 10000, hlt⟩ (1 : Fin 2) * 32 ≤ (i 1).val
      ∧ (i 1).val < win7_3.index ⟨(i 0).val / 10000, hlt⟩ (1 : Fin 2) * 32 + 32
    rw [e7]; omega

/-- The whole result array after the region: the affine map of the arrays the region finds, entry by entry. -/
theorem final7 (c : Dev nD) :
    (Gen.dat7 (F := Ideal) V c).arrAt 3 cfg7.N = Cert.LibStageDefs.affine (V c main_v92) (V c main_v95) (V c main_v96) :=
  (dat7 (F := Ideal) V c).arrAt_eq_of_cover 3 _ (fun t _ => flushed7_eq V c t) (cover7)

end Cert.KernelIdeal.Region

end
-- ==== Proof.Reg8.lean ====
/-
  Rows scaled tile by tile. The region reads a matrix of 3300000 rows and 32 columns and a one-column matrix of
  3300000 rows in 330 tiles of 10000 rows; in each tile it multiplies every entry by its row's entry of the column
  tile and writes the tile back. Each tile written is the restriction of ONE function of the whole arrays,
  (i, j) ↦ A(i, j) · col(i, 0), and the 330 tiles cover every row (row r lies in tile r / 10000), so the array the
  region leaves is that function.
-/
import proofs.«100850_j27204322853289_2_alg».proof.Proof.Gen.KernelIdeal.Frame
import proofs.«100850_j27204322853289_2_alg».proof.Proof.LibStageDefs
import proofs.«100850_j27204322853289_2_alg».proof.Proof.LibKeepdims

noncomputable section

namespace Cert.KernelIdeal.Region

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- The zero offsets of a whole-tile load or store. -/
theorem zeroOffsets8 : (![0, 0] : Fin 2 → Nat) = fun _ => 0 := funext fun a => by fin_cases a <;> rfl

/-- One tile's product at an entry: the matrix tile's entry times the column tile's entry of the same row. -/
theorem scaleTile8_apply (x0 : Vec Ideal S10000x32 .f32) (x1 : Vec Ideal S10000x1 .f32) (p : Fin 10000) (q : Fin 32) :
    k8_pay1 x0 x1 (ix2 p q) = x0 (ix2 p q) * x1 (ix2 p (0 : Fin 1)) := by
  unfold k8_pay1
  rw [mulf_apply, shapeCast_self, Cert.Lib.Keepdims.broadcastTo_a1_ab_apply, shapeCast_self]

/-- When the tiles' entries are the whole arrays' entries at the matching index, the tile's product there is the
    row-scaled whole matrix there. -/
theorem scaleTile8_eq (A : FVec Ideal S3300000x32 .f32) (col : FVec Ideal S3300000x1 .f32)
    (x0 : Vec Ideal S10000x32 .f32) (x1 : Vec Ideal S10000x1 .f32) (p : Fin 10000) (q : Fin 32) (i : S3300000x32.Idx)
    (h0 : x0 (ix2 p q) = A i) (h1 : x1 (ix2 p (0 : Fin 1)) = col (ix2 (i 0) (0 : Fin 1))) :
    k8_pay1 x0 x1 (ix2 p q) = Cert.LibStageDefs.scaleRows A col i := by
  rw [scaleTile8_apply, h0, h1]
  rfl

/-- The index maps over the grid: at point t every window is at tile (t, 0). -/
theorem tileIndex8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is tile t of the row-scaled whole matrix. -/
theorem flushed8_eq (c : Dev nD) (t : Fin cfg8.N) :
    (dat8 (F := Ideal) V c).flushed 2 t
      = ((cfg8.win 2).blk t).view.read (Elt Ideal) (Cert.LibStageDefs.scaleRows (V c main_v104) (V c main_v27)) := by
  show (cfg8.win 2).cut (grid8.coords t) ((dat8 V c).after 2 t) = _
  rw [after8_2]
  unfold out8_2
  rw [View.canon_unit_zero zeroOffsets8]
  simp only [View.ld_unit_zero (S := S10000x32) zeroOffsets8, View.ld_unit_zero (S := S10000x1) zeroOffsets8]
  obtain ⟨e0, e1, e2, e3, e4, e5⟩ := tileIndex8 t
  refine funext fun (j : S10000x32.Idx) => ?_
  obtain ⟨p, q, rfl⟩ : ∃ (p : Fin 10000) (q : Fin 32), j = ix2 p q := ⟨j 0, j 1, eq_ix2 j⟩
  show k8_pay1 (iblk8 V c 0 t) (iblk8 V c 1 t) (ix2 p q)
    = Cert.LibStageDefs.scaleRows (V c main_v104) (V c main_v27) (((cfg8.win 2).blk t).view.emb (ix2 p q))
  refine scaleTile8_eq (V c main_v104) (V c main_v27) _ _ p q _ ?_ ?_
  · -- the matrix tile's entry (p, q) is the whole matrix's entry (10000 t + p, q)
    show V c main_v104 (((cfg8.win 0).blk t).view.emb (ix2 p q)) = V c main_v104 (((cfg8.win 2).blk t).view.emb (ix2 p q))
    refine congrArg _ (funext fun a => Fin.ext ?_)
    match a with
    | ⟨0, _⟩ => show win8_0.index t (0 : Fin 2) * 10000 + 1 * p.val = win8_2.index t (0 : Fin 2) * 10000 + 1 * p.val; omega
    | ⟨1, _⟩ => show win8_0.index t (1 : Fin 2) * 32 + 1 * q.val = win8_2.index t (1 : Fin 2) * 32 + 1 * q.val; omega
  · -- the column tile's entry (p, 0) is the whole column's entry (10000 t + p, 0)
    show V c main_v27 (((cfg8.win 1).blk t).view.emb (ix2 p (0 : Fin 1)))
      = V c main_v27 (ix2 ((((cfg8.win 2).blk t).view.emb (ix2 p q)) 0) (0 : Fin 1))
    refine congrArg _ (funext fun a => Fin.ext ?_)
    match a with
    | ⟨0, _⟩ => show win8_1.index t (0 : Fin 2) * 10000 + 1 * p.val = win8_2.index t (0 : Fin 2) * 10000 + 1 * p.val; omega
    | ⟨1, _⟩ => show win8_1.index t (1 : Fin 2) * 1 + 1 * 0 = 0; omega

/-- An index of the array is in point t's tile iff each coordinate is in the tile's range on its axis. -/
theorem mem_tile8 (t : Fin cfg8.N) (i : S3300000x32.Idx) :
    i ∈ ((cfg8.win 2).blk t).view.set ↔ ∀ a : Fin 2, win8_2.index t a * S10000x32.size a ≤ (i a).val
      ∧ (i a).val < win8_2.index t a * S10000x32.size a + S10000x32.size a := by
  show i ∈ ((View.whole main_v105).slice (win8_2.rect t)).set ↔ _
  rw [View.set_slice_whole, Rect.mem_set_unit]
  exact Iff.rfl

/-- Every index is in some point's tile: row r is in tile r / 10000, and 3300000 / 10000 = 330 tiles. -/
theorem covered8 (i : S3300000x32.Idx) :
    ∃ t : Fin cfg8.N, (cfg8.win 2).flush t = true ∧ i ∈ ((cfg8.win 2).blk t).view.set := by
  have hi0 : (i 0).val < 3300000 := (i 0).isLt
  have hi1 : (i 1).val < 32 := (i 1).isLt
  obtain ⟨t, ht⟩ : ∃ t : Fin cfg8.N, t.val = (i 0).val / 10000 :=
    ⟨⟨(i 0).val / 10000, by show (i 0).val / 10000 < 330; omega⟩, rfl⟩
  obtain ⟨e0, e1, e2, e3, e4, e5⟩ := tileIndex8 t
  refine ⟨t, flush8_2 t, ?_⟩
  rw [mem_tile8]
  intro a
  match a with
  | ⟨0, _⟩ =>
    show win8_2.index t (0 : Fin 2) * 10000 ≤ (i 0).val ∧ (i 0).val < win8_2.index t (0 : Fin 2) * 10000 + 10000
    omega
  | ⟨1, _⟩ =>
    show win8_2.index t (1 : Fin 2) * 32 ≤ (i 1).val ∧ (i 1).val < win8_2.index t (1 : Fin 2) * 32 + 32
    omega

/-- The array after the region: the input matrix with every row scaled by that row's entry of the column. -/
theorem final8 (c : Dev nD) :
    (dat8 (F := Ideal) V c).arrAt 2 cfg8.N = Cert.LibStageDefs.scaleRows (V c main_v104) (V c main_v27) :=
  (dat8 V c).arrAt_eq_of_cover 2 _ (fun t _ => flushed8_eq V c t) covered8

end Cert.KernelIdeal.Region

end
-- ==== Proof.Reg9.lean ====
/-
  The heads stage: three affine maps of one matrix of 2048 rows and a two-layer head on the first of them, computed at
  one grid point from the whole arrays. Each output array after the stage is one function of the stage's input arrays:
  X · W + b entry by entry, with every product an exact finite sum of extended reals.
-/
import proofs.«100850_j27204322853289_2_alg».proof.Proof.Gen.KernelIdeal.Frame
import proofs.«100850_j27204322853289_2_alg».proof.Proof.LibStageDefs

noncomputable section

namespace Cert.KernelIdeal.Region

open Cert.KernelIdeal Cert.KernelIdeal.Gen Idealize.ShloMosaic Idealize.ShloMosaic.ValueIdx
open Idealize.ShloMosaic.TcCoe
open Cert.LibStageDefs

/-- The zero offsets of a whole-array rectangle, however spelt. -/
theorem heads_hz : (![0, 0] : Fin 2 → Nat) = fun _ => 0 := funext fun a => by fin_cases a <;> rfl

/-- The first affine map's payload of the whole arrays is `affine`: the product into the zero accumulator is the exact
    sum, and the one-row bias broadcast down the rows reads the row at the column. -/
theorem heads_affine32 (x0 : Vec Ideal S2048x32 .f32) (x1 : Vec Ideal S32x32 .f32) (x2 : Vec Ideal S1x32 .f32) :
    k9_pay2 (F := Ideal) x0 x1 x2 = affine x0 x1 x2 := by
  funext i
  unfold k9_pay2 k9_pay1
  refine (addf_apply _ _ _).trans ?_
  refine congrArg₂ (· + ·) ?_ ?_
  · exact Cert.LibRowTiles.tile_prod_cast_apply _ rfl _ _ x0 x1 x0 x1 i i (fun _ => rfl) (fun _ => rfl)
  · rw [shapeCast_self]
    exact Cert.LibRowTiles.broadcastTo_oneRow_at x2 _ i

/-- The second affine map's payload is the same function of its own weights and bias. -/
theorem heads_affine32' (x0 : Vec Ideal S2048x32 .f32) (x3 : Vec Ideal S32x32 .f32) (x4 : Vec Ideal S1x32 .f32) :
    k9_pay3 (F := Ideal) x0 x3 x4 = affine x0 x3 x4 := by
  funext i
  unfold k9_pay3 k9_pay1
  refine (addf_apply _ _ _).trans ?_
  refine congrArg₂ (· + ·) ?_ ?_
  · exact Cert.LibRowTiles.tile_prod_cast_apply _ rfl _ _ x0 x3 x0 x3 i i (fun _ => rfl) (fun _ => rfl)
  · rw [shapeCast_self]
    exact Cert.LibRowTiles.broadcastTo_oneRow_at x4 _ i

/-- A whole matrix times whole weights into the zero accumulator plus the one-row bias laid along every row is `affine`. -/
theorem kernel_affine_eq {M K N : Nat} (d : DotDims ⟨2, ![M, K]⟩ ⟨2, ![K, N]⟩ ⟨2, ![M, N]⟩) (hd : d = DotDims.plain M K N)
    (h1 : FTy.bf16.bits < FTy.f32.bits) (hb : (⟨2, ![1, N]⟩ : Shape).Broadcasts ⟨2, ![M, N]⟩)
    (X : FVec Ideal ⟨2, ![M, K]⟩ .f32) (W : FVec Ideal ⟨2, ![K, N]⟩ .f32) (B : FVec Ideal ⟨2, ![1, N]⟩ .f32) :
    addf (matmul d none (truncf .bf16 X h1) (truncf .bf16 W h1) (constant ⟨2, ![M, N]⟩ .f32 0x00000000#32))
        (broadcastTo ⟨2, ![M, N]⟩ B hb) = affine X W B := by
  funext i
  refine (addf_apply _ _ _).trans ?_
  refine congrArg₂ (· + ·) ?_ ?_
  · exact Cert.LibRowTiles.tile_prod_apply d hd h1 X W X W i i (fun _ => rfl) (fun _ => rfl)
  · exact Cert.LibRowTiles.broadcastTo_oneRow_at B hb i

/-- The maximum with the zero splat is `relu`: the zero word is the extended real 0. -/
theorem kernel_relu_eq {R C : Nat} (A : FVec Ideal ⟨2, ![R, C]⟩ .f32) :
    maximumf A (broadcast ⟨2, ![R, C]⟩ (Scalar.ofBits (F := Ideal) .f32 0x00000000#32)) = relu A := by
  funext i
  show max (A i) (Ideal.ofBits .f32 0x00000000#32) = max (A i) 0
  rw [Ideal.ofBits_zero_f32]

/-- The head's payload: the first affine map, a second affine map of it under the maximum with zero, and a third affine
    map of that onto one column. -/
theorem heads_prop (x0 : Vec Ideal S2048x32 .f32) (x1 : Vec Ideal S32x32 .f32) (x2 : Vec Ideal S1x32 .f32)
    (x5 : Vec Ideal S32x32 .f32) (x6 : Vec Ideal S1x32 .f32) (x7 : Vec Ideal S32x1 .f32) (x8 : Vec Ideal S1x1 .f32) :
    k9_pay4 (F := Ideal) x0 x1 x2 x5 x6 x7 x8 = affine (relu (affine (affine x0 x1 x2) x5 x6)) x7 x8 := by
  unfold k9_pay4
  rw [heads_affine32 x0 x1 x2]
  simp only [shapeCast_self]
  rw [kernel_affine_eq (M := 2048) (K := 32) (N := 32) dot_S2048x32_S32x32_S2048x32_1_0_0_1_n_n rfl bitsLt_bf16_f32
    broadcasts_S1x32_S2048x32 (affine x0 x1 x2) x5 x6]
  rw [kernel_relu_eq (R := 2048) (C := 32) (affine (affine x0 x1 x2) x5 x6)]
  exact kernel_affine_eq (M := 2048) (K := 32) (N := 1) dot_S2048x32_S32x1_S2048x1_1_0_0_1_n_n rfl bitsLt_bf16_f32
    broadcasts_S1x1_S2048x1 _ x7 x8

/-- The printed index maps, decided over the one grid point: every window's block index is (0, 0). -/
theorem heads_idx : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = 0 ∧ win9_9.index t (1 : Fin 2) = 0
    ∧ win9_10.index t (0 : Fin 2) = 0 ∧ win9_10.index t (1 : Fin 2) = 0
    ∧ win9_11.index t (0 : Fin 2) = 0 ∧ win9_11.index t (1 : Fin 2) = 0 :=
  (by decide +kernel : ∀ t : Fin grid9.N, _)

/-- Input window 0's block at the one point is its whole array. -/
theorem heads_blk0 (V : (c : Dev nD) → (b : Ref sig .tc) → Buf (Elt Ideal) ((c : Thread nD τ).loc b)) (c : Dev nD) (t : Fin cfg9.N) :
    (iblk9 V c 0 t : Vec Ideal S2048x32 .f32) = V c main_v125 := by
  funext y
  show V c main_v125 (((cfg9.win 0).blk t).view.emb y) = V c main_v125 y
  refine congrArg _ (funext fun a => Fin.ext ?_)
  have hi := heads_idx t
  match a with
  | ⟨0, _⟩ => show win9_0.index t (0 : Fin 2) * 2048 + 1 * (y 0).val = (y 0).val; omega
  | ⟨1, _⟩ => show win9_0.index t (1 : Fin 2) * 32 + 1 * (y 1).val = (y 1).val; omega

/-- Input window 1's block at the one point is its whole array. -/
theorem heads_blk1 (V : (c : Dev nD) → (b : Ref sig .tc) → Buf (Elt Ideal) ((c : Thread nD τ).loc b)) (c : Dev nD) (t : Fin cfg9.N) :
    (iblk9 V c 1 t : Vec Ideal S32x32 .f32) = V c main_arg7 := by
  funext y
  show V c main_arg7 (((cfg9.win 1).blk t).view.emb y) = V c main_arg7 y
  refine congrArg _ (funext fun a => Fin.ext ?_)
  have hi := heads_idx t
  match a with
  | ⟨0, _⟩ => show win9_1.index t (0 : Fin 2) * 32 + 1 * (y 0).val = (y 0).val; omega
  | ⟨1, _⟩ => show win9_1.index t (1 : Fin 2) * 32 + 1 * (y 1).val = (y 1).val; omega

/-- Input window 2's block at the one point is its whole array. -/
theorem heads_blk2 (V : (c : Dev nD) → (b : Ref sig .tc) → Buf (Elt Ideal) ((c : Thread nD τ).loc b)) (c : Dev nD) (t : Fin cfg9.N) :
    (iblk9 V c 2 t : Vec Ideal S1x32 .f32) = V c main_v126 := by
  funext y
  show V c main_v126 (((cfg9.win 2).blk t).view.emb y) = V c main_v126 y
  refine congrArg _ (funext fun a => Fin.ext ?_)
  have hi := heads_idx t
  match a with
  | ⟨0, _⟩ => show win9_2.index t (0 : Fin 2) * 1 + 1 * (y 0).val = (y 0).val; omega
  | ⟨1, _⟩ => show win9_2.index t (1 : Fin 2) * 32 + 1 * (y 1).val = (y 1).val; omega

/-- Input window 3's block at the one point is its whole array. -/
theorem heads_blk3 (V : (c : Dev nD) → (b : Ref sig .tc) → Buf (Elt Ideal) ((c : Thread nD τ).loc b)) (c : Dev nD) (t : Fin cfg9.N) :
    (iblk9 V c 3 t : Vec Ideal S32x32 .f32) = V c main_arg9 := by
  funext y
  show V c main_arg9 (((cfg9.win 3).blk t).view.emb y) = V c main_arg9 y
  refine congrArg _ (funext fun a => Fin.ext ?_)
  have hi := heads_idx t
  match a with
  | ⟨0, _⟩ => show win9_3.index t (0 : Fin 2) * 32 + 1 * (y 0).val = (y 0).val; omega
  | ⟨1, _⟩ => show win9_3.index t (1 : Fin 2) * 32 + 1 * (y 1).val = (y 1).val; omega

/-- Input window 4's block at the one point is its whole array. -/
theorem heads_blk4 (V : (c : Dev nD) → (b : Ref sig .tc) → Buf (Elt Ideal) ((c : Thread nD τ).loc b)) (c : Dev nD) (t : Fin cfg9.N) :
    (iblk9 V c 4 t : Vec Ideal S1x32 .f32) = V c main_v127 := by
  funext y
  show V c main_v127 (((cfg9.win 4).blk t).view.emb y) = V c main_v127 y
  refine congrArg _ (funext fun a => Fin.ext ?_)
  have hi := heads_idx t
  match a with
  | ⟨0, _⟩ => show win9_4.index t (0 : Fin 2) * 1 + 1 * (y 0).val = (y 0).val; omega
  | ⟨1, _⟩ => show win9_4.index t (1 : Fin 2) * 32 + 1 * (y 1).val = (y 1).val; omega

/-- Input window 5's block at the one point is its whole array. -/
theorem heads_blk5 (V : (c : Dev nD) → (b : Ref sig .tc) → Buf (Elt Ideal) ((c : Thread nD τ).loc b)) (c : Dev nD) (t : Fin cfg9.N) :
    (iblk9 V c 5 t : Vec Ideal S32x32 .f32) = V c main_arg11 := by
  funext y
  show V c main_arg11 (((cfg9.win 5).blk t).view.emb y) = V c main_arg11 y
  refine congrArg _ (funext fun a => Fin.ext ?_)
  have hi := heads_idx t
  match a with
  | ⟨0, _⟩ => show win9_5.index t (0 : Fin 2) * 32 + 1 * (y 0).val = (y 0).val; omega
  | ⟨1, _⟩ => show win9_5.index t (1 : Fin 2) * 32 + 1 * (y 1).val = (y 1).val; omega

/-- Input window 6's block at the one point is its whole array. -/
theorem heads_blk6 (V : (c : Dev nD) → (b : Ref sig .tc) → Buf (Elt Ideal) ((c : Thread nD τ).loc b)) (c : Dev nD) (t : Fin cfg9.N) :
    (iblk9 V c 6 t : Vec Ideal S1x32 .f32) = V c main_v128 := by
  funext y
  show V c main_v128 (((cfg9.win 6).blk t).view.emb y) = V c main_v128 y
  refine congrArg _ (funext fun a => Fin.ext ?_)
  have hi := heads_idx t
  match a with
  | ⟨0, _⟩ => show win9_6.index t (0 : Fin 2) * 1 + 1 * (y 0).val = (y 0).val; omega
  | ⟨1, _⟩ => show win9_6.index t (1 : Fin 2) * 32 + 1 * (y 1).val = (y 1).val; omega

/-- Input window 7's block at the one point is its whole array. -/
theorem heads_blk7 (V : (c : Dev nD) → (b : Ref sig .tc) → Buf (Elt Ideal) ((c : Thread nD τ).loc b)) (c : Dev nD) (t : Fin cfg9.N) :
    (iblk9 V c 7 t : Vec Ideal S32x1 .f32) = V c main_arg13 := by
  funext y
  show V c main_arg13 (((cfg9.win 7).blk t).view.emb y) = V c main_arg13 y
  refine congrArg _ (funext fun a => Fin.ext ?_)
  have hi := heads_idx t
  match a with
  | ⟨0, _⟩ => show win9_7.index t (0 : Fin 2) * 32 + 1 * (y 0).val = (y 0).val; omega
  | ⟨1, _⟩ => show win9_7.index t (1 : Fin 2) * 1 + 1 * (y 1).val = (y 1).val; omega

/-- Input window 8's block at the one point is its whole array. -/
theorem heads_blk8 (V : (c : Dev nD) → (b : Ref sig .tc) → Buf (Elt Ideal) ((c : Thread nD τ).loc b)) (c : Dev nD) (t : Fin cfg9.N) :
    (iblk9 V c 8 t : Vec Ideal S1x1 .f32) = V c main_v129 := by
  funext y
  show V c main_v129 (((cfg9.win 8).blk t).view.emb y) = V c main_v129 y
  refine congrArg _ (funext fun a => Fin.ext ?_)
  have hi := heads_idx t
  match a with
  | ⟨0, _⟩ => show win9_8.index t (0 : Fin 2) * 1 + 1 * (y 0).val = (y 0).val; omega
  | ⟨1, _⟩ => show win9_8.index t (1 : Fin 2) * 1 + 1 * (y 1).val = (y 1).val; omega

/-- What the one point writes back through output window 9 is the whole of the function of the input arrays. -/
theorem heads_flushed_mu (V : (c : Dev nD) → (b : Ref sig .tc) → Buf (Elt Ideal) ((c : Thread nD τ).loc b)) (c : Dev nD) (t : Fin cfg9.N) :
    (dat9 (F := Ideal) V c).flushed 9 t
      = ((cfg9.win 9).blk t).view.read (Elt Ideal) (affine (V c main_v125) (V c main_arg7) (V c main_v126)) := by
  show (cfg9.win 9).cut (grid9.coords t) ((dat9 V c).after 9 t) = _
  rw [after9_9]
  unfold out9_9
  rw [View.canon_unit_zero heads_hz]
  simp only [View.ld_unit_zero (S := S2048x32) heads_hz, View.ld_unit_zero (S := S32x32) heads_hz, View.ld_unit_zero (S := S1x32) heads_hz]
  rw [heads_affine32, heads_blk0 V c t, heads_blk1 V c t, heads_blk2 V c t]
  funext j
  show (affine (V c main_v125) (V c main_arg7) (V c main_v126)) j
    = (affine (V c main_v125) (V c main_arg7) (V c main_v126)) (((cfg9.win 9).blk t).view.emb j)
  refine congrArg _ (funext fun a => Fin.ext ?_)
  have hi := heads_idx t
  match a with
  | ⟨0, _⟩ => show (j 0).val = win9_9.index t (0 : Fin 2) * 2048 + 1 * (j 0).val; omega
  | ⟨1, _⟩ => show (j 1).val = win9_9.index t (1 : Fin 2) * 32 + 1 * (j 1).val; omega

/-- Every index of output window 9's array is in the one point's block. -/
theorem heads_mem_mu (t : Fin cfg9.N) (i : S2048x32.Idx) : i ∈ ((cfg9.win 9).blk t).view.set := by
  show i ∈ ((View.whole main_v130_0).slice (win9_9.rect t)).set
  rw [View.set_slice_whole, Rect.mem_set_unit]
  intro a
  have hi := heads_idx t
  match a with
  | ⟨0, _⟩ =>
    show win9_9.index t (0 : Fin 2) * 2048 ≤ (i 0).val ∧ (i 0).val < win9_9.index t (0 : Fin 2) * 2048 + 2048
    have h0 : (i 0).val < 2048 := (i 0).isLt
    omega
  | ⟨1, _⟩ =>
    show win9_9.index t (1 : Fin 2) * 32 ≤ (i 1).val ∧ (i 1).val < win9_9.index t (1 : Fin 2) * 32 + 32
    have h1 : (i 1).val < 32 := (i 1).isLt
    omega

/-- The array of output window 9 after the stage: mu = hg · mu_w + mu_b. -/
theorem final9_mu (V : (c : Dev nD) → (b : Ref sig .tc) → Buf (Elt Ideal) ((c : Thread nD τ).loc b)) (c : Dev nD) :
    (dat9 (F := Ideal) V c).arrAt 9 cfg9.N
      = affine (V c main_v125) (V c main_arg7) (V c main_v126) :=
  (dat9 V c).arrAt_eq_of_cover 9 _ (fun t _ => heads_flushed_mu V c t)
    (fun i => ⟨⟨0, by decide⟩, flush9_9 _, heads_mem_mu _ i⟩)

/-- What the one point writes back through output window 10 is the whole of the function of the input arrays. -/
theorem heads_flushed_lv (V : (c : Dev nD) → (b : Ref sig .tc) → Buf (Elt Ideal) ((c : Thread nD τ).loc b)) (c : Dev nD) (t : Fin cfg9.N) :
    (dat9 (F := Ideal) V c).flushed 10 t
      = ((cfg9.win 10).blk t).view.read (Elt Ideal) (affine (V c main_v125) (V c main_arg9) (V c main_v127)) := by
  show (cfg9.win 10).cut (grid9.coords t) ((dat9 V c).after 10 t) = _
  rw [after9_10]
  unfold out9_10
  rw [View.canon_unit_zero heads_hz]
  simp only [View.ld_unit_zero (S := S2048x32) heads_hz, View.ld_unit_zero (S := S32x32) heads_hz, View.ld_unit_zero (S := S1x32) heads_hz]
  rw [heads_affine32', heads_blk0 V c t, heads_blk3 V c t, heads_blk4 V c t]
  funext j
  show (affine (V c main_v125) (V c main_arg9) (V c main_v127)) j
    = (affine (V c main_v125) (V c main_arg9) (V c main_v127)) (((cfg9.win 10).blk t).view.emb j)
  refine congrArg _ (funext fun a => Fin.ext ?_)
  have hi := heads_idx t
  match a with
  | ⟨0, _⟩ => show (j 0).val = win9_10.index t (0 : Fin 2) * 2048 + 1 * (j 0).val; omega
  | ⟨1, _⟩ => show (j 1).val = win9_10.index t (1 : Fin 2) * 32 + 1 * (j 1).val; omega

/-- Every index of output window 10's array is in the one point's block. -/
theorem heads_mem_lv (t : Fin cfg9.N) (i : S2048x32.Idx) : i ∈ ((cfg9.win 10).blk t).view.set := by
  show i ∈ ((View.whole main_v130_1).slice (win9_10.rect t)).set
  rw [View.set_slice_whole, Rect.mem_set_unit]
  intro a
  have hi := heads_idx t
  match a with
  | ⟨0, _⟩ =>
    show win9_10.index t (0 : Fin 2) * 2048 ≤ (i 0).val ∧ (i 0).val < win9_10.index t (0 : Fin 2) * 2048 + 2048
    have h0 : (i 0).val < 2048 := (i 0).isLt
    omega
  | ⟨1, _⟩ =>
    show win9_10.index t (1 : Fin 2) * 32 ≤ (i 1).val ∧ (i 1).val < win9_10.index t (1 : Fin 2) * 32 + 32
    have h1 : (i 1).val < 32 := (i 1).isLt
    omega

/-- The array of output window 10 after the stage: log_var = hg · lv_w + lv_b. -/
theorem final9_lv (V : (c : Dev nD) → (b : Ref sig .tc) → Buf (Elt Ideal) ((c : Thread nD τ).loc b)) (c : Dev nD) :
    (dat9 (F := Ideal) V c).arrAt 10 cfg9.N
      = affine (V c main_v125) (V c main_arg9) (V c main_v127) :=
  (dat9 V c).arrAt_eq_of_cover 10 _ (fun t _ => heads_flushed_lv V c t)
    (fun i => ⟨⟨0, by decide⟩, flush9_10 _, heads_mem_lv _ i⟩)

/-- What the one point writes back through output window 11 is the whole of the function of the input arrays. -/
theorem heads_flushed_prop (V : (c : Dev nD) → (b : Ref sig .tc) → Buf (Elt Ideal) ((c : Thread nD τ).loc b)) (c : Dev nD) (t : Fin cfg9.N) :
    (dat9 (F := Ideal) V c).flushed 11 t
      = ((cfg9.win 11).blk t).view.read (Elt Ideal) (affine (relu (affine (affine (V c main_v125) (V c main_arg7) (V c main_v126)) (V c main_arg11) (V c main_v128))) (V c main_arg13) (V c main_v129)) := by
  show (cfg9.win 11).cut (grid9.coords t) ((dat9 V c).after 11 t) = _
  rw [after9_11]
  unfold out9_11
  rw [View.canon_unit_zero heads_hz]
  simp only [View.ld_unit_zero (S := S2048x32) heads_hz, View.ld_unit_zero (S := S32x32) heads_hz, View.ld_unit_zero (S := S1x32) heads_hz, View.ld_unit_zero (S := S32x1) heads_hz, View.ld_unit_zero (S := S1x1) heads_hz, View.ld_unit_zero (S := S2048x1) heads_hz]
  rw [heads_prop, heads_blk0 V c t, heads_blk1 V c t, heads_blk2 V c t, heads_blk5 V c t, heads_blk6 V c t, heads_blk7 V c t, heads_blk8 V c t]
  funext j
  show (affine (relu (affine (affine (V c main_v125) (V c main_arg7) (V c main_v126)) (V c main_arg11) (V c main_v128))) (V c main_arg13) (V c main_v129)) j
    = (affine (relu (affine (affine (V c main_v125) (V c main_arg7) (V c main_v126)) (V c main_arg11) (V c main_v128))) (V c main_arg13) (V c main_v129)) (((cfg9.win 11).blk t).view.emb j)
  refine congrArg _ (funext fun a => Fin.ext ?_)
  have hi := heads_idx t
  match a with
  | ⟨0, _⟩ => show (j 0).val = win9_11.index t (0 : Fin 2) * 2048 + 1 * (j 0).val; omega
  | ⟨1, _⟩ => show (j 1).val = win9_11.index t (1 : Fin 2) * 1 + 1 * (j 1).val; omega

/-- Every index of output window 11's array is in the one point's block. -/
theorem heads_mem_prop (t : Fin cfg9.N) (i : S2048x1.Idx) : i ∈ ((cfg9.win 11).blk t).view.set := by
  show i ∈ ((View.whole main_v130_2).slice (win9_11.rect t)).set
  rw [View.set_slice_whole, Rect.mem_set_unit]
  intro a
  have hi := heads_idx t
  match a with
  | ⟨0, _⟩ =>
    show win9_11.index t (0 : Fin 2) * 2048 ≤ (i 0).val ∧ (i 0).val < win9_11.index t (0 : Fin 2) * 2048 + 2048
    have h0 : (i 0).val < 2048 := (i 0).isLt
    omega
  | ⟨1, _⟩ =>
    show win9_11.index t (1 : Fin 2) * 1 ≤ (i 1).val ∧ (i 1).val < win9_11.index t (1 : Fin 2) * 1 + 1
    have h1 : (i 1).val < 1 := (i 1).isLt
    omega

/-- The array of output window 11 after the stage: the head's one column. -/
theorem final9_prop (V : (c : Dev nD) → (b : Ref sig .tc) → Buf (Elt Ideal) ((c : Thread nD τ).loc b)) (c : Dev nD) :
    (dat9 (F := Ideal) V c).arrAt 11 cfg9.N
      = affine (relu (affine (affine (V c main_v125) (V c main_arg7) (V c main_v126)) (V c main_arg11) (V c main_v128))) (V c main_arg13) (V c main_v129) :=
  (dat9 V c).arrAt_eq_of_cover 11 _ (fun t _ => heads_flushed_prop V c t)
    (fun i => ⟨⟨0, by decide⟩, flush9_11 _, heads_mem_prop _ i⟩)

end Cert.KernelIdeal.Region

end
-- ==== Proof.Chain.lean ====
/-
  The kernel program's buffer contents, boundary by boundary. Between the launch and the return the program alternates
  stretches of host operations with regions; at each boundary the buffers that matter later hold the network's values
  (Spec.lean) at the argument arrays: the edge ids and the message weights after the first stretch; after each linear
  region the dense transform; after each gather the message rows; after each scaling region the weighted messages; after
  each following stretch the next layer's node features; at the end the pooled features and the three heads. Each step is
  either a stretch's read (KHost.lean), a region's whole-array function (the Reg files) rewritten by the previous
  boundary's values and met with the host spelling (Bridge.lean), or a buffer nobody wrote carried across.
-/
import proofs.«100850_j27204322853289_2_alg».proof.Proof.Gen.KernelIdeal.Frame
import proofs.«100850_j27204322853289_2_alg».proof.Proof.KHost
import proofs.«100850_j27204322853289_2_alg».proof.Proof.Bridge
import proofs.«100850_j27204322853289_2_alg».proof.Proof.Reg0
import proofs.«100850_j27204322853289_2_alg».proof.Proof.Reg1
import proofs.«100850_j27204322853289_2_alg».proof.Proof.Reg2
import proofs.«100850_j27204322853289_2_alg».proof.Proof.Reg3
import proofs.«100850_j27204322853289_2_alg».proof.Proof.Reg4
import proofs.«100850_j27204322853289_2_alg».proof.Proof.Reg5
import proofs.«100850_j27204322853289_2_alg».proof.Proof.Reg6
import proofs.«100850_j27204322853289_2_alg».proof.Proof.Reg7
import proofs.«100850_j27204322853289_2_alg».proof.Proof.Reg8
import proofs.«100850_j27204322853289_2_alg».proof.Proof.Reg9

set_option maxRecDepth 16384

noncomputable section

namespace Cert.KernelIdeal.Chain

open Cert.KernelIdeal Cert.KernelIdeal.Gen Cert.KernelIdeal.HostReads Cert.KernelIdeal.Bridge Cert.KernelIdeal.Region
open Cert.LibStageDefs Idealize.ShloMosaic Idealize.ShloMosaic.TcCoe Idealize.SL.Sem

variable (m : (ℓ : Loc nD τ sig) → Buf (Elt Ideal) ℓ) (ρ : Dev nD → PrngReg) (c : Dev nD)

/-! ## The argument arrays and the network's values at them -/

abbrev A0 : FVec Ideal S100000x6 .f32 := m ((c : Thread nD τ).loc main_arg0)
abbrev A1 : IVec S2x3200000 32 := m ((c : Thread nD τ).loc main_arg1)
abbrev A2 : IVec S100000 32 := m ((c : Thread nD τ).loc main_arg2)
abbrev A3 : FVec Ideal S6x32 .f32 := m ((c : Thread nD τ).loc main_arg3)
abbrev A4 : FVec Ideal S32 .f32 := m ((c : Thread nD τ).loc main_arg4)
abbrev A5 : FVec Ideal S4x32x32 .f32 := m ((c : Thread nD τ).loc main_arg5)
abbrev A6 : FVec Ideal S4x32 .f32 := m ((c : Thread nD τ).loc main_arg6)
abbrev A7 : FVec Ideal S32x32 .f32 := m ((c : Thread nD τ).loc main_arg7)
abbrev A8 : FVec Ideal S32 .f32 := m ((c : Thread nD τ).loc main_arg8)
abbrev A9 : FVec Ideal S32x32 .f32 := m ((c : Thread nD τ).loc main_arg9)
abbrev A10 : FVec Ideal S32 .f32 := m ((c : Thread nD τ).loc main_arg10)
abbrev A11 : FVec Ideal S32x32 .f32 := m ((c : Thread nD τ).loc main_arg11)
abbrev A12 : FVec Ideal S32 .f32 := m ((c : Thread nD τ).loc main_arg12)
abbrev A13 : FVec Ideal S32x1 .f32 := m ((c : Thread nD τ).loc main_arg13)
abbrev A14 : FVec Ideal S1 .f32 := m ((c : Thread nD τ).loc main_arg14)

def SRC : IVec S3300000 32 := Cert.Spec.src (A1 m c)
def DST : IVec S3300000 32 := Cert.Spec.dst (A1 m c)
def NRM : FVec Ideal S3300000x1 .f32 := Cert.Spec.norm (SRC m c) (DST m c)
def H0 : FVec Ideal S100000x32 .f32 := Cert.Spec.lin0 (A0 m c) (A3 m c) (A4 m c)
def M0 : FVec Ideal S100000x32 .f32 := Cert.Spec.mm (H0 m c) (Cert.Spec.cw0 (A5 m c))
def G0 : FVec Ideal S3300000x32 .f32 := Cert.Spec.gath (M0 m c) (SRC m c)
def MSG0 : FVec Ideal S3300000x32 .f32 := Cert.Spec.scaled (G0 m c) (NRM m c)
def H1 : FVec Ideal S100000x32 .f32 := Cert.Spec.agg (MSG0 m c) (DST m c) (Cert.Spec.cb0 (A6 m c))
def M1 : FVec Ideal S100000x32 .f32 := Cert.Spec.mm (H1 m c) (Cert.Spec.cw1 (A5 m c))
def G1 : FVec Ideal S3300000x32 .f32 := Cert.Spec.gath (M1 m c) (SRC m c)
def MSG1 : FVec Ideal S3300000x32 .f32 := Cert.Spec.scaled (G1 m c) (NRM m c)
def H2 : FVec Ideal S100000x32 .f32 := Cert.Spec.agg (MSG1 m c) (DST m c) (Cert.Spec.cb1 (A6 m c))
def M2 : FVec Ideal S100000x32 .f32 := Cert.Spec.mm (H2 m c) (Cert.Spec.cw2 (A5 m c))
def G2 : FVec Ideal S3300000x32 .f32 := Cert.Spec.gath (M2 m c) (SRC m c)
def MSG2 : FVec Ideal S3300000x32 .f32 := Cert.Spec.scaled (G2 m c) (NRM m c)
def H3 : FVec Ideal S100000x32 .f32 := Cert.Spec.agg (MSG2 m c) (DST m c) (Cert.Spec.cb2 (A6 m c))
def M3 : FVec Ideal S100000x32 .f32 := Cert.Spec.mm (H3 m c) (Cert.Spec.cw3 (A5 m c))
def G3 : FVec Ideal S3300000x32 .f32 := Cert.Spec.gath (M3 m c) (SRC m c)
def MSG3 : FVec Ideal S3300000x32 .f32 := Cert.Spec.scaled (G3 m c) (NRM m c)
def H4 : FVec Ideal S100000x32 .f32 := Cert.Spec.agg (MSG3 m c) (DST m c) (Cert.Spec.cb3 (A6 m c))
def HG : FVec Ideal S2048x32 .f32 := Cert.Spec.pool (H4 m c) (A2 m c)

/-! ## Boundary 0: the launch -/

theorem k0_arg5 : W0 m ρ c (Proc.devRef .tc main_arg5) = A5 m c :=
  rfl
theorem k0_arg6 : W0 m ρ c (Proc.devRef .tc main_arg6) = A6 m c :=
  rfl
theorem k0_arg2 : W0 m ρ c (Proc.devRef .tc main_arg2) = A2 m c :=
  rfl
theorem k0_arg8 : W0 m ρ c (Proc.devRef .tc main_arg8) = A8 m c :=
  rfl
theorem k0_arg10 : W0 m ρ c (Proc.devRef .tc main_arg10) = A10 m c :=
  rfl
theorem k0_arg12 : W0 m ρ c (Proc.devRef .tc main_arg12) = A12 m c :=
  rfl
theorem k0_arg14 : W0 m ρ c (Proc.devRef .tc main_arg14) = A14 m c :=
  rfl
theorem k0_arg7 : W0 m ρ c (Proc.devRef .tc main_arg7) = A7 m c :=
  rfl
theorem k0_arg9 : W0 m ρ c (Proc.devRef .tc main_arg9) = A9 m c :=
  rfl
theorem k0_arg11 : W0 m ρ c (Proc.devRef .tc main_arg11) = A11 m c :=
  rfl
theorem k0_arg13 : W0 m ρ c (Proc.devRef .tc main_arg13) = A13 m c :=
  rfl
theorem k0_arg0 : W0 m ρ c (Proc.devRef .tc main_arg0) = A0 m c :=
  rfl
theorem k0_arg3 : W0 m ρ c (Proc.devRef .tc main_arg3) = A3 m c :=
  rfl
theorem k0_arg4 : W0 m ρ c (Proc.devRef .tc main_arg4) = A4 m c :=
  rfl
theorem k0_arg1 : W0 m ρ c (Proc.devRef .tc main_arg1) = A1 m c :=
  rfl

/-! ## Boundary 1 -/

theorem k1_v3 : W1 m ρ c (Proc.devRef .tc main_v3) = SRC m c :=
  (h0_v3 (W0 m ρ c)).trans (by rw [k0_arg1 m ρ c]; unfold SRC; rfl)
theorem k1_v6 : W1 m ρ c (Proc.devRef .tc main_v6) = DST m c :=
  (h0_v6 (W0 m ρ c)).trans (by rw [k0_arg1 m ρ c]; unfold DST; rfl)
theorem k1_v27 : W1 m ρ c (Proc.devRef .tc main_v27) = NRM m c :=
  (h0_v27 (W0 m ρ c)).trans (by rw [k0_arg1 m ρ c]; unfold NRM DST SRC; rfl)
theorem k1_v28 : W1 m ρ c (Proc.devRef .tc main_v28) = rowOf (A4 m c) :=
  (h0_v28 (W0 m ρ c)).trans (by rw [k0_arg4 m ρ c])
theorem k1_arg5 : W1 m ρ c (Proc.devRef .tc main_arg5) = A5 m c :=
  (keep0_arg5 (W0 m ρ c)).trans (k0_arg5 m ρ c)
theorem k1_arg6 : W1 m ρ c (Proc.devRef .tc main_arg6) = A6 m c :=
  (keep0_arg6 (W0 m ρ c)).trans (k0_arg6 m ρ c)
theorem k1_arg2 : W1 m ρ c (Proc.devRef .tc main_arg2) = A2 m c :=
  (keep0_arg2 (W0 m ρ c)).trans (k0_arg2 m ρ c)
theorem k1_arg8 : W1 m ρ c (Proc.devRef .tc main_arg8) = A8 m c :=
  (keep0_arg8 (W0 m ρ c)).trans (k0_arg8 m ρ c)
theorem k1_arg10 : W1 m ρ c (Proc.devRef .tc main_arg10) = A10 m c :=
  (keep0_arg10 (W0 m ρ c)).trans (k0_arg10 m ρ c)
theorem k1_arg12 : W1 m ρ c (Proc.devRef .tc main_arg12) = A12 m c :=
  (keep0_arg12 (W0 m ρ c)).trans (k0_arg12 m ρ c)
theorem k1_arg14 : W1 m ρ c (Proc.devRef .tc main_arg14) = A14 m c :=
  (keep0_arg14 (W0 m ρ c)).trans (k0_arg14 m ρ c)
theorem k1_arg7 : W1 m ρ c (Proc.devRef .tc main_arg7) = A7 m c :=
  (keep0_arg7 (W0 m ρ c)).trans (k0_arg7 m ρ c)
theorem k1_arg9 : W1 m ρ c (Proc.devRef .tc main_arg9) = A9 m c :=
  (keep0_arg9 (W0 m ρ c)).trans (k0_arg9 m ρ c)
theorem k1_arg11 : W1 m ρ c (Proc.devRef .tc main_arg11) = A11 m c :=
  (keep0_arg11 (W0 m ρ c)).trans (k0_arg11 m ρ c)
theorem k1_arg13 : W1 m ρ c (Proc.devRef .tc main_arg13) = A13 m c :=
  (keep0_arg13 (W0 m ρ c)).trans (k0_arg13 m ρ c)
theorem k1_arg0 : W1 m ρ c (Proc.devRef .tc main_arg0) = A0 m c :=
  (keep0_arg0 (W0 m ρ c)).trans (k0_arg0 m ρ c)
theorem k1_arg3 : W1 m ρ c (Proc.devRef .tc main_arg3) = A3 m c :=
  (keep0_arg3 (W0 m ρ c)).trans (k0_arg3 m ρ c)

/-! ## Boundary 2 -/

theorem k2_v29 : W2 m ρ c (Proc.devRef .tc main_v29) = H0 m c :=
  (W2_arr m ρ c 3).trans ((final0 (V1 m ρ) c).trans (by
    show affine (W1 m ρ c (Proc.devRef .tc main_arg0)) (W1 m ρ c (Proc.devRef .tc main_arg3)) (W1 m ρ c (Proc.devRef .tc main_v28)) = _
    rw [k1_arg0 m ρ c, k1_arg3 m ρ c, k1_v28 m ρ c]
    exact lin0_bridge (A0 m c) (A3 m c) (A4 m c)))
theorem k2_v3 : W2 m ρ c (Proc.devRef .tc main_v3) = SRC m c :=
  (W2_of_ne m ρ c main_v3 (by decide)).trans (k1_v3 m ρ c)
theorem k2_v6 : W2 m ρ c (Proc.devRef .tc main_v6) = DST m c :=
  (W2_of_ne m ρ c main_v6 (by decide)).trans (k1_v6 m ρ c)
theorem k2_v27 : W2 m ρ c (Proc.devRef .tc main_v27) = NRM m c :=
  (W2_of_ne m ρ c main_v27 (by decide)).trans (k1_v27 m ρ c)
theorem k2_arg5 : W2 m ρ c (Proc.devRef .tc main_arg5) = A5 m c :=
  (W2_of_ne m ρ c main_arg5 (by decide)).trans (k1_arg5 m ρ c)
theorem k2_arg6 : W2 m ρ c (Proc.devRef .tc main_arg6) = A6 m c :=
  (W2_of_ne m ρ c main_arg6 (by decide)).trans (k1_arg6 m ρ c)
theorem k2_arg2 : W2 m ρ c (Proc.devRef .tc main_arg2) = A2 m c :=
  (W2_of_ne m ρ c main_arg2 (by decide)).trans (k1_arg2 m ρ c)
theorem k2_arg8 : W2 m ρ c (Proc.devRef .tc main_arg8) = A8 m c :=
  (W2_of_ne m ρ c main_arg8 (by decide)).trans (k1_arg8 m ρ c)
theorem k2_arg10 : W2 m ρ c (Proc.devRef .tc main_arg10) = A10 m c :=
  (W2_of_ne m ρ c main_arg10 (by decide)).trans (k1_arg10 m ρ c)
theorem k2_arg12 : W2 m ρ c (Proc.devRef .tc main_arg12) = A12 m c :=
  (W2_of_ne m ρ c main_arg12 (by decide)).trans (k1_arg12 m ρ c)
theorem k2_arg14 : W2 m ρ c (Proc.devRef .tc main_arg14) = A14 m c :=
  (W2_of_ne m ρ c main_arg14 (by decide)).trans (k1_arg14 m ρ c)
theorem k2_arg7 : W2 m ρ c (Proc.devRef .tc main_arg7) = A7 m c :=
  (W2_of_ne m ρ c main_arg7 (by decide)).trans (k1_arg7 m ρ c)
theorem k2_arg9 : W2 m ρ c (Proc.devRef .tc main_arg9) = A9 m c :=
  (W2_of_ne m ρ c main_arg9 (by decide)).trans (k1_arg9 m ρ c)
theorem k2_arg11 : W2 m ρ c (Proc.devRef .tc main_arg11) = A11 m c :=
  (W2_of_ne m ρ c main_arg11 (by decide)).trans (k1_arg11 m ρ c)
theorem k2_arg13 : W2 m ρ c (Proc.devRef .tc main_arg13) = A13 m c :=
  (W2_of_ne m ρ c main_arg13 (by decide)).trans (k1_arg13 m ρ c)

/-! ## Boundary 3 -/

theorem k3_v32 : W3 m ρ c (Proc.devRef .tc main_v32) = Cert.Spec.cw0 (A5 m c) :=
  (h1_v32 (W2 m ρ c)).trans (by rw [k2_arg5 m ρ c])
theorem k3_v33 : W3 m ρ c (Proc.devRef .tc main_v33) = zeroRow :=
  h1_v33 (W2 m ρ c)
theorem k3_v3 : W3 m ρ c (Proc.devRef .tc main_v3) = SRC m c :=
  (keep1_v3 (W2 m ρ c)).trans (k2_v3 m ρ c)
theorem k3_v6 : W3 m ρ c (Proc.devRef .tc main_v6) = DST m c :=
  (keep1_v6 (W2 m ρ c)).trans (k2_v6 m ρ c)
theorem k3_v27 : W3 m ρ c (Proc.devRef .tc main_v27) = NRM m c :=
  (keep1_v27 (W2 m ρ c)).trans (k2_v27 m ρ c)
theorem k3_arg5 : W3 m ρ c (Proc.devRef .tc main_arg5) = A5 m c :=
  (keep1_arg5 (W2 m ρ c)).trans (k2_arg5 m ρ c)
theorem k3_arg6 : W3 m ρ c (Proc.devRef .tc main_arg6) = A6 m c :=
  (keep1_arg6 (W2 m ρ c)).trans (k2_arg6 m ρ c)
theorem k3_arg2 : W3 m ρ c (Proc.devRef .tc main_arg2) = A2 m c :=
  (keep1_arg2 (W2 m ρ c)).trans (k2_arg2 m ρ c)
theorem k3_arg8 : W3 m ρ c (Proc.devRef .tc main_arg8) = A8 m c :=
  (keep1_arg8 (W2 m ρ c)).trans (k2_arg8 m ρ c)
theorem k3_arg10 : W3 m ρ c (Proc.devRef .tc main_arg10) = A10 m c :=
  (keep1_arg10 (W2 m ρ c)).trans (k2_arg10 m ρ c)
theorem k3_arg12 : W3 m ρ c (Proc.devRef .tc main_arg12) = A12 m c :=
  (keep1_arg12 (W2 m ρ c)).trans (k2_arg12 m ρ c)
theorem k3_arg14 : W3 m ρ c (Proc.devRef .tc main_arg14) = A14 m c :=
  (keep1_arg14 (W2 m ρ c)).trans (k2_arg14 m ρ c)
theorem k3_arg7 : W3 m ρ c (Proc.devRef .tc main_arg7) = A7 m c :=
  (keep1_arg7 (W2 m ρ c)).trans (k2_arg7 m ρ c)
theorem k3_arg9 : W3 m ρ c (Proc.devRef .tc main_arg9) = A9 m c :=
  (keep1_arg9 (W2 m ρ c)).trans (k2_arg9 m ρ c)
theorem k3_arg11 : W3 m ρ c (Proc.devRef .tc main_arg11) = A11 m c :=
  (keep1_arg11 (W2 m ρ c)).trans (k2_arg11 m ρ c)
theorem k3_arg13 : W3 m ρ c (Proc.devRef .tc main_arg13) = A13 m c :=
  (keep1_arg13 (W2 m ρ c)).trans (k2_arg13 m ρ c)
theorem k3_v29 : W3 m ρ c (Proc.devRef .tc main_v29) = H0 m c :=
  (keep1_v29 (W2 m ρ c)).trans (k2_v29 m ρ c)

/-! ## Boundary 4 -/

theorem k4_v34 : W4 m ρ c (Proc.devRef .tc main_v34) = M0 m c :=
  (W4_arr m ρ c 3).trans ((final1 (V3 m ρ) c).trans (by
    show affine (W3 m ρ c (Proc.devRef .tc main_v29)) (W3 m ρ c (Proc.devRef .tc main_v32)) (W3 m ρ c (Proc.devRef .tc main_v33)) = _
    rw [k3_v29 m ρ c, k3_v32 m ρ c, k3_v33 m ρ c]
    exact mm_bridge (H0 m c) (Cert.Spec.cw0 (A5 m c))))
theorem k4_v3 : W4 m ρ c (Proc.devRef .tc main_v3) = SRC m c :=
  (W4_of_ne m ρ c main_v3 (by decide)).trans (k3_v3 m ρ c)
theorem k4_v6 : W4 m ρ c (Proc.devRef .tc main_v6) = DST m c :=
  (W4_of_ne m ρ c main_v6 (by decide)).trans (k3_v6 m ρ c)
theorem k4_v27 : W4 m ρ c (Proc.devRef .tc main_v27) = NRM m c :=
  (W4_of_ne m ρ c main_v27 (by decide)).trans (k3_v27 m ρ c)
theorem k4_arg5 : W4 m ρ c (Proc.devRef .tc main_arg5) = A5 m c :=
  (W4_of_ne m ρ c main_arg5 (by decide)).trans (k3_arg5 m ρ c)
theorem k4_arg6 : W4 m ρ c (Proc.devRef .tc main_arg6) = A6 m c :=
  (W4_of_ne m ρ c main_arg6 (by decide)).trans (k3_arg6 m ρ c)
theorem k4_arg2 : W4 m ρ c (Proc.devRef .tc main_arg2) = A2 m c :=
  (W4_of_ne m ρ c main_arg2 (by decide)).trans (k3_arg2 m ρ c)
theorem k4_arg8 : W4 m ρ c (Proc.devRef .tc main_arg8) = A8 m c :=
  (W4_of_ne m ρ c main_arg8 (by decide)).trans (k3_arg8 m ρ c)
theorem k4_arg10 : W4 m ρ c (Proc.devRef .tc main_arg10) = A10 m c :=
  (W4_of_ne m ρ c main_arg10 (by decide)).trans (k3_arg10 m ρ c)
theorem k4_arg12 : W4 m ρ c (Proc.devRef .tc main_arg12) = A12 m c :=
  (W4_of_ne m ρ c main_arg12 (by decide)).trans (k3_arg12 m ρ c)
theorem k4_arg14 : W4 m ρ c (Proc.devRef .tc main_arg14) = A14 m c :=
  (W4_of_ne m ρ c main_arg14 (by decide)).trans (k3_arg14 m ρ c)
theorem k4_arg7 : W4 m ρ c (Proc.devRef .tc main_arg7) = A7 m c :=
  (W4_of_ne m ρ c main_arg7 (by decide)).trans (k3_arg7 m ρ c)
theorem k4_arg9 : W4 m ρ c (Proc.devRef .tc main_arg9) = A9 m c :=
  (W4_of_ne m ρ c main_arg9 (by decide)).trans (k3_arg9 m ρ c)
theorem k4_arg11 : W4 m ρ c (Proc.devRef .tc main_arg11) = A11 m c :=
  (W4_of_ne m ρ c main_arg11 (by decide)).trans (k3_arg11 m ρ c)
theorem k4_arg13 : W4 m ρ c (Proc.devRef .tc main_arg13) = A13 m c :=
  (W4_of_ne m ρ c main_arg13 (by decide)).trans (k3_arg13 m ρ c)

/-! ## Boundary 5 -/

theorem k5_v41 : W5 m ρ c (Proc.devRef .tc main_v41) = G0 m c :=
  (h2_v41 (W4 m ρ c)).trans (by rw [k4_v34 m ρ c, k4_v3 m ρ c]; unfold G0; rfl)
theorem k5_v3 : W5 m ρ c (Proc.devRef .tc main_v3) = SRC m c :=
  (keep2_v3 (W4 m ρ c)).trans (k4_v3 m ρ c)
theorem k5_v6 : W5 m ρ c (Proc.devRef .tc main_v6) = DST m c :=
  (keep2_v6 (W4 m ρ c)).trans (k4_v6 m ρ c)
theorem k5_v27 : W5 m ρ c (Proc.devRef .tc main_v27) = NRM m c :=
  (keep2_v27 (W4 m ρ c)).trans (k4_v27 m ρ c)
theorem k5_arg5 : W5 m ρ c (Proc.devRef .tc main_arg5) = A5 m c :=
  (keep2_arg5 (W4 m ρ c)).trans (k4_arg5 m ρ c)
theorem k5_arg6 : W5 m ρ c (Proc.devRef .tc main_arg6) = A6 m c :=
  (keep2_arg6 (W4 m ρ c)).trans (k4_arg6 m ρ c)
theorem k5_arg2 : W5 m ρ c (Proc.devRef .tc main_arg2) = A2 m c :=
  (keep2_arg2 (W4 m ρ c)).trans (k4_arg2 m ρ c)
theorem k5_arg8 : W5 m ρ c (Proc.devRef .tc main_arg8) = A8 m c :=
  (keep2_arg8 (W4 m ρ c)).trans (k4_arg8 m ρ c)
theorem k5_arg10 : W5 m ρ c (Proc.devRef .tc main_arg10) = A10 m c :=
  (keep2_arg10 (W4 m ρ c)).trans (k4_arg10 m ρ c)
theorem k5_arg12 : W5 m ρ c (Proc.devRef .tc main_arg12) = A12 m c :=
  (keep2_arg12 (W4 m ρ c)).trans (k4_arg12 m ρ c)
theorem k5_arg14 : W5 m ρ c (Proc.devRef .tc main_arg14) = A14 m c :=
  (keep2_arg14 (W4 m ρ c)).trans (k4_arg14 m ρ c)
theorem k5_arg7 : W5 m ρ c (Proc.devRef .tc main_arg7) = A7 m c :=
  (keep2_arg7 (W4 m ρ c)).trans (k4_arg7 m ρ c)
theorem k5_arg9 : W5 m ρ c (Proc.devRef .tc main_arg9) = A9 m c :=
  (keep2_arg9 (W4 m ρ c)).trans (k4_arg9 m ρ c)
theorem k5_arg11 : W5 m ρ c (Proc.devRef .tc main_arg11) = A11 m c :=
  (keep2_arg11 (W4 m ρ c)).trans (k4_arg11 m ρ c)
theorem k5_arg13 : W5 m ρ c (Proc.devRef .tc main_arg13) = A13 m c :=
  (keep2_arg13 (W4 m ρ c)).trans (k4_arg13 m ρ c)

/-! ## Boundary 6 -/

theorem k6_v42 : W6 m ρ c (Proc.devRef .tc main_v42) = MSG0 m c :=
  (W6_arr m ρ c 2).trans ((final2 (V5 m ρ) c).trans (by
    show scaleRows (W5 m ρ c (Proc.devRef .tc main_v41)) (W5 m ρ c (Proc.devRef .tc main_v27)) = _
    rw [k5_v41 m ρ c, k5_v27 m ρ c]
    exact scaled_bridge (G0 m c) (NRM m c)))
theorem k6_v3 : W6 m ρ c (Proc.devRef .tc main_v3) = SRC m c :=
  (W6_of_ne m ρ c main_v3 (by decide)).trans (k5_v3 m ρ c)
theorem k6_v6 : W6 m ρ c (Proc.devRef .tc main_v6) = DST m c :=
  (W6_of_ne m ρ c main_v6 (by decide)).trans (k5_v6 m ρ c)
theorem k6_v27 : W6 m ρ c (Proc.devRef .tc main_v27) = NRM m c :=
  ((W6_arr m ρ c 1).trans (((dat2 (V5 m ρ) c).arrAt_in 1 rfl _).trans (A_eq2 (V5 m ρ) c 1))).trans (k5_v27 m ρ c)
theorem k6_arg5 : W6 m ρ c (Proc.devRef .tc main_arg5) = A5 m c :=
  (W6_of_ne m ρ c main_arg5 (by decide)).trans (k5_arg5 m ρ c)
theorem k6_arg6 : W6 m ρ c (Proc.devRef .tc main_arg6) = A6 m c :=
  (W6_of_ne m ρ c main_arg6 (by decide)).trans (k5_arg6 m ρ c)
theorem k6_arg2 : W6 m ρ c (Proc.devRef .tc main_arg2) = A2 m c :=
  (W6_of_ne m ρ c main_arg2 (by decide)).trans (k5_arg2 m ρ c)
theorem k6_arg8 : W6 m ρ c (Proc.devRef .tc main_arg8) = A8 m c :=
  (W6_of_ne m ρ c main_arg8 (by decide)).trans (k5_arg8 m ρ c)
theorem k6_arg10 : W6 m ρ c (Proc.devRef .tc main_arg10) = A10 m c :=
  (W6_of_ne m ρ c main_arg10 (by decide)).trans (k5_arg10 m ρ c)
theorem k6_arg12 : W6 m ρ c (Proc.devRef .tc main_arg12) = A12 m c :=
  (W6_of_ne m ρ c main_arg12 (by decide)).trans (k5_arg12 m ρ c)
theorem k6_arg14 : W6 m ρ c (Proc.devRef .tc main_arg14) = A14 m c :=
  (W6_of_ne m ρ c main_arg14 (by decide)).trans (k5_arg14 m ρ c)
theorem k6_arg7 : W6 m ρ c (Proc.devRef .tc main_arg7) = A7 m c :=
  (W6_of_ne m ρ c main_arg7 (by decide)).trans (k5_arg7 m ρ c)
theorem k6_arg9 : W6 m ρ c (Proc.devRef .tc main_arg9) = A9 m c :=
  (W6_of_ne m ρ c main_arg9 (by decide)).trans (k5_arg9 m ρ c)
theorem k6_arg11 : W6 m ρ c (Proc.devRef .tc main_arg11) = A11 m c :=
  (W6_of_ne m ρ c main_arg11 (by decide)).trans (k5_arg11 m ρ c)
theorem k6_arg13 : W6 m ρ c (Proc.devRef .tc main_arg13) = A13 m c :=
  (W6_of_ne m ρ c main_arg13 (by decide)).trans (k5_arg13 m ρ c)

/-! ## Boundary 7 -/

theorem k7_v50 : W7 m ρ c (Proc.devRef .tc main_v50) = H1 m c :=
  (h3_v50 (W6 m ρ c)).trans (by rw [k6_v42 m ρ c, k6_v6 m ρ c, k6_arg6 m ρ c]; unfold H1; rfl)
theorem k7_v53 : W7 m ρ c (Proc.devRef .tc main_v53) = Cert.Spec.cw1 (A5 m c) :=
  (h3_v53 (W6 m ρ c)).trans (by rw [k6_arg5 m ρ c])
theorem k7_v54 : W7 m ρ c (Proc.devRef .tc main_v54) = zeroRow :=
  h3_v54 (W6 m ρ c)
theorem k7_v3 : W7 m ρ c (Proc.devRef .tc main_v3) = SRC m c :=
  (keep3_v3 (W6 m ρ c)).trans (k6_v3 m ρ c)
theorem k7_v6 : W7 m ρ c (Proc.devRef .tc main_v6) = DST m c :=
  (keep3_v6 (W6 m ρ c)).trans (k6_v6 m ρ c)
theorem k7_v27 : W7 m ρ c (Proc.devRef .tc main_v27) = NRM m c :=
  (keep3_v27 (W6 m ρ c)).trans (k6_v27 m ρ c)
theorem k7_arg5 : W7 m ρ c (Proc.devRef .tc main_arg5) = A5 m c :=
  (keep3_arg5 (W6 m ρ c)).trans (k6_arg5 m ρ c)
theorem k7_arg6 : W7 m ρ c (Proc.devRef .tc main_arg6) = A6 m c :=
  (keep3_arg6 (W6 m ρ c)).trans (k6_arg6 m ρ c)
theorem k7_arg2 : W7 m ρ c (Proc.devRef .tc main_arg2) = A2 m c :=
  (keep3_arg2 (W6 m ρ c)).trans (k6_arg2 m ρ c)
theorem k7_arg8 : W7 m ρ c (Proc.devRef .tc main_arg8) = A8 m c :=
  (keep3_arg8 (W6 m ρ c)).trans (k6_arg8 m ρ c)
theorem k7_arg10 : W7 m ρ c (Proc.devRef .tc main_arg10) = A10 m c :=
  (keep3_arg10 (W6 m ρ c)).trans (k6_arg10 m ρ c)
theorem k7_arg12 : W7 m ρ c (Proc.devRef .tc main_arg12) = A12 m c :=
  (keep3_arg12 (W6 m ρ c)).trans (k6_arg12 m ρ c)
theorem k7_arg14 : W7 m ρ c (Proc.devRef .tc main_arg14) = A14 m c :=
  (keep3_arg14 (W6 m ρ c)).trans (k6_arg14 m ρ c)
theorem k7_arg7 : W7 m ρ c (Proc.devRef .tc main_arg7) = A7 m c :=
  (keep3_arg7 (W6 m ρ c)).trans (k6_arg7 m ρ c)
theorem k7_arg9 : W7 m ρ c (Proc.devRef .tc main_arg9) = A9 m c :=
  (keep3_arg9 (W6 m ρ c)).trans (k6_arg9 m ρ c)
theorem k7_arg11 : W7 m ρ c (Proc.devRef .tc main_arg11) = A11 m c :=
  (keep3_arg11 (W6 m ρ c)).trans (k6_arg11 m ρ c)
theorem k7_arg13 : W7 m ρ c (Proc.devRef .tc main_arg13) = A13 m c :=
  (keep3_arg13 (W6 m ρ c)).trans (k6_arg13 m ρ c)

/-! ## Boundary 8 -/

theorem k8_v55 : W8 m ρ c (Proc.devRef .tc main_v55) = M1 m c :=
  (W8_arr m ρ c 3).trans ((final3 (V7 m ρ) c).trans (by
    show affine (W7 m ρ c (Proc.devRef .tc main_v50)) (W7 m ρ c (Proc.devRef .tc main_v53)) (W7 m ρ c (Proc.devRef .tc main_v54)) = _
    rw [k7_v50 m ρ c, k7_v53 m ρ c, k7_v54 m ρ c]
    exact mm_bridge (H1 m c) (Cert.Spec.cw1 (A5 m c))))
theorem k8_v3 : W8 m ρ c (Proc.devRef .tc main_v3) = SRC m c :=
  (W8_of_ne m ρ c main_v3 (by decide)).trans (k7_v3 m ρ c)
theorem k8_v6 : W8 m ρ c (Proc.devRef .tc main_v6) = DST m c :=
  (W8_of_ne m ρ c main_v6 (by decide)).trans (k7_v6 m ρ c)
theorem k8_v27 : W8 m ρ c (Proc.devRef .tc main_v27) = NRM m c :=
  (W8_of_ne m ρ c main_v27 (by decide)).trans (k7_v27 m ρ c)
theorem k8_arg5 : W8 m ρ c (Proc.devRef .tc main_arg5) = A5 m c :=
  (W8_of_ne m ρ c main_arg5 (by decide)).trans (k7_arg5 m ρ c)
theorem k8_arg6 : W8 m ρ c (Proc.devRef .tc main_arg6) = A6 m c :=
  (W8_of_ne m ρ c main_arg6 (by decide)).trans (k7_arg6 m ρ c)
theorem k8_arg2 : W8 m ρ c (Proc.devRef .tc main_arg2) = A2 m c :=
  (W8_of_ne m ρ c main_arg2 (by decide)).trans (k7_arg2 m ρ c)
theorem k8_arg8 : W8 m ρ c (Proc.devRef .tc main_arg8) = A8 m c :=
  (W8_of_ne m ρ c main_arg8 (by decide)).trans (k7_arg8 m ρ c)
theorem k8_arg10 : W8 m ρ c (Proc.devRef .tc main_arg10) = A10 m c :=
  (W8_of_ne m ρ c main_arg10 (by decide)).trans (k7_arg10 m ρ c)
theorem k8_arg12 : W8 m ρ c (Proc.devRef .tc main_arg12) = A12 m c :=
  (W8_of_ne m ρ c main_arg12 (by decide)).trans (k7_arg12 m ρ c)
theorem k8_arg14 : W8 m ρ c (Proc.devRef .tc main_arg14) = A14 m c :=
  (W8_of_ne m ρ c main_arg14 (by decide)).trans (k7_arg14 m ρ c)
theorem k8_arg7 : W8 m ρ c (Proc.devRef .tc main_arg7) = A7 m c :=
  (W8_of_ne m ρ c main_arg7 (by decide)).trans (k7_arg7 m ρ c)
theorem k8_arg9 : W8 m ρ c (Proc.devRef .tc main_arg9) = A9 m c :=
  (W8_of_ne m ρ c main_arg9 (by decide)).trans (k7_arg9 m ρ c)
theorem k8_arg11 : W8 m ρ c (Proc.devRef .tc main_arg11) = A11 m c :=
  (W8_of_ne m ρ c main_arg11 (by decide)).trans (k7_arg11 m ρ c)
theorem k8_arg13 : W8 m ρ c (Proc.devRef .tc main_arg13) = A13 m c :=
  (W8_of_ne m ρ c main_arg13 (by decide)).trans (k7_arg13 m ρ c)

/-! ## Boundary 9 -/

theorem k9_v62 : W9 m ρ c (Proc.devRef .tc main_v62) = G1 m c :=
  (h4_v62 (W8 m ρ c)).trans (by rw [k8_v55 m ρ c, k8_v3 m ρ c]; unfold G1; rfl)
theorem k9_v3 : W9 m ρ c (Proc.devRef .tc main_v3) = SRC m c :=
  (keep4_v3 (W8 m ρ c)).trans (k8_v3 m ρ c)
theorem k9_v6 : W9 m ρ c (Proc.devRef .tc main_v6) = DST m c :=
  (keep4_v6 (W8 m ρ c)).trans (k8_v6 m ρ c)
theorem k9_v27 : W9 m ρ c (Proc.devRef .tc main_v27) = NRM m c :=
  (keep4_v27 (W8 m ρ c)).trans (k8_v27 m ρ c)
theorem k9_arg5 : W9 m ρ c (Proc.devRef .tc main_arg5) = A5 m c :=
  (keep4_arg5 (W8 m ρ c)).trans (k8_arg5 m ρ c)
theorem k9_arg6 : W9 m ρ c (Proc.devRef .tc main_arg6) = A6 m c :=
  (keep4_arg6 (W8 m ρ c)).trans (k8_arg6 m ρ c)
theorem k9_arg2 : W9 m ρ c (Proc.devRef .tc main_arg2) = A2 m c :=
  (keep4_arg2 (W8 m ρ c)).trans (k8_arg2 m ρ c)
theorem k9_arg8 : W9 m ρ c (Proc.devRef .tc main_arg8) = A8 m c :=
  (keep4_arg8 (W8 m ρ c)).trans (k8_arg8 m ρ c)
theorem k9_arg10 : W9 m ρ c (Proc.devRef .tc main_arg10) = A10 m c :=
  (keep4_arg10 (W8 m ρ c)).trans (k8_arg10 m ρ c)
theorem k9_arg12 : W9 m ρ c (Proc.devRef .tc main_arg12) = A12 m c :=
  (keep4_arg12 (W8 m ρ c)).trans (k8_arg12 m ρ c)
theorem k9_arg14 : W9 m ρ c (Proc.devRef .tc main_arg14) = A14 m c :=
  (keep4_arg14 (W8 m ρ c)).trans (k8_arg14 m ρ c)
theorem k9_arg7 : W9 m ρ c (Proc.devRef .tc main_arg7) = A7 m c :=
  (keep4_arg7 (W8 m ρ c)).trans (k8_arg7 m ρ c)
theorem k9_arg9 : W9 m ρ c (Proc.devRef .tc main_arg9) = A9 m c :=
  (keep4_arg9 (W8 m ρ c)).trans (k8_arg9 m ρ c)
theorem k9_arg11 : W9 m ρ c (Proc.devRef .tc main_arg11) = A11 m c :=
  (keep4_arg11 (W8 m ρ c)).trans (k8_arg11 m ρ c)
theorem k9_arg13 : W9 m ρ c (Proc.devRef .tc main_arg13) = A13 m c :=
  (keep4_arg13 (W8 m ρ c)).trans (k8_arg13 m ρ c)

/-! ## Boundary 10 -/

theorem k10_v63 : W10 m ρ c (Proc.devRef .tc main_v63) = MSG1 m c :=
  (W10_arr m ρ c 2).trans ((final4 (V9 m ρ) c).trans (by
    show scaleRows (W9 m ρ c (Proc.devRef .tc main_v62)) (W9 m ρ c (Proc.devRef .tc main_v27)) = _
    rw [k9_v62 m ρ c, k9_v27 m ρ c]
    exact scaled_bridge (G1 m c) (NRM m c)))
theorem k10_v3 : W10 m ρ c (Proc.devRef .tc main_v3) = SRC m c :=
  (W10_of_ne m ρ c main_v3 (by decide)).trans (k9_v3 m ρ c)
theorem k10_v6 : W10 m ρ c (Proc.devRef .tc main_v6) = DST m c :=
  (W10_of_ne m ρ c main_v6 (by decide)).trans (k9_v6 m ρ c)
theorem k10_v27 : W10 m ρ c (Proc.devRef .tc main_v27) = NRM m c :=
  ((W10_arr m ρ c 1).trans (((dat4 (V9 m ρ) c).arrAt_in 1 rfl _).trans (A_eq4 (V9 m ρ) c 1))).trans (k9_v27 m ρ c)
theorem k10_arg5 : W10 m ρ c (Proc.devRef .tc main_arg5) = A5 m c :=
  (W10_of_ne m ρ c main_arg5 (by decide)).trans (k9_arg5 m ρ c)
theorem k10_arg6 : W10 m ρ c (Proc.devRef .tc main_arg6) = A6 m c :=
  (W10_of_ne m ρ c main_arg6 (by decide)).trans (k9_arg6 m ρ c)
theorem k10_arg2 : W10 m ρ c (Proc.devRef .tc main_arg2) = A2 m c :=
  (W10_of_ne m ρ c main_arg2 (by decide)).trans (k9_arg2 m ρ c)
theorem k10_arg8 : W10 m ρ c (Proc.devRef .tc main_arg8) = A8 m c :=
  (W10_of_ne m ρ c main_arg8 (by decide)).trans (k9_arg8 m ρ c)
theorem k10_arg10 : W10 m ρ c (Proc.devRef .tc main_arg10) = A10 m c :=
  (W10_of_ne m ρ c main_arg10 (by decide)).trans (k9_arg10 m ρ c)
theorem k10_arg12 : W10 m ρ c (Proc.devRef .tc main_arg12) = A12 m c :=
  (W10_of_ne m ρ c main_arg12 (by decide)).trans (k9_arg12 m ρ c)
theorem k10_arg14 : W10 m ρ c (Proc.devRef .tc main_arg14) = A14 m c :=
  (W10_of_ne m ρ c main_arg14 (by decide)).trans (k9_arg14 m ρ c)
theorem k10_arg7 : W10 m ρ c (Proc.devRef .tc main_arg7) = A7 m c :=
  (W10_of_ne m ρ c main_arg7 (by decide)).trans (k9_arg7 m ρ c)
theorem k10_arg9 : W10 m ρ c (Proc.devRef .tc main_arg9) = A9 m c :=
  (W10_of_ne m ρ c main_arg9 (by decide)).trans (k9_arg9 m ρ c)
theorem k10_arg11 : W10 m ρ c (Proc.devRef .tc main_arg11) = A11 m c :=
  (W10_of_ne m ρ c main_arg11 (by decide)).trans (k9_arg11 m ρ c)
theorem k10_arg13 : W10 m ρ c (Proc.devRef .tc main_arg13) = A13 m c :=
  (W10_of_ne m ρ c main_arg13 (by decide)).trans (k9_arg13 m ρ c)

/-! ## Boundary 11 -/

theorem k11_v71 : W11 m ρ c (Proc.devRef .tc main_v71) = H2 m c :=
  (h5_v71 (W10 m ρ c)).trans (by rw [k10_v63 m ρ c, k10_v6 m ρ c, k10_arg6 m ρ c]; unfold H2; rfl)
theorem k11_v74 : W11 m ρ c (Proc.devRef .tc main_v74) = Cert.Spec.cw2 (A5 m c) :=
  (h5_v74 (W10 m ρ c)).trans (by rw [k10_arg5 m ρ c])
theorem k11_v75 : W11 m ρ c (Proc.devRef .tc main_v75) = zeroRow :=
  h5_v75 (W10 m ρ c)
theorem k11_v3 : W11 m ρ c (Proc.devRef .tc main_v3) = SRC m c :=
  (keep5_v3 (W10 m ρ c)).trans (k10_v3 m ρ c)
theorem k11_v6 : W11 m ρ c (Proc.devRef .tc main_v6) = DST m c :=
  (keep5_v6 (W10 m ρ c)).trans (k10_v6 m ρ c)
theorem k11_v27 : W11 m ρ c (Proc.devRef .tc main_v27) = NRM m c :=
  (keep5_v27 (W10 m ρ c)).trans (k10_v27 m ρ c)
theorem k11_arg5 : W11 m ρ c (Proc.devRef .tc main_arg5) = A5 m c :=
  (keep5_arg5 (W10 m ρ c)).trans (k10_arg5 m ρ c)
theorem k11_arg6 : W11 m ρ c (Proc.devRef .tc main_arg6) = A6 m c :=
  (keep5_arg6 (W10 m ρ c)).trans (k10_arg6 m ρ c)
theorem k11_arg2 : W11 m ρ c (Proc.devRef .tc main_arg2) = A2 m c :=
  (keep5_arg2 (W10 m ρ c)).trans (k10_arg2 m ρ c)
theorem k11_arg8 : W11 m ρ c (Proc.devRef .tc main_arg8) = A8 m c :=
  (keep5_arg8 (W10 m ρ c)).trans (k10_arg8 m ρ c)
theorem k11_arg10 : W11 m ρ c (Proc.devRef .tc main_arg10) = A10 m c :=
  (keep5_arg10 (W10 m ρ c)).trans (k10_arg10 m ρ c)
theorem k11_arg12 : W11 m ρ c (Proc.devRef .tc main_arg12) = A12 m c :=
  (keep5_arg12 (W10 m ρ c)).trans (k10_arg12 m ρ c)
theorem k11_arg14 : W11 m ρ c (Proc.devRef .tc main_arg14) = A14 m c :=
  (keep5_arg14 (W10 m ρ c)).trans (k10_arg14 m ρ c)
theorem k11_arg7 : W11 m ρ c (Proc.devRef .tc main_arg7) = A7 m c :=
  (keep5_arg7 (W10 m ρ c)).trans (k10_arg7 m ρ c)
theorem k11_arg9 : W11 m ρ c (Proc.devRef .tc main_arg9) = A9 m c :=
  (keep5_arg9 (W10 m ρ c)).trans (k10_arg9 m ρ c)
theorem k11_arg11 : W11 m ρ c (Proc.devRef .tc main_arg11) = A11 m c :=
  (keep5_arg11 (W10 m ρ c)).trans (k10_arg11 m ρ c)
theorem k11_arg13 : W11 m ρ c (Proc.devRef .tc main_arg13) = A13 m c :=
  (keep5_arg13 (W10 m ρ c)).trans (k10_arg13 m ρ c)

/-! ## Boundary 12 -/

theorem k12_v76 : W12 m ρ c (Proc.devRef .tc main_v76) = M2 m c :=
  (W12_arr m ρ c 3).trans ((final5 (V11 m ρ) c).trans (by
    show affine (W11 m ρ c (Proc.devRef .tc main_v71)) (W11 m ρ c (Proc.devRef .tc main_v74)) (W11 m ρ c (Proc.devRef .tc main_v75)) = _
    rw [k11_v71 m ρ c, k11_v74 m ρ c, k11_v75 m ρ c]
    exact mm_bridge (H2 m c) (Cert.Spec.cw2 (A5 m c))))
theorem k12_v3 : W12 m ρ c (Proc.devRef .tc main_v3) = SRC m c :=
  (W12_of_ne m ρ c main_v3 (by decide)).trans (k11_v3 m ρ c)
theorem k12_v6 : W12 m ρ c (Proc.devRef .tc main_v6) = DST m c :=
  (W12_of_ne m ρ c main_v6 (by decide)).trans (k11_v6 m ρ c)
theorem k12_v27 : W12 m ρ c (Proc.devRef .tc main_v27) = NRM m c :=
  (W12_of_ne m ρ c main_v27 (by decide)).trans (k11_v27 m ρ c)
theorem k12_arg5 : W12 m ρ c (Proc.devRef .tc main_arg5) = A5 m c :=
  (W12_of_ne m ρ c main_arg5 (by decide)).trans (k11_arg5 m ρ c)
theorem k12_arg6 : W12 m ρ c (Proc.devRef .tc main_arg6) = A6 m c :=
  (W12_of_ne m ρ c main_arg6 (by decide)).trans (k11_arg6 m ρ c)
theorem k12_arg2 : W12 m ρ c (Proc.devRef .tc main_arg2) = A2 m c :=
  (W12_of_ne m ρ c main_arg2 (by decide)).trans (k11_arg2 m ρ c)
theorem k12_arg8 : W12 m ρ c (Proc.devRef .tc main_arg8) = A8 m c :=
  (W12_of_ne m ρ c main_arg8 (by decide)).trans (k11_arg8 m ρ c)
theorem k12_arg10 : W12 m ρ c (Proc.devRef .tc main_arg10) = A10 m c :=
  (W12_of_ne m ρ c main_arg10 (by decide)).trans (k11_arg10 m ρ c)
theorem k12_arg12 : W12 m ρ c (Proc.devRef .tc main_arg12) = A12 m c :=
  (W12_of_ne m ρ c main_arg12 (by decide)).trans (k11_arg12 m ρ c)
theorem k12_arg14 : W12 m ρ c (Proc.devRef .tc main_arg14) = A14 m c :=
  (W12_of_ne m ρ c main_arg14 (by decide)).trans (k11_arg14 m ρ c)
theorem k12_arg7 : W12 m ρ c (Proc.devRef .tc main_arg7) = A7 m c :=
  (W12_of_ne m ρ c main_arg7 (by decide)).trans (k11_arg7 m ρ c)
theorem k12_arg9 : W12 m ρ c (Proc.devRef .tc main_arg9) = A9 m c :=
  (W12_of_ne m ρ c main_arg9 (by decide)).trans (k11_arg9 m ρ c)
theorem k12_arg11 : W12 m ρ c (Proc.devRef .tc main_arg11) = A11 m c :=
  (W12_of_ne m ρ c main_arg11 (by decide)).trans (k11_arg11 m ρ c)
theorem k12_arg13 : W12 m ρ c (Proc.devRef .tc main_arg13) = A13 m c :=
  (W12_of_ne m ρ c main_arg13 (by decide)).trans (k11_arg13 m ρ c)

/-! ## Boundary 13 -/

theorem k13_v83 : W13 m ρ c (Proc.devRef .tc main_v83) = G2 m c :=
  (h6_v83 (W12 m ρ c)).trans (by rw [k12_v76 m ρ c, k12_v3 m ρ c]; unfold G2; rfl)
theorem k13_v3 : W13 m ρ c (Proc.devRef .tc main_v3) = SRC m c :=
  (keep6_v3 (W12 m ρ c)).trans (k12_v3 m ρ c)
theorem k13_v6 : W13 m ρ c (Proc.devRef .tc main_v6) = DST m c :=
  (keep6_v6 (W12 m ρ c)).trans (k12_v6 m ρ c)
theorem k13_v27 : W13 m ρ c (Proc.devRef .tc main_v27) = NRM m c :=
  (keep6_v27 (W12 m ρ c)).trans (k12_v27 m ρ c)
theorem k13_arg5 : W13 m ρ c (Proc.devRef .tc main_arg5) = A5 m c :=
  (keep6_arg5 (W12 m ρ c)).trans (k12_arg5 m ρ c)
theorem k13_arg6 : W13 m ρ c (Proc.devRef .tc main_arg6) = A6 m c :=
  (keep6_arg6 (W12 m ρ c)).trans (k12_arg6 m ρ c)
theorem k13_arg2 : W13 m ρ c (Proc.devRef .tc main_arg2) = A2 m c :=
  (keep6_arg2 (W12 m ρ c)).trans (k12_arg2 m ρ c)
theorem k13_arg8 : W13 m ρ c (Proc.devRef .tc main_arg8) = A8 m c :=
  (keep6_arg8 (W12 m ρ c)).trans (k12_arg8 m ρ c)
theorem k13_arg10 : W13 m ρ c (Proc.devRef .tc main_arg10) = A10 m c :=
  (keep6_arg10 (W12 m ρ c)).trans (k12_arg10 m ρ c)
theorem k13_arg12 : W13 m ρ c (Proc.devRef .tc main_arg12) = A12 m c :=
  (keep6_arg12 (W12 m ρ c)).trans (k12_arg12 m ρ c)
theorem k13_arg14 : W13 m ρ c (Proc.devRef .tc main_arg14) = A14 m c :=
  (keep6_arg14 (W12 m ρ c)).trans (k12_arg14 m ρ c)
theorem k13_arg7 : W13 m ρ c (Proc.devRef .tc main_arg7) = A7 m c :=
  (keep6_arg7 (W12 m ρ c)).trans (k12_arg7 m ρ c)
theorem k13_arg9 : W13 m ρ c (Proc.devRef .tc main_arg9) = A9 m c :=
  (keep6_arg9 (W12 m ρ c)).trans (k12_arg9 m ρ c)
theorem k13_arg11 : W13 m ρ c (Proc.devRef .tc main_arg11) = A11 m c :=
  (keep6_arg11 (W12 m ρ c)).trans (k12_arg11 m ρ c)
theorem k13_arg13 : W13 m ρ c (Proc.devRef .tc main_arg13) = A13 m c :=
  (keep6_arg13 (W12 m ρ c)).trans (k12_arg13 m ρ c)

/-! ## Boundary 14 -/

theorem k14_v84 : W14 m ρ c (Proc.devRef .tc main_v84) = MSG2 m c :=
  (W14_arr m ρ c 2).trans ((final6 (V13 m ρ) c).trans (by
    show scaleRows (W13 m ρ c (Proc.devRef .tc main_v83)) (W13 m ρ c (Proc.devRef .tc main_v27)) = _
    rw [k13_v83 m ρ c, k13_v27 m ρ c]
    exact scaled_bridge (G2 m c) (NRM m c)))
theorem k14_v3 : W14 m ρ c (Proc.devRef .tc main_v3) = SRC m c :=
  (W14_of_ne m ρ c main_v3 (by decide)).trans (k13_v3 m ρ c)
theorem k14_v6 : W14 m ρ c (Proc.devRef .tc main_v6) = DST m c :=
  (W14_of_ne m ρ c main_v6 (by decide)).trans (k13_v6 m ρ c)
theorem k14_v27 : W14 m ρ c (Proc.devRef .tc main_v27) = NRM m c :=
  ((W14_arr m ρ c 1).trans (((dat6 (V13 m ρ) c).arrAt_in 1 rfl _).trans (A_eq6 (V13 m ρ) c 1))).trans (k13_v27 m ρ c)
theorem k14_arg5 : W14 m ρ c (Proc.devRef .tc main_arg5) = A5 m c :=
  (W14_of_ne m ρ c main_arg5 (by decide)).trans (k13_arg5 m ρ c)
theorem k14_arg6 : W14 m ρ c (Proc.devRef .tc main_arg6) = A6 m c :=
  (W14_of_ne m ρ c main_arg6 (by decide)).trans (k13_arg6 m ρ c)
theorem k14_arg2 : W14 m ρ c (Proc.devRef .tc main_arg2) = A2 m c :=
  (W14_of_ne m ρ c main_arg2 (by decide)).trans (k13_arg2 m ρ c)
theorem k14_arg8 : W14 m ρ c (Proc.devRef .tc main_arg8) = A8 m c :=
  (W14_of_ne m ρ c main_arg8 (by decide)).trans (k13_arg8 m ρ c)
theorem k14_arg10 : W14 m ρ c (Proc.devRef .tc main_arg10) = A10 m c :=
  (W14_of_ne m ρ c main_arg10 (by decide)).trans (k13_arg10 m ρ c)
theorem k14_arg12 : W14 m ρ c (Proc.devRef .tc main_arg12) = A12 m c :=
  (W14_of_ne m ρ c main_arg12 (by decide)).trans (k13_arg12 m ρ c)
theorem k14_arg14 : W14 m ρ c (Proc.devRef .tc main_arg14) = A14 m c :=
  (W14_of_ne m ρ c main_arg14 (by decide)).trans (k13_arg14 m ρ c)
theorem k14_arg7 : W14 m ρ c (Proc.devRef .tc main_arg7) = A7 m c :=
  (W14_of_ne m ρ c main_arg7 (by decide)).trans (k13_arg7 m ρ c)
theorem k14_arg9 : W14 m ρ c (Proc.devRef .tc main_arg9) = A9 m c :=
  (W14_of_ne m ρ c main_arg9 (by decide)).trans (k13_arg9 m ρ c)
theorem k14_arg11 : W14 m ρ c (Proc.devRef .tc main_arg11) = A11 m c :=
  (W14_of_ne m ρ c main_arg11 (by decide)).trans (k13_arg11 m ρ c)
theorem k14_arg13 : W14 m ρ c (Proc.devRef .tc main_arg13) = A13 m c :=
  (W14_of_ne m ρ c main_arg13 (by decide)).trans (k13_arg13 m ρ c)

/-! ## Boundary 15 -/

theorem k15_v92 : W15 m ρ c (Proc.devRef .tc main_v92) = H3 m c :=
  (h7_v92 (W14 m ρ c)).trans (by rw [k14_v84 m ρ c, k14_v6 m ρ c, k14_arg6 m ρ c]; unfold H3; rfl)
theorem k15_v95 : W15 m ρ c (Proc.devRef .tc main_v95) = Cert.Spec.cw3 (A5 m c) :=
  (h7_v95 (W14 m ρ c)).trans (by rw [k14_arg5 m ρ c])
theorem k15_v96 : W15 m ρ c (Proc.devRef .tc main_v96) = zeroRow :=
  h7_v96 (W14 m ρ c)
theorem k15_v3 : W15 m ρ c (Proc.devRef .tc main_v3) = SRC m c :=
  (keep7_v3 (W14 m ρ c)).trans (k14_v3 m ρ c)
theorem k15_v6 : W15 m ρ c (Proc.devRef .tc main_v6) = DST m c :=
  (keep7_v6 (W14 m ρ c)).trans (k14_v6 m ρ c)
theorem k15_v27 : W15 m ρ c (Proc.devRef .tc main_v27) = NRM m c :=
  (keep7_v27 (W14 m ρ c)).trans (k14_v27 m ρ c)
theorem k15_arg6 : W15 m ρ c (Proc.devRef .tc main_arg6) = A6 m c :=
  (keep7_arg6 (W14 m ρ c)).trans (k14_arg6 m ρ c)
theorem k15_arg2 : W15 m ρ c (Proc.devRef .tc main_arg2) = A2 m c :=
  (keep7_arg2 (W14 m ρ c)).trans (k14_arg2 m ρ c)
theorem k15_arg8 : W15 m ρ c (Proc.devRef .tc main_arg8) = A8 m c :=
  (keep7_arg8 (W14 m ρ c)).trans (k14_arg8 m ρ c)
theorem k15_arg10 : W15 m ρ c (Proc.devRef .tc main_arg10) = A10 m c :=
  (keep7_arg10 (W14 m ρ c)).trans (k14_arg10 m ρ c)
theorem k15_arg12 : W15 m ρ c (Proc.devRef .tc main_arg12) = A12 m c :=
  (keep7_arg12 (W14 m ρ c)).trans (k14_arg12 m ρ c)
theorem k15_arg14 : W15 m ρ c (Proc.devRef .tc main_arg14) = A14 m c :=
  (keep7_arg14 (W14 m ρ c)).trans (k14_arg14 m ρ c)
theorem k15_arg7 : W15 m ρ c (Proc.devRef .tc main_arg7) = A7 m c :=
  (keep7_arg7 (W14 m ρ c)).trans (k14_arg7 m ρ c)
theorem k15_arg9 : W15 m ρ c (Proc.devRef .tc main_arg9) = A9 m c :=
  (keep7_arg9 (W14 m ρ c)).trans (k14_arg9 m ρ c)
theorem k15_arg11 : W15 m ρ c (Proc.devRef .tc main_arg11) = A11 m c :=
  (keep7_arg11 (W14 m ρ c)).trans (k14_arg11 m ρ c)
theorem k15_arg13 : W15 m ρ c (Proc.devRef .tc main_arg13) = A13 m c :=
  (keep7_arg13 (W14 m ρ c)).trans (k14_arg13 m ρ c)

/-! ## Boundary 16 -/

theorem k16_v97 : W16 m ρ c (Proc.devRef .tc main_v97) = M3 m c :=
  (W16_arr m ρ c 3).trans ((final7 (V15 m ρ) c).trans (by
    show affine (W15 m ρ c (Proc.devRef .tc main_v92)) (W15 m ρ c (Proc.devRef .tc main_v95)) (W15 m ρ c (Proc.devRef .tc main_v96)) = _
    rw [k15_v92 m ρ c, k15_v95 m ρ c, k15_v96 m ρ c]
    exact mm_bridge (H3 m c) (Cert.Spec.cw3 (A5 m c))))
theorem k16_v3 : W16 m ρ c (Proc.devRef .tc main_v3) = SRC m c :=
  (W16_of_ne m ρ c main_v3 (by decide)).trans (k15_v3 m ρ c)
theorem k16_v6 : W16 m ρ c (Proc.devRef .tc main_v6) = DST m c :=
  (W16_of_ne m ρ c main_v6 (by decide)).trans (k15_v6 m ρ c)
theorem k16_v27 : W16 m ρ c (Proc.devRef .tc main_v27) = NRM m c :=
  (W16_of_ne m ρ c main_v27 (by decide)).trans (k15_v27 m ρ c)
theorem k16_arg6 : W16 m ρ c (Proc.devRef .tc main_arg6) = A6 m c :=
  (W16_of_ne m ρ c main_arg6 (by decide)).trans (k15_arg6 m ρ c)
theorem k16_arg2 : W16 m ρ c (Proc.devRef .tc main_arg2) = A2 m c :=
  (W16_of_ne m ρ c main_arg2 (by decide)).trans (k15_arg2 m ρ c)
theorem k16_arg8 : W16 m ρ c (Proc.devRef .tc main_arg8) = A8 m c :=
  (W16_of_ne m ρ c main_arg8 (by decide)).trans (k15_arg8 m ρ c)
theorem k16_arg10 : W16 m ρ c (Proc.devRef .tc main_arg10) = A10 m c :=
  (W16_of_ne m ρ c main_arg10 (by decide)).trans (k15_arg10 m ρ c)
theorem k16_arg12 : W16 m ρ c (Proc.devRef .tc main_arg12) = A12 m c :=
  (W16_of_ne m ρ c main_arg12 (by decide)).trans (k15_arg12 m ρ c)
theorem k16_arg14 : W16 m ρ c (Proc.devRef .tc main_arg14) = A14 m c :=
  (W16_of_ne m ρ c main_arg14 (by decide)).trans (k15_arg14 m ρ c)
theorem k16_arg7 : W16 m ρ c (Proc.devRef .tc main_arg7) = A7 m c :=
  (W16_of_ne m ρ c main_arg7 (by decide)).trans (k15_arg7 m ρ c)
theorem k16_arg9 : W16 m ρ c (Proc.devRef .tc main_arg9) = A9 m c :=
  (W16_of_ne m ρ c main_arg9 (by decide)).trans (k15_arg9 m ρ c)
theorem k16_arg11 : W16 m ρ c (Proc.devRef .tc main_arg11) = A11 m c :=
  (W16_of_ne m ρ c main_arg11 (by decide)).trans (k15_arg11 m ρ c)
theorem k16_arg13 : W16 m ρ c (Proc.devRef .tc main_arg13) = A13 m c :=
  (W16_of_ne m ρ c main_arg13 (by decide)).trans (k15_arg13 m ρ c)

/-! ## Boundary 17 -/

theorem k17_v104 : W17 m ρ c (Proc.devRef .tc main_v104) = G3 m c :=
  (h8_v104 (W16 m ρ c)).trans (by rw [k16_v97 m ρ c, k16_v3 m ρ c]; unfold G3; rfl)
theorem k17_v6 : W17 m ρ c (Proc.devRef .tc main_v6) = DST m c :=
  (keep8_v6 (W16 m ρ c)).trans (k16_v6 m ρ c)
theorem k17_v27 : W17 m ρ c (Proc.devRef .tc main_v27) = NRM m c :=
  (keep8_v27 (W16 m ρ c)).trans (k16_v27 m ρ c)
theorem k17_arg6 : W17 m ρ c (Proc.devRef .tc main_arg6) = A6 m c :=
  (keep8_arg6 (W16 m ρ c)).trans (k16_arg6 m ρ c)
theorem k17_arg2 : W17 m ρ c (Proc.devRef .tc main_arg2) = A2 m c :=
  (keep8_arg2 (W16 m ρ c)).trans (k16_arg2 m ρ c)
theorem k17_arg8 : W17 m ρ c (Proc.devRef .tc main_arg8) = A8 m c :=
  (keep8_arg8 (W16 m ρ c)).trans (k16_arg8 m ρ c)
theorem k17_arg10 : W17 m ρ c (Proc.devRef .tc main_arg10) = A10 m c :=
  (keep8_arg10 (W16 m ρ c)).trans (k16_arg10 m ρ c)
theorem k17_arg12 : W17 m ρ c (Proc.devRef .tc main_arg12) = A12 m c :=
  (keep8_arg12 (W16 m ρ c)).trans (k16_arg12 m ρ c)
theorem k17_arg14 : W17 m ρ c (Proc.devRef .tc main_arg14) = A14 m c :=
  (keep8_arg14 (W16 m ρ c)).trans (k16_arg14 m ρ c)
theorem k17_arg7 : W17 m ρ c (Proc.devRef .tc main_arg7) = A7 m c :=
  (keep8_arg7 (W16 m ρ c)).trans (k16_arg7 m ρ c)
theorem k17_arg9 : W17 m ρ c (Proc.devRef .tc main_arg9) = A9 m c :=
  (keep8_arg9 (W16 m ρ c)).trans (k16_arg9 m ρ c)
theorem k17_arg11 : W17 m ρ c (Proc.devRef .tc main_arg11) = A11 m c :=
  (keep8_arg11 (W16 m ρ c)).trans (k16_arg11 m ρ c)
theorem k17_arg13 : W17 m ρ c (Proc.devRef .tc main_arg13) = A13 m c :=
  (keep8_arg13 (W16 m ρ c)).trans (k16_arg13 m ρ c)

/-! ## Boundary 18 -/

theorem k18_v105 : W18 m ρ c (Proc.devRef .tc main_v105) = MSG3 m c :=
  (W18_arr m ρ c 2).trans ((final8 (V17 m ρ) c).trans (by
    show scaleRows (W17 m ρ c (Proc.devRef .tc main_v104)) (W17 m ρ c (Proc.devRef .tc main_v27)) = _
    rw [k17_v104 m ρ c, k17_v27 m ρ c]
    exact scaled_bridge (G3 m c) (NRM m c)))
theorem k18_v6 : W18 m ρ c (Proc.devRef .tc main_v6) = DST m c :=
  (W18_of_ne m ρ c main_v6 (by decide)).trans (k17_v6 m ρ c)
theorem k18_arg6 : W18 m ρ c (Proc.devRef .tc main_arg6) = A6 m c :=
  (W18_of_ne m ρ c main_arg6 (by decide)).trans (k17_arg6 m ρ c)
theorem k18_arg2 : W18 m ρ c (Proc.devRef .tc main_arg2) = A2 m c :=
  (W18_of_ne m ρ c main_arg2 (by decide)).trans (k17_arg2 m ρ c)
theorem k18_arg8 : W18 m ρ c (Proc.devRef .tc main_arg8) = A8 m c :=
  (W18_of_ne m ρ c main_arg8 (by decide)).trans (k17_arg8 m ρ c)
theorem k18_arg10 : W18 m ρ c (Proc.devRef .tc main_arg10) = A10 m c :=
  (W18_of_ne m ρ c main_arg10 (by decide)).trans (k17_arg10 m ρ c)
theorem k18_arg12 : W18 m ρ c (Proc.devRef .tc main_arg12) = A12 m c :=
  (W18_of_ne m ρ c main_arg12 (by decide)).trans (k17_arg12 m ρ c)
theorem k18_arg14 : W18 m ρ c (Proc.devRef .tc main_arg14) = A14 m c :=
  (W18_of_ne m ρ c main_arg14 (by decide)).trans (k17_arg14 m ρ c)
theorem k18_arg7 : W18 m ρ c (Proc.devRef .tc main_arg7) = A7 m c :=
  (W18_of_ne m ρ c main_arg7 (by decide)).trans (k17_arg7 m ρ c)
theorem k18_arg9 : W18 m ρ c (Proc.devRef .tc main_arg9) = A9 m c :=
  (W18_of_ne m ρ c main_arg9 (by decide)).trans (k17_arg9 m ρ c)
theorem k18_arg11 : W18 m ρ c (Proc.devRef .tc main_arg11) = A11 m c :=
  (W18_of_ne m ρ c main_arg11 (by decide)).trans (k17_arg11 m ρ c)
theorem k18_arg13 : W18 m ρ c (Proc.devRef .tc main_arg13) = A13 m c :=
  (W18_of_ne m ρ c main_arg13 (by decide)).trans (k17_arg13 m ρ c)

/-! ## Boundary 19 -/

theorem k19_v125 : W19 m ρ c (Proc.devRef .tc main_v125) = HG m c :=
  (h9_v125 (W18 m ρ c)).trans (by rw [k18_v105 m ρ c, k18_v6 m ρ c, k18_arg6 m ρ c, k18_arg2 m ρ c]; unfold HG H4; rfl)
theorem k19_v126 : W19 m ρ c (Proc.devRef .tc main_v126) = rowOf (A8 m c) :=
  (h9_v126 (W18 m ρ c)).trans (by rw [k18_arg8 m ρ c])
theorem k19_v127 : W19 m ρ c (Proc.devRef .tc main_v127) = rowOf (A10 m c) :=
  (h9_v127 (W18 m ρ c)).trans (by rw [k18_arg10 m ρ c])
theorem k19_v128 : W19 m ρ c (Proc.devRef .tc main_v128) = rowOf (A12 m c) :=
  (h9_v128 (W18 m ρ c)).trans (by rw [k18_arg12 m ρ c])
theorem k19_v129 : W19 m ρ c (Proc.devRef .tc main_v129) = oneOf (A14 m c) :=
  (h9_v129 (W18 m ρ c)).trans (by rw [k18_arg14 m ρ c])
theorem k19_arg7 : W19 m ρ c (Proc.devRef .tc main_arg7) = A7 m c :=
  (keep9_arg7 (W18 m ρ c)).trans (k18_arg7 m ρ c)
theorem k19_arg9 : W19 m ρ c (Proc.devRef .tc main_arg9) = A9 m c :=
  (keep9_arg9 (W18 m ρ c)).trans (k18_arg9 m ρ c)
theorem k19_arg11 : W19 m ρ c (Proc.devRef .tc main_arg11) = A11 m c :=
  (keep9_arg11 (W18 m ρ c)).trans (k18_arg11 m ρ c)
theorem k19_arg13 : W19 m ρ c (Proc.devRef .tc main_arg13) = A13 m c :=
  (keep9_arg13 (W18 m ρ c)).trans (k18_arg13 m ρ c)

/-! ## The results -/

theorem result_mu : W20 m ρ c (Proc.devRef .tc main_v130_0) = Cert.Spec.head (HG m c) (A7 m c) (A8 m c) :=
  (W20_arr m ρ c 9).trans ((final9_mu (V19 m ρ) c).trans (by
    show affine (W19 m ρ c (Proc.devRef .tc main_v125)) (W19 m ρ c (Proc.devRef .tc main_arg7)) (W19 m ρ c (Proc.devRef .tc main_v126)) = _
    rw [k19_v125 m ρ c, k19_arg7 m ρ c, k19_v126 m ρ c]
    exact head_bridge (HG m c) (A7 m c) (A8 m c)))
theorem result_logVar : W20 m ρ c (Proc.devRef .tc main_v130_1) = Cert.Spec.head (HG m c) (A9 m c) (A10 m c) :=
  (W20_arr m ρ c 10).trans ((final9_lv (V19 m ρ) c).trans (by
    show affine (W19 m ρ c (Proc.devRef .tc main_v125)) (W19 m ρ c (Proc.devRef .tc main_arg9)) (W19 m ρ c (Proc.devRef .tc main_v127)) = _
    rw [k19_v125 m ρ c, k19_arg9 m ρ c, k19_v127 m ρ c]
    exact head_bridge (HG m c) (A9 m c) (A10 m c)))
theorem result_prop : W20 m ρ c (Proc.devRef .tc main_v130_2)
    = Cert.Spec.headOut (Cert.Spec.reluH (Cert.Spec.head (Cert.Spec.head (HG m c) (A7 m c) (A8 m c)) (A11 m c) (A12 m c))) (A13 m c) (A14 m c) :=
  (W20_arr m ρ c 11).trans ((final9_prop (V19 m ρ) c).trans (by
    show affine (relu (affine (affine (W19 m ρ c (Proc.devRef .tc main_v125)) (W19 m ρ c (Proc.devRef .tc main_arg7)) (W19 m ρ c (Proc.devRef .tc main_v126))) (W19 m ρ c (Proc.devRef .tc main_arg11)) (W19 m ρ c (Proc.devRef .tc main_v128)))) (W19 m ρ c (Proc.devRef .tc main_arg13)) (W19 m ρ c (Proc.devRef .tc main_v129)) = _
    rw [k19_v125 m ρ c, k19_arg7 m ρ c, k19_v126 m ρ c, k19_arg11 m ρ c, k19_v128 m ρ c, k19_arg13 m ρ c, k19_v129 m ρ c]
    rw [head_bridge (HG m c) (A7 m c) (A8 m c), head_bridge _ (A11 m c) (A12 m c), relu_bridge, headOut_bridge]))

/-- The pooled features are the network's, as one function of the argument arrays. -/
theorem HG_eq : HG m c = Cert.Spec.graphs (A0 m c) (A1 m c) (A2 m c) (A3 m c) (A4 m c) (A5 m c) (A6 m c) := by
  unfold HG H4 MSG3 G3 M3 H3 MSG2 G2 M2 H2 MSG1 G1 M1 H1 MSG0 G0 M0 H0 NRM DST SRC
  rfl

end Cert.KernelIdeal.Chain

end
-- ==== Proof.RefSide.lean ====
/-
  The reference program's three results are the network of Spec.lean at the argument arrays: its run's result terms are
  that composition of host operations, operation for operation, so each equation holds by unfolding the names.
-/
import proofs.«100850_j27204322853289_2_alg».proof.Proof.Gen.ReferenceIdeal.Run
import proofs.«100850_j27204322853289_2_alg».proof.Proof.Spec

set_option maxRecDepth 16384

noncomputable section

namespace Cert.RefSide

open Cert.ReferenceIdeal Cert.ReferenceIdeal.Gen Cert.ReferenceIdeal.Value Cert.Spec
open Idealize.ShloMosaic Idealize.ShloMosaic.TcCoe Idealize.SL.Sem

variable (m : (ℓ : Loc nD τ sig) → Buf (Elt Ideal) ℓ) (c : Dev nD)

/-- The first result is the mean head of the pooled graph features. -/
theorem res_mu : res_main_v127 (F := Ideal) m c = head (graphs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  unfold res_main_v127
  rfl

/-- The second result is the log-variance head of the pooled graph features. -/
theorem res_logVar : res_main_v131 (F := Ideal) m c = head (graphs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)) := by
  unfold res_main_v131
  rfl

/-- The third result is the property head applied to the mean head's output. -/
theorem res_prop : res_main_v140 (F := Ideal) m c
    = headOut (reluH (head (head (graphs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg11)) (m ((c.tc : Thread nD τ).loc main_arg12)))) (m ((c.tc : Thread nD τ).loc main_arg13)) (m ((c.tc : Thread nD τ).loc main_arg14)) := by
  unfold res_main_v140
  rfl

end Cert.RefSide

end
-- ==== Proof.lean ====
/-
  The certificate of a four-layer graph-convolution encoder with pooled linear heads, computed by ten tiled regions among
  host operations, against its plain host reference.

  Both programs compute, at the ideal values (floats as extended reals, every operation exact, format changes the
  identity), the network of Spec.lean at the argument arrays: h₀ = x · W_in + b_in; four times h ↦ segment-sum over the
  target ids of ((h · W_l)[source ids] · weight) + b_l, the weight dinv[source] · dinv[target] with dinv the inverse square
  root of the in-degree, self-loops included; the mean of the node rows per graph; then mu = g · W_mu + b_mu,
  log_var = g · W_lv + b_lv and prop = max(mu · W_1 + b_1, 0) · W_2 + b_2. The kernel program computes each dense product in
  tiles of 10000 rows (a zero bias row where the layer has none), each message scaling in tiles of 10000 messages, and the
  three heads in one region; the gathers, the segment sums and the pool are the same host operations in both programs.
  The two sides therefore meet operation for operation: a tiled product plus a bias row is the host's product plus the
  broadcast bias (one exact sum and one addition per entry), adding the zero row changes nothing, and the row scaling is the
  host's product with the spread column. No step uses the finiteness of the inputs.

  The frames of the two kernel programs are the generated frames; the reference's frame is its generated run with the
  results dropped; the idealization rewrote no operation.
-/
import proofs.«100850_j27204322853289_2_alg».proof.Defs
import proofs.«100850_j27204322853289_2_alg».proof.Proof.Gen.Kernel
import proofs.«100850_j27204322853289_2_alg».proof.Proof.Gen.Kernel.Frame
import proofs.«100850_j27204322853289_2_alg».proof.Proof.Gen.KernelIdeal
import proofs.«100850_j27204322853289_2_alg».proof.Proof.Gen.KernelIdeal.Frame
import proofs.«100850_j27204322853289_2_alg».proof.Proof.Gen.ReferenceIdeal
import proofs.«100850_j27204322853289_2_alg».proof.Proof.Gen.ReferenceIdeal.Run
import proofs.«100850_j27204322853289_2_alg».proof.Proof.Gen.Pre_finite_inputs
import proofs.«100850_j27204322853289_2_alg».proof.Proof.KRun
import proofs.«100850_j27204322853289_2_alg».proof.Proof.Chain
import proofs.«100850_j27204322853289_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2)
    (Cert.ReferenceIdeal.Value.run (F := Ideal) m ρ)

/-- The kernel program's first result is the network's mean head at the argument arrays. -/
theorem kernel_mu (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W20 m ρ c (Proc.devRef .tc Cert.KernelIdeal.main_v130_0) = Cert.Spec.head (Cert.Spec.graphs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  (Cert.KernelIdeal.Chain.result_mu m ρ c).trans (by rw [Cert.KernelIdeal.Chain.HG_eq])

theorem kernel_logVar (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W20 m ρ c (Proc.devRef .tc Cert.KernelIdeal.main_v130_1) = Cert.Spec.head (Cert.Spec.graphs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
  (Cert.KernelIdeal.Chain.result_logVar m ρ c).trans (by rw [Cert.KernelIdeal.Chain.HG_eq])

theorem kernel_prop (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W20 m ρ c (Proc.devRef .tc Cert.KernelIdeal.main_v130_2) = Cert.Spec.headOut (Cert.Spec.reluH (Cert.Spec.head (Cert.Spec.head (Cert.Spec.graphs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  (Cert.KernelIdeal.Chain.result_prop m ρ c).trans (by rw [Cert.KernelIdeal.Chain.HG_eq])

/-- Both idealized programs end with the network's three values at arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.head (Cert.Spec.graphs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => Cert.Spec.head (Cert.Spec.graphs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), fun c => Cert.Spec.headOut (Cert.Spec.reluH (Cert.Spec.head (Cert.Spec.head (Cert.Spec.graphs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (kernel_mu m ρ c), (h c).2.1.trans (kernel_logVar m ρ c),
        (h c).2.2.1.trans (kernel_prop m ρ c), (h c).2.2.2⟩)
      (Cert.KernelIdeal.Gen.run_named (F := Ideal) m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.RefSide.res_mu, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    · rw [Cert.RefSide.res_logVar, (hagree c).1, (hagree c).2.1, (hagree c).2.2.1, (hagree c).2.2.2.1, (hagree c).2.2.2.2.1, (hagree c).2.2.2.2.2.1, (hagree c).2.2.2.2.2.2.1, (hagree c).2.2.2.2.2.2.2.2.2.1, (hagree c).2.2.2.2.2.2.2.2.2.2.1]
    · rw [Cert.RefSide.res_prop, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
